-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v150)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v150) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S1000000 : Shape := ⟨1, ![1000000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg19 : FVec F S128 .f32) (main_arg20 : FVec F S128x128 .f32) (main_arg21 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg19
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg20
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg21
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_v33 : IVec S_ 1) : IVec S_ 1 :=
  let main_v34 : FVec F S128 .f32 := Host.absf main_arg15
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg16
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg17
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg18
  let main_cst_18 : FVec F S_ .f32 := constant S_ .f32 0x7F800000#32
  let main_v50 : FVec F S128x128 .f32 := broadcastInDim S128x128 ![] bcast_S_S128x128 main_cst_18
  fn_part3 (F := F) main_arg19 main_arg20 main_arg21 main_v48 main_v49 main_v50

def fn_part1 {F : FTy → Type} [FloatOps F] (main_arg10 : FVec F S1000000 .f32) (main_arg13 : FVec F S1000000 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  let main_v19 : FVec F S1000000 .f32 := Host.absf main_arg10
  let main_cst_6 : FVec F S_ .f32 := constant S_ .f32 0x7F800000#32
  let main_v20 : FVec F S1000000 .f32 := broadcastInDim S1000000 ![] bcast_S_S1000000 main_cst_6
  let main_v21 : IVec S1000000 1 := cmpf .olt main_v19 main_v20
  let main_c_7 : IVec S_ 1 := constantI S_ 1 1#1
  let main_v22 : IVec S_ 1 := (fun x v => Host.reduce IntOp.andi x v reducesTo_S1000000_S_d0 h_S_) main_v21 main_c_7
  let main_v23 : IVec S_ 1 := andi main_v18 main_v22
  let main_v24 : FVec F S1000000 .f32 := Host.absf main_arg13
  let main_cst_8 : FVec F S_ .f32 := constant S_ .f32 0x7F800000#32
  let main_v25 : FVec F S1000000 .f32 := broadcastInDim S1000000 ![] bcast_S_S1000000 main_cst_8
  let main_v26 : IVec S1000000 1 := cmpf .olt main_v24 main_v25
  let main_c_9 : IVec S_ 1 := constantI S_ 1 1#1
  let main_v27 : IVec S_ 1 := (fun x v => Host.reduce IntOp.andi x v reducesTo_S1000000_S_d0 h_S_) main_v26 main_c_9
  let main_v28 : IVec S_ 1 := andi main_v23 main_v27
  let main_v29 : FVec F S128x128 .f32 := Host.absf main_arg14
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg15 main_arg16 main_arg17 main_arg18 main_arg19 main_arg20 main_arg21 main_v33

def fn {F : FTy → Type} [FloatOps F] (main_arg0 : FVec F S40000x128 .f32) (main_arg1 : FVec F S40000x128 .f32) (main_arg2 : IVec S1000000 32) (main_arg3 : IVec S1000000 32) (main_arg4 : FVec F S1000000 .f32) (main_arg5 : IVec S1000000 32) (main_arg6 : IVec S1000000 32) (main_arg7 : FVec F S1000000 .f32) (main_arg8 : IVec S1000000 32) (main_arg9 : IVec S1000000 32) (main_arg10 : FVec F S1000000 .f32) (main_arg11 : IVec S1000000 32) (main_arg12 : IVec S1000000 32) (main_arg13 : FVec F S1000000 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S40000x128 .f32 := Host.absf main_arg1
  let main_cst_0 : FVec F S_ .f32 := constant S_ .f32 0x7F800000#32
  let main_v5 : FVec F S40000x128 .f32 := broadcastInDim S40000x128 ![] bcast_S_S40000x128 main_cst_0
  let main_v6 : IVec S40000x128 1 := cmpf .olt main_v4 main_v5
  let main_c_1 : IVec S_ 1 := constantI S_ 1 1#1
  let main_v7 : IVec S_ 1 := (fun x v => Host.reduce IntOp.andi x v reducesTo_S40000x128_S_d0_1 h_S_) main_v6 main_c_1
  let main_v8 : IVec S_ 1 := andi main_v3 main_v7
  let main_v9 : FVec F S1000000 .f32 := Host.absf main_arg4
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S1000000 .f32 := Host.absf main_arg7
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_arg10 main_arg13 main_arg14 main_arg15 main_arg16 main_arg17 main_arg18 main_arg19 main_arg20 main_arg21 main_v13 main_v16
-- ==== Kernel.lean ====
abbrev S40000x128 : Shape := ⟨2, ![40000, 128]⟩
abbrev S1000000 : Shape := ⟨1, ![1000000]⟩
abbrev S128x128 : Shape := ⟨2, ![128, 128]⟩
abbrev S128 : Shape := ⟨1, ![128]⟩
abbrev S4000x128 : Shape := ⟨2, ![4000, 128]⟩
abbrev S_ : Shape := ⟨0, ![]⟩
abbrev S40000 : Shape := ⟨1, ![40000]⟩
abbrev S1000000x1 : Shape := ⟨2, ![1000000, 1]⟩
abbrev S1000000x128 : Shape := ⟨2, ![1000000, 128]⟩
abbrev S1x128 : Shape := ⟨2, ![1, 128]⟩
abbrev S2x40000x128 : Shape := ⟨3, ![2, 40000, 128]⟩
abbrev S2000x128 : Shape := ⟨2, ![2000, 128]⟩
abbrev S2x2000x128 : Shape := ⟨3, ![2, 2000, 128]⟩
abbrev S1x2000x128 : Shape := ⟨3, ![1, 2000, 128]⟩

abbrev nBuf : Space → Nat
  | .hbm => 211
  | .vmem => 30
  | .smem => 0
  | _ => 0

abbrev hbmTy0_0 (i : Nat) : BufTy := match i % 128 with
  | 0 => ⟨S40000x128, .f32⟩
  | 1 => ⟨S40000x128, .f32⟩
  | 2 => ⟨S1000000, .i32⟩
  | 3 => ⟨S1000000, .i32⟩
  | 4 => ⟨S1000000, .f32⟩
  | 5 => ⟨S1000000, .i32⟩
  | 6 => ⟨S1000000, .i32⟩
  | 7 => ⟨S1000000, .f32⟩
  | 8 => ⟨S1000000, .i32⟩
  | 9 => ⟨S1000000, .i32⟩
  | 10 => ⟨S1000000, .f32⟩
  | 11 => ⟨S1000000, .i32⟩
  | 12 => ⟨S1000000, .i32⟩
  | 13 => ⟨S1000000, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128x128, .f32⟩
  | 21 => ⟨S128, .f32⟩
  | 22 => ⟨S40000x128, .f32⟩
  | 23 => ⟨S40000x128, .f32⟩
  | 24 => ⟨S40000x128, .f32⟩
  | 25 => ⟨S40000x128, .f32⟩
  | 26 => ⟨S_, .f32⟩
  | 27 => ⟨S40000, .f32⟩
  | 28 => ⟨S1000000x1, .i32⟩
  | 29 => ⟨S40000, .f32⟩
  | 30 => ⟨S_, .f32⟩
  | 31 => ⟨S40000, .f32⟩
  | 32 => ⟨S1000000x1, .i32⟩
  | 33 => ⟨S40000, .f32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S1000000, .f32⟩
  | 43 => ⟨S_, .i32⟩
  | 44 => ⟨S1000000, .i32⟩
  | 45 => ⟨S1000000, .i1⟩
  | 46 => ⟨S_, .i32⟩
  | 47 => ⟨S1000000, .i32⟩
  | 48 => ⟨S1000000, .i32⟩
  | 49 => ⟨S1000000, .i32⟩
  | 50 => ⟨S1000000x1, .i32⟩
  | 51 => ⟨S1000000, .f32⟩
  | 52 => ⟨S1000000, .f32⟩
  | 53 => ⟨S1000000, .f32⟩
  | 54 => ⟨S1000000, .f32⟩
  | 55 => ⟨S_, .i32⟩
  | 56 => ⟨S1000000, .i32⟩
  | 57 => ⟨S1000000, .i1⟩
  | 58 => ⟨S_, .i32⟩
  | 59 => ⟨S1000000, .i32⟩
  | 60 => ⟨S1000000, .i32⟩
  | 61 => ⟨S1000000, .i32⟩
  | 62 => ⟨S1000000x1, .i32⟩
  | 63 => ⟨S1000000x128, .f32⟩
  | 64 => ⟨S1000000x1, .f32⟩
  | 65 => ⟨S1000000x128, .f32⟩
  | 66 => ⟨S1000000x128, .f32⟩
  | 67 => ⟨S_, .f32⟩
  | 68 => ⟨S40000x128, .f32⟩
  | 69 => ⟨S1000000x1, .i32⟩
  | 70 => ⟨S40000x128, .f32⟩
  | 71 => ⟨S_, .f32⟩
  | 72 => ⟨S40000, .f32⟩
  | 73 => ⟨S1000000x1, .i32⟩
  | 74 => ⟨S40000, .f32⟩
  | 75 => ⟨S_, .f32⟩
  | 76 => ⟨S40000, .f32⟩
  | 77 => ⟨S1000000x1, .i32⟩
  | 78 => ⟨S40000, .f32⟩
  | 79 => ⟨S_, .i32⟩
  | 80 => ⟨S1000000, .i32⟩
  | 81 => ⟨S1000000, .i1⟩
  | 82 => ⟨S_, .i32⟩
  | 83 => ⟨S1000000, .i32⟩
  | 84 => ⟨S1000000, .i32⟩
  | 85 => ⟨S1000000, .i32⟩
  | 86 => ⟨S1000000x1, .i32⟩
  | 87 => ⟨S1000000, .f32⟩
  | 88 => ⟨S_, .i32⟩
  | 89 => ⟨S1000000, .i32⟩
  | 90 => ⟨S1000000, .i1⟩
  | 91 => ⟨S_, .i32⟩
  | 92 => ⟨S1000000, .i32⟩
  | 93 => ⟨S1000000, .i32⟩
  | 94 => ⟨S1000000, .i32⟩
  | 95 => ⟨S1000000x1, .i32⟩
  | 96 => ⟨S1000000, .f32⟩
  | 97 => ⟨S1000000, .f32⟩
  | 98 => ⟨S1000000, .f32⟩
  | 99 => ⟨S1000000, .f32⟩
  | 100 => ⟨S_, .i32⟩
  | 101 => ⟨S1000000, .i32⟩
  | 102 => ⟨S1000000, .i1⟩
  | 103 => ⟨S_, .i32⟩
  | 104 => ⟨S1000000, .i32⟩
  | 105 => ⟨S1000000, .i32⟩
  | 106 => ⟨S1000000, .i32⟩
  | 107 => ⟨S1000000x1, .i32⟩
  | 108 => ⟨S1000000x128, .f32⟩
  | 109 => ⟨S1000000x1, .f32⟩
  | 110 => ⟨S1000000x128, .f32⟩
  | 111 => ⟨S1000000x128, .f32⟩
  | 112 => ⟨S_, .f32⟩
  | 113 => ⟨S40000x128, .f32⟩
  | 114 => ⟨S1000000x1, .i32⟩
  | 115 => ⟨S40000x128, .f32⟩
  | 116 => ⟨S_, .f32⟩
  | 117 => ⟨S40000, .f32⟩
  | 118 => ⟨S1000000x1, .i32⟩
  | 119 => ⟨S40000, .f32⟩
  | 120 => ⟨S_, .f32⟩
  | 121 => ⟨S40000, .f32⟩
  | 122 => ⟨S1000000x1, .i32⟩
  | 123 => ⟨S40000, .f32⟩
  | 124 => ⟨S_, .i32⟩
  | 125 => ⟨S1000000, .i32⟩
  | 126 => ⟨S1000000, .i1⟩
  | 127 => ⟨S_, .i32⟩
  | _ => ⟨S40000x128, .f32⟩

abbrev hbmTy0_1 (i : Nat) : BufTy := match i % 128 with
  | 0 => ⟨S1000000, .i32⟩
  | 1 => ⟨S1000000, .i32⟩
  | 2 => ⟨S1000000, .i32⟩
  | 3 => ⟨S1000000x1, .i32⟩
  | 4 => ⟨S1000000, .f32⟩
  | 5 => ⟨S_, .i32⟩
  | 6 => ⟨S1000000, .i32⟩
  | 7 => ⟨S1000000, .i1⟩
  | 8 => ⟨S_, .i32⟩
  | 9 => ⟨S1000000, .i32⟩
  | 10 => ⟨S1000000, .i32⟩
  | 11 => ⟨S1000000, .i32⟩
  | 12 => ⟨S1000000x1, .i32⟩
  | 13 => ⟨S1000000, .f32⟩
  | 14 => ⟨S1000000, .f32⟩
  | 15 => ⟨S1000000, .f32⟩
  | 16 => ⟨S1000000, .f32⟩
  | 17 => ⟨S_, .i32⟩
  | 18 => ⟨S1000000, .i32⟩
  | 19 => ⟨S1000000, .i1⟩
  | 20 => ⟨S_, .i32⟩
  | 21 => ⟨S1000000, .i32⟩
  | 22 => ⟨S1000000, .i32⟩
  | 23 => ⟨S1000000, .i32⟩
  | 24 => ⟨S1000000x1, .i32⟩
  | 25 => ⟨S1000000x128, .f32⟩
  | 26 => ⟨S1000000x1, .f32⟩
  | 27 => ⟨S1000000x128, .f32⟩
  | 28 => ⟨S1000000x128, .f32⟩
  | 29 => ⟨S_, .f32⟩
  | 30 => ⟨S40000x128, .f32⟩
  | 31 => ⟨S1000000x1, .i32⟩
  | 32 => ⟨S40000x128, .f32⟩
  | 33 => ⟨S_, .f32⟩
  | 34 => ⟨S40000, .f32⟩
  | 35 => ⟨S1000000x1, .i32⟩
  | 36 => ⟨S40000, .f32⟩
  | 37 => ⟨S_, .f32⟩
  | 38 => ⟨S40000, .f32⟩
  | 39 => ⟨S1000000x1, .i32⟩
  | 40 => ⟨S40000, .f32⟩
  | 41 => ⟨S_, .i32⟩
  | 42 => ⟨S1000000, .i32⟩
  | 43 => ⟨S1000000, .i1⟩
  | 44 => ⟨S_, .i32⟩
  | 45 => ⟨S1000000, .i32⟩
  | 46 => ⟨S1000000, .i32⟩
  | 47 => ⟨S1000000, .i32⟩
  | 48 => ⟨S1000000x1, .i32⟩
  | 49 => ⟨S1000000, .f32⟩
  | 50 => ⟨S_, .i32⟩
  | 51 => ⟨S1000000, .i32⟩
  | 52 => ⟨S1000000, .i1⟩
  | 53 => ⟨S_, .i32⟩
  | 54 => ⟨S1000000, .i32⟩
  | 55 => ⟨S1000000, .i32⟩
  | 56 => ⟨S1000000, .i32⟩
  | 57 => ⟨S1000000x1, .i32⟩
  | 58 => ⟨S1000000, .f32⟩
  | 59 => ⟨S1000000, .f32⟩
  | 60 => ⟨S1000000, .f32⟩
  | 61 => ⟨S1000000, .f32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S1000000x1, .i32⟩
  | 70 => ⟨S1000000x128, .f32⟩
  | 71 => ⟨S1000000x1, .f32⟩
  | 72 => ⟨S1000000x128, .f32⟩
  | 73 => ⟨S1000000x128, .f32⟩
  | 74 => ⟨S_, .f32⟩
  | 75 => ⟨S40000x128, .f32⟩
  | 76 => ⟨S1000000x1, .i32⟩
  | 77 => ⟨S40000x128, .f32⟩
  | 78 => ⟨S1x128, .f32⟩
  | 79 => ⟨S1x128, .f32⟩
  | 80 => ⟨S1x128, .f32⟩
  | 81 => ⟨S1x128, .f32⟩
  | 82 => ⟨S2x40000x128, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S128x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S128x128, .f32⟩
  | .local _ .vmem, ⟨11, _⟩ => ⟨S128x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S2x2000x128, .f32⟩
  | .local _ .vmem, ⟨29, _⟩ => ⟨S2x2000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0_0 : Ref sig .tc := ⟨.hbm, 22, rfl⟩
abbrev main_v0_1 : Ref sig .tc := ⟨.hbm, 23, rfl⟩
abbrev main_v1_0 : Ref sig .tc := ⟨.hbm, 24, rfl⟩
abbrev main_v1_1 : Ref sig .tc := ⟨.hbm, 25, rfl⟩
abbrev main_cst : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_cst_0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_c : Ref sig .tc := ⟨.hbm, 34, rfl⟩
abbrev main_v8 : Ref sig .tc := ⟨.hbm, 35, rfl⟩
abbrev main_v9 : Ref sig .tc := ⟨.hbm, 36, rfl⟩
abbrev main_c_1 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_c_2 : Ref sig .tc := ⟨.hbm, 43, rfl⟩
abbrev main_v15 : Ref sig .tc := ⟨.hbm, 44, rfl⟩
abbrev main_v16 : Ref sig .tc := ⟨.hbm, 45, rfl⟩
abbrev main_c_3 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_c_4 : Ref sig .tc := ⟨.hbm, 55, rfl⟩
abbrev main_v25 : Ref sig .tc := ⟨.hbm, 56, rfl⟩
abbrev main_v26 : Ref sig .tc := ⟨.hbm, 57, rfl⟩
abbrev main_c_5 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_6 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_7 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_8 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_c_9 : Ref sig .tc := ⟨.hbm, 79, rfl⟩
abbrev main_v44 : Ref sig .tc := ⟨.hbm, 80, rfl⟩
abbrev main_v45 : Ref sig .tc := ⟨.hbm, 81, rfl⟩
abbrev main_c_10 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_c_11 : Ref sig .tc := ⟨.hbm, 88, rfl⟩
abbrev main_v51 : Ref sig .tc := ⟨.hbm, 89, rfl⟩
abbrev main_v52 : Ref sig .tc := ⟨.hbm, 90, rfl⟩
abbrev main_c_12 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_c_13 : Ref sig .tc := ⟨.hbm, 100, rfl⟩
abbrev main_v61 : Ref sig .tc := ⟨.hbm, 101, rfl⟩
abbrev main_v62 : Ref sig .tc := ⟨.hbm, 102, rfl⟩
abbrev main_c_14 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_15 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_16 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_17 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_c_18 : Ref sig .tc := ⟨.hbm, 124, rfl⟩
abbrev main_v80 : Ref sig .tc := ⟨.hbm, 125, rfl⟩
abbrev main_v81 : Ref sig .tc := ⟨.hbm, 126, rfl⟩
abbrev main_c_19 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_c_20 : Ref sig .tc := ⟨.hbm, 133, rfl⟩
abbrev main_v87 : Ref sig .tc := ⟨.hbm, 134, rfl⟩
abbrev main_v88 : Ref sig .tc := ⟨.hbm, 135, rfl⟩
abbrev main_c_21 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_c_22 : Ref sig .tc := ⟨.hbm, 145, rfl⟩
abbrev main_v97 : Ref sig .tc := ⟨.hbm, 146, rfl⟩
abbrev main_v98 : Ref sig .tc := ⟨.hbm, 147, rfl⟩
abbrev main_c_23 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_cst_24 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_cst_25 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_cst_26 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_c_27 : Ref sig .tc := ⟨.hbm, 169, rfl⟩
abbrev main_v116 : Ref sig .tc := ⟨.hbm, 170, rfl⟩
abbrev main_v117 : Ref sig .tc := ⟨.hbm, 171, rfl⟩
abbrev main_c_28 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_c_29 : Ref sig .tc := ⟨.hbm, 178, rfl⟩
abbrev main_v123 : Ref sig .tc := ⟨.hbm, 179, rfl⟩
abbrev main_v124 : Ref sig .tc := ⟨.hbm, 180, rfl⟩
abbrev main_c_30 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_c_31 : Ref sig .tc := ⟨.hbm, 190, rfl⟩
abbrev main_v133 : Ref sig .tc := ⟨.hbm, 191, rfl⟩
abbrev main_v134 : Ref sig .tc := ⟨.hbm, 192, rfl⟩
abbrev main_c_32 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_cst_33 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg8_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem8_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2x2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S40000 : S_.BroadcastsInDim S40000 (![] : Fin 0 → Fin S40000.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x128_0_1 : S1000000x1.BroadcastsInDim S1000000x128 (![0, 1] : Fin 2 → Fin S1000000x128.rank)
  bcast_S_S40000x128 : S_.BroadcastsInDim S40000x128 (![] : Fin 0 → Fin S40000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2x2000x128_S1x2000x128_0_0_0 : ∀ a, (![0, 0, 0] : Fin 3 → Nat) a + S1x2000x128.size a ≤ S2x2000x128.size a
  h_S1x2000x128 : 0 < S1x2000x128.numel
  shapeCasts_S1x2000x128_S2000x128 : S1x2000x128.ShapeCasts S2000x128
  shapeCasts_S2000x128_S1x2000x128 : S2000x128.ShapeCasts S1x2000x128
  inb_S2x2000x128_S1x2000x128_1_0_0 : ∀ a, (![1, 0, 0] : Fin 3 → Nat) a + S1x2000x128.size a ≤ S2x2000x128.size a
  dot_S4000x128_S128x128_S4000x128_1_0_0_1_n_n_wf : DotDims.WF S4000x128 S128x128 S4000x128 [1] [0] [0] [1] [] []
  scatter_S40000_S1000000x1_S1000000_n_0_0_1_wf : ScatterDims.WF S40000 S1000000x1 S1000000 [] [0] [0] 1
  gather_S40000_S1000000x1_S1000000_n_0_n_n_0_1_1_wf : GatherDims.WF S40000 S1000000x1 S1000000 [] [0] [] [0] [] 1 ![1]
  gather_S40000x128_S1000000x1_S1000000x128_1_0_n_n_0_1_1128_wf : GatherDims.WF S40000x128 S1000000x1 S1000000x128 [1] [0] [] [0] [] 1 ![1, 128]
  scatter_S40000x128_S1000000x1_S1000000x128_1_0_0_1_wf : ScatterDims.WF S40000x128 S1000000x1 S1000000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S40000x128.size a
  hwx0_3 : ∀ i : grid0.Coords, EltTy.bits .f32 = 32 ∨ (Rect.block (s := S40000x128) S4000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S40000x128.size a
  hwx0_4 : ∀ i : grid0.Coords, EltTy.bits .f32 = 32 ∨ (Rect.block (s := S40000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .f32 = 32 ∨ (Rect.block (s := S40000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S40000x128.size a
  hwx1_3 : ∀ i : grid1.Coords, EltTy.bits .f32 = 32 ∨ (Rect.block (s := S40000x128) S4000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S40000x128.size a
  hwx1_4 : ∀ i : grid1.Coords, EltTy.bits .f32 = 32 ∨ (Rect.block (s := S40000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S40000x128.size a
  hwx2_0 : ∀ i : grid2.Coords, EltTy.bits .f32 = 32 ∨ (Rect.block (s := S40000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S40000x128.size a
  hwx2_1 : ∀ i : grid2.Coords, EltTy.bits .f32 = 32 ∨ (Rect.block (s := S40000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S40000x128.size a
  hwx2_2 : ∀ i : grid2.Coords, EltTy.bits .f32 = 32 ∨ (Rect.block (s := S40000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S40000x128.size a
  hwx2_3 : ∀ i : grid2.Coords, EltTy.bits .f32 = 32 ∨ (Rect.block (s := S40000x128) S2000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2x2000x128.size a ≤ S2x40000x128.size a
  hwx2_8 : ∀ i : grid2.Coords, EltTy.bits .f32 = 32 ∨ (Rect.block (s := S2x40000x128) S2x2000x128.size (cc2_transform_8 i) (hinb2_8 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S40000_S1000000x1_S1000000_n_0_0_1 : ScatterDims S40000 S1000000x1 S1000000 where
  updateWindowDims := []
  insertedWindowDims := [0]
  scatterDimsToOperandDims := [0]
  indexVectorDim := 1
  wf := scatter_S40000_S1000000x1_S1000000_n_0_0_1_wf
def gather_S40000_S1000000x1_S1000000_n_0_n_n_0_1_1 : GatherDims S40000 S1000000x1 S1000000 where
  offsetDims := []
  collapsedSliceDims := [0]
  operandBatchingDims := []
  startIndicesBatchingDims := []
  startIndexMap := [0]
  indexVectorDim := 1
  sliceSizes := ![1]
  wf := gather_S40000_S1000000x1_S1000000_n_0_n_n_0_1_1_wf
def gather_S40000x128_S1000000x1_S1000000x128_1_0_n_n_0_1_1128 : GatherDims S40000x128 S1000000x1 S1000000x128 where
  offsetDims := [1]
  collapsedSliceDims := [0]
  operandBatchingDims := []
  startIndicesBatchingDims := []
  startIndexMap := [0]
  indexVectorDim := 1
  sliceSizes := ![1, 128]
  wf := gather_S40000x128_S1000000x1_S1000000x128_1_0_n_n_0_1_1128_wf
def scatter_S40000x128_S1000000x1_S1000000x128_1_0_0_1 : ScatterDims S40000x128 S1000000x1 S1000000x128 where
  updateWindowDims := [1]
  insertedWindowDims := [0]
  scatterDimsToOperandDims := [0]
  indexVectorDim := 1
  wf := scatter_S40000x128_S1000000x1_S1000000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg14) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg18) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S4000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg16) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg20) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S4000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v109) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v145) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v73) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v146) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v147) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v148) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v149) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v150) S2x2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S40000x128 : Shape := ⟨2, ![40000, 128]⟩
abbrev S1000000 : Shape := ⟨1, ![1000000]⟩
abbrev S128x128 : Shape := ⟨2, ![128, 128]⟩
abbrev S128 : Shape := ⟨1, ![128]⟩
abbrev S_ : Shape := ⟨0, ![]⟩
abbrev S40000 : Shape := ⟨1, ![40000]⟩
abbrev S1000000x1 : Shape := ⟨2, ![1000000, 1]⟩
abbrev S1000000x128 : Shape := ⟨2, ![1000000, 128]⟩
abbrev S1x128 : Shape := ⟨2, ![1, 128]⟩
abbrev S1x40000x128 : Shape := ⟨3, ![1, 40000, 128]⟩
abbrev S2x40000x128 : Shape := ⟨3, ![2, 40000, 128]⟩

abbrev nBuf : Space → Nat
  | .hbm => 241
  | .vmem => 0
  | .smem => 0
  | _ => 0

abbrev hbmTy0_0 (i : Nat) : BufTy := match i % 128 with
  | 0 => ⟨S40000x128, .f32⟩
  | 1 => ⟨S40000x128, .f32⟩
  | 2 => ⟨S1000000, .i32⟩
  | 3 => ⟨S1000000, .i32⟩
  | 4 => ⟨S1000000, .f32⟩
  | 5 => ⟨S1000000, .i32⟩
  | 6 => ⟨S1000000, .i32⟩
  | 7 => ⟨S1000000, .f32⟩
  | 8 => ⟨S1000000, .i32⟩
  | 9 => ⟨S1000000, .i32⟩
  | 10 => ⟨S1000000, .f32⟩
  | 11 => ⟨S1000000, .i32⟩
  | 12 => ⟨S1000000, .i32⟩
  | 13 => ⟨S1000000, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128x128, .f32⟩
  | 21 => ⟨S128, .f32⟩
  | 22 => ⟨S_, .f32⟩
  | 23 => ⟨S40000, .f32⟩
  | 24 => ⟨S1000000x1, .i32⟩
  | 25 => ⟨S40000, .f32⟩
  | 26 => ⟨S_, .f32⟩
  | 27 => ⟨S40000, .f32⟩
  | 28 => ⟨S1000000x1, .i32⟩
  | 29 => ⟨S40000, .f32⟩
  | 30 => ⟨S_, .i32⟩
  | 31 => ⟨S1000000, .i32⟩
  | 32 => ⟨S1000000, .i1⟩
  | 33 => ⟨S_, .i32⟩
  | 34 => ⟨S1000000, .i32⟩
  | 35 => ⟨S1000000, .i32⟩
  | 36 => ⟨S1000000, .i32⟩
  | 37 => ⟨S1000000x1, .i32⟩
  | 38 => ⟨S1000000, .f32⟩
  | 39 => ⟨S_, .i32⟩
  | 40 => ⟨S1000000, .i32⟩
  | 41 => ⟨S1000000, .i1⟩
  | 42 => ⟨S_, .i32⟩
  | 43 => ⟨S1000000, .i32⟩
  | 44 => ⟨S1000000, .i32⟩
  | 45 => ⟨S1000000, .i32⟩
  | 46 => ⟨S1000000x1, .i32⟩
  | 47 => ⟨S1000000, .f32⟩
  | 48 => ⟨S1000000, .f32⟩
  | 49 => ⟨S1000000, .f32⟩
  | 50 => ⟨S1000000, .f32⟩
  | 51 => ⟨S40000x128, .f32⟩
  | 52 => ⟨S_, .i32⟩
  | 53 => ⟨S1000000, .i32⟩
  | 54 => ⟨S1000000, .i1⟩
  | 55 => ⟨S_, .i32⟩
  | 56 => ⟨S1000000, .i32⟩
  | 57 => ⟨S1000000, .i32⟩
  | 58 => ⟨S1000000, .i32⟩
  | 59 => ⟨S1000000x1, .i32⟩
  | 60 => ⟨S1000000x128, .f32⟩
  | 61 => ⟨S1000000x1, .f32⟩
  | 62 => ⟨S1000000x128, .f32⟩
  | 63 => ⟨S1000000x128, .f32⟩
  | 64 => ⟨S_, .f32⟩
  | 65 => ⟨S40000x128, .f32⟩
  | 66 => ⟨S1000000x1, .i32⟩
  | 67 => ⟨S40000x128, .f32⟩
  | 68 => ⟨S1x128, .f32⟩
  | 69 => ⟨S40000x128, .f32⟩
  | 70 => ⟨S40000x128, .f32⟩
  | 71 => ⟨S_, .f32⟩
  | 72 => ⟨S40000x128, .f32⟩
  | 73 => ⟨S40000x128, .f32⟩
  | 74 => ⟨S_, .f32⟩
  | 75 => ⟨S40000, .f32⟩
  | 76 => ⟨S1000000x1, .i32⟩
  | 77 => ⟨S40000, .f32⟩
  | 78 => ⟨S_, .f32⟩
  | 79 => ⟨S40000, .f32⟩
  | 80 => ⟨S1000000x1, .i32⟩
  | 81 => ⟨S40000, .f32⟩
  | 82 => ⟨S_, .i32⟩
  | 83 => ⟨S1000000, .i32⟩
  | 84 => ⟨S1000000, .i1⟩
  | 85 => ⟨S_, .i32⟩
  | 86 => ⟨S1000000, .i32⟩
  | 87 => ⟨S1000000, .i32⟩
  | 88 => ⟨S1000000, .i32⟩
  | 89 => ⟨S1000000x1, .i32⟩
  | 90 => ⟨S1000000, .f32⟩
  | 91 => ⟨S_, .i32⟩
  | 92 => ⟨S1000000, .i32⟩
  | 93 => ⟨S1000000, .i1⟩
  | 94 => ⟨S_, .i32⟩
  | 95 => ⟨S1000000, .i32⟩
  | 96 => ⟨S1000000, .i32⟩
  | 97 => ⟨S1000000, .i32⟩
  | 98 => ⟨S1000000x1, .i32⟩
  | 99 => ⟨S1000000, .f32⟩
  | 100 => ⟨S1000000, .f32⟩
  | 101 => ⟨S1000000, .f32⟩
  | 102 => ⟨S1000000, .f32⟩
  | 103 => ⟨S40000x128, .f32⟩
  | 104 => ⟨S_, .i32⟩
  | 105 => ⟨S1000000, .i32⟩
  | 106 => ⟨S1000000, .i1⟩
  | 107 => ⟨S_, .i32⟩
  | 108 => ⟨S1000000, .i32⟩
  | 109 => ⟨S1000000, .i32⟩
  | 110 => ⟨S1000000, .i32⟩
  | 111 => ⟨S1000000x1, .i32⟩
  | 112 => ⟨S1000000x128, .f32⟩
  | 113 => ⟨S1000000x1, .f32⟩
  | 114 => ⟨S1000000x128, .f32⟩
  | 115 => ⟨S1000000x128, .f32⟩
  | 116 => ⟨S_, .f32⟩
  | 117 => ⟨S40000x128, .f32⟩
  | 118 => ⟨S1000000x1, .i32⟩
  | 119 => ⟨S40000x128, .f32⟩
  | 120 => ⟨S1x128, .f32⟩
  | 121 => ⟨S40000x128, .f32⟩
  | 122 => ⟨S40000x128, .f32⟩
  | 123 => ⟨S_, .f32⟩
  | 124 => ⟨S40000x128, .f32⟩
  | 125 => ⟨S40000x128, .f32⟩
  | 126 => ⟨S_, .f32⟩
  | 127 => ⟨S40000, .f32⟩
  | _ => ⟨S40000x128, .f32⟩

abbrev hbmTy0_1 (i : Nat) : BufTy := match i % 128 with
  | 0 => ⟨S1000000x1, .i32⟩
  | 1 => ⟨S40000, .f32⟩
  | 2 => ⟨S_, .f32⟩
  | 3 => ⟨S40000, .f32⟩
  | 4 => ⟨S1000000x1, .i32⟩
  | 5 => ⟨S40000, .f32⟩
  | 6 => ⟨S_, .i32⟩
  | 7 => ⟨S1000000, .i32⟩
  | 8 => ⟨S1000000, .i1⟩
  | 9 => ⟨S_, .i32⟩
  | 10 => ⟨S1000000, .i32⟩
  | 11 => ⟨S1000000, .i32⟩
  | 12 => ⟨S1000000, .i32⟩
  | 13 => ⟨S1000000x1, .i32⟩
  | 14 => ⟨S1000000, .f32⟩
  | 15 => ⟨S_, .i32⟩
  | 16 => ⟨S1000000, .i32⟩
  | 17 => ⟨S1000000, .i1⟩
  | 18 => ⟨S_, .i32⟩
  | 19 => ⟨S1000000, .i32⟩
  | 20 => ⟨S1000000, .i32⟩
  | 21 => ⟨S1000000, .i32⟩
  | 22 => ⟨S1000000x1, .i32⟩
  | 23 => ⟨S1000000, .f32⟩
  | 24 => ⟨S1000000, .f32⟩
  | 25 => ⟨S1000000, .f32⟩
  | 26 => ⟨S1000000, .f32⟩
  | 27 => ⟨S40000x128, .f32⟩
  | 28 => ⟨S_, .i32⟩
  | 29 => ⟨S1000000, .i32⟩
  | 30 => ⟨S1000000, .i1⟩
  | 31 => ⟨S_, .i32⟩
  | 32 => ⟨S1000000, .i32⟩
  | 33 => ⟨S1000000, .i32⟩
  | 34 => ⟨S1000000, .i32⟩
  | 35 => ⟨S1000000x1, .i32⟩
  | 36 => ⟨S1000000x128, .f32⟩
  | 37 => ⟨S1000000x1, .f32⟩
  | 38 => ⟨S1000000x128, .f32⟩
  | 39 => ⟨S1000000x128, .f32⟩
  | 40 => ⟨S_, .f32⟩
  | 41 => ⟨S40000x128, .f32⟩
  | 42 => ⟨S1000000x1, .i32⟩
  | 43 => ⟨S40000x128, .f32⟩
  | 44 => ⟨S1x128, .f32⟩
  | 45 => ⟨S40000x128, .f32⟩
  | 46 => ⟨S40000x128, .f32⟩
  | 47 => ⟨S_, .f32⟩
  | 48 => ⟨S40000x128, .f32⟩
  | 49 => ⟨S40000x128, .f32⟩
  | 50 => ⟨S_, .f32⟩
  | 51 => ⟨S40000, .f32⟩
  | 52 => ⟨S1000000x1, .i32⟩
  | 53 => ⟨S40000, .f32⟩
  | 54 => ⟨S_, .f32⟩
  | 55 => ⟨S40000, .f32⟩
  | 56 => ⟨S1000000x1, .i32⟩
  | 57 => ⟨S40000, .f32⟩
  | 58 => ⟨S_, .i32⟩
  | 59 => ⟨S1000000, .i32⟩
  | 60 => ⟨S1000000, .i1⟩
  | 61 => ⟨S_, .i32⟩
  | 62 => ⟨S1000000, .i32⟩
  | 63 => ⟨S1000000, .i32⟩
  | 64 => ⟨S1000000, .i32⟩
  | 65 => ⟨S1000000x1, .i32⟩
  | 66 => ⟨S1000000, .f32⟩
  | 67 => ⟨S_, .i32⟩
  | 68 => ⟨S1000000, .i32⟩
  | 69 => ⟨S1000000, .i1⟩
  | 70 => ⟨S_, .i32⟩
  | 71 => ⟨S1000000, .i32⟩
  | 72 => ⟨S1000000, .i32⟩
  | 73 => ⟨S1000000, .i32⟩
  | 74 => ⟨S1000000x1, .i32⟩
  | 75 => ⟨S1000000, .f32⟩
  | 76 => ⟨S1000000, .f32⟩
  | 77 => ⟨S1000000, .f32⟩
  | 78 => ⟨S1000000, .f32⟩
  | 79 => ⟨S40000x128, .f32⟩
  | 80 => ⟨S_, .i32⟩
  | 81 => ⟨S1000000, .i32⟩
  | 82 => ⟨S1000000, .i1⟩
  | 83 => ⟨S_, .i32⟩
  | 84 => ⟨S1000000, .i32⟩
  | 85 => ⟨S1000000, .i32⟩
  | 86 => ⟨S1000000, .i32⟩
  | 87 => ⟨S1000000x1, .i32⟩
  | 88 => ⟨S1000000x128, .f32⟩
  | 89 => ⟨S1000000x1, .f32⟩
  | 90 => ⟨S1000000x128, .f32⟩
  | 91 => ⟨S1000000x128, .f32⟩
  | 92 => ⟨S_, .f32⟩
  | 93 => ⟨S40000x128, .f32⟩
  | 94 => ⟨S1000000x1, .i32⟩
  | 95 => ⟨S40000x128, .f32⟩
  | 96 => ⟨S1x128, .f32⟩
  | 97 => ⟨S40000x128, .f32⟩
  | 98 => ⟨S40000x128, .f32⟩
  | 99 => ⟨S_, .f32⟩
  | 100 => ⟨S40000x128, .f32⟩
  | 101 => ⟨S40000x128, .f32⟩
  | 102 => ⟨S40000x128, .f32⟩
  | 103 => ⟨S_, .f32⟩
  | 104 => ⟨S40000x128, .f32⟩
  | 105 => ⟨S40000x128, .f32⟩
  | 106 => ⟨S40000x128, .f32⟩
  | 107 => ⟨S_, .f32⟩
  | 108 => ⟨S40000x128, .f32⟩
  | 109 => ⟨S40000x128, .f32⟩
  | 110 => ⟨S1x40000x128, .f32⟩
  | 111 => ⟨S1x40000x128, .f32⟩
  | 112 => ⟨S2x40000x128, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_cst_0 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_c : Ref sig .tc := ⟨.hbm, 30, rfl⟩
abbrev main_v6 : Ref sig .tc := ⟨.hbm, 31, rfl⟩
abbrev main_v7 : Ref sig .tc := ⟨.hbm, 32, rfl⟩
abbrev main_c_1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_v14 : Ref sig .tc := ⟨.hbm, 41, rfl⟩
abbrev main_c_3 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_4 : Ref sig .tc := ⟨.hbm, 52, rfl⟩
abbrev main_v24 : Ref sig .tc := ⟨.hbm, 53, rfl⟩
abbrev main_v25 : Ref sig .tc := ⟨.hbm, 54, rfl⟩
abbrev main_c_5 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_6 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_call0_cst : Ref sig .tc := ⟨.hbm, 71, rfl⟩
abbrev main_call0_v0 : Ref sig .tc := ⟨.hbm, 72, rfl⟩
abbrev main_v40 : Ref sig .tc := ⟨.hbm, 73, rfl⟩
abbrev main_cst_7 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_8 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_c_9 : Ref sig .tc := ⟨.hbm, 82, rfl⟩
abbrev main_v47 : Ref sig .tc := ⟨.hbm, 83, rfl⟩
abbrev main_v48 : Ref sig .tc := ⟨.hbm, 84, rfl⟩
abbrev main_c_10 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_c_11 : Ref sig .tc := ⟨.hbm, 91, rfl⟩
abbrev main_v54 : Ref sig .tc := ⟨.hbm, 92, rfl⟩
abbrev main_v55 : Ref sig .tc := ⟨.hbm, 93, rfl⟩
abbrev main_c_12 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_c_13 : Ref sig .tc := ⟨.hbm, 104, rfl⟩
abbrev main_v65 : Ref sig .tc := ⟨.hbm, 105, rfl⟩
abbrev main_v66 : Ref sig .tc := ⟨.hbm, 106, rfl⟩
abbrev main_c_14 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_15 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_call1_cst : Ref sig .tc := ⟨.hbm, 123, rfl⟩
abbrev main_call1_v0 : Ref sig .tc := ⟨.hbm, 124, rfl⟩
abbrev main_v81 : Ref sig .tc := ⟨.hbm, 125, rfl⟩
abbrev main_cst_16 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_cst_17 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_c_18 : Ref sig .tc := ⟨.hbm, 134, rfl⟩
abbrev main_v88 : Ref sig .tc := ⟨.hbm, 135, rfl⟩
abbrev main_v89 : Ref sig .tc := ⟨.hbm, 136, rfl⟩
abbrev main_c_19 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_c_20 : Ref sig .tc := ⟨.hbm, 143, rfl⟩
abbrev main_v95 : Ref sig .tc := ⟨.hbm, 144, rfl⟩
abbrev main_v96 : Ref sig .tc := ⟨.hbm, 145, rfl⟩
abbrev main_c_21 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_c_22 : Ref sig .tc := ⟨.hbm, 156, rfl⟩
abbrev main_v106 : Ref sig .tc := ⟨.hbm, 157, rfl⟩
abbrev main_v107 : Ref sig .tc := ⟨.hbm, 158, rfl⟩
abbrev main_c_23 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_cst_24 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_call2_cst : Ref sig .tc := ⟨.hbm, 175, rfl⟩
abbrev main_call2_v0 : Ref sig .tc := ⟨.hbm, 176, rfl⟩
abbrev main_v122 : Ref sig .tc := ⟨.hbm, 177, rfl⟩
abbrev main_cst_25 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_cst_26 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_c_27 : Ref sig .tc := ⟨.hbm, 186, rfl⟩
abbrev main_v129 : Ref sig .tc := ⟨.hbm, 187, rfl⟩
abbrev main_v130 : Ref sig .tc := ⟨.hbm, 188, rfl⟩
abbrev main_c_28 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_c_29 : Ref sig .tc := ⟨.hbm, 195, rfl⟩
abbrev main_v136 : Ref sig .tc := ⟨.hbm, 196, rfl⟩
abbrev main_v137 : Ref sig .tc := ⟨.hbm, 197, rfl⟩
abbrev main_c_30 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_c_31 : Ref sig .tc := ⟨.hbm, 208, rfl⟩
abbrev main_v147 : Ref sig .tc := ⟨.hbm, 209, rfl⟩
abbrev main_v148 : Ref sig .tc := ⟨.hbm, 210, rfl⟩
abbrev main_c_32 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_cst_33 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_call3_cst : Ref sig .tc := ⟨.hbm, 227, rfl⟩
abbrev main_call3_v0 : Ref sig .tc := ⟨.hbm, 228, rfl⟩
abbrev main_v163 : Ref sig .tc := ⟨.hbm, 229, rfl⟩
abbrev main_v164 : Ref sig .tc := ⟨.hbm, 230, rfl⟩
abbrev main_cst_34 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_cst_35 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩

abbrev nD : Nat := 1
abbrev τ : Topo := Topo.v7x

variable {F : FTy → Type} [FloatOps F]

class Facts₀ : Prop where
  bcast_S_S40000 : S_.BroadcastsInDim S40000 (![] : Fin 0 → Fin S40000.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x128_0_1 : S1000000x1.BroadcastsInDim S1000000x128 (![0, 1] : Fin 2 → Fin S1000000x128.rank)
  bcast_S_S40000x128 : S_.BroadcastsInDim S40000x128 (![] : Fin 0 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S40000x128_S1x40000x128_1_2 : S40000x128.BroadcastsInDim S1x40000x128 (![1, 2] : Fin 2 → Fin S1x40000x128.rank)
  concatenates_S1x40000x128_S1x40000x128_S2x40000x128_d0 : Shape.Concatenates [S1x40000x128, S1x40000x128] S2x40000x128 0
  scatter_S40000_S1000000x1_S1000000_n_0_0_1_wf : ScatterDims.WF S40000 S1000000x1 S1000000 [] [0] [0] 1
  gather_S40000_S1000000x1_S1000000_n_0_n_n_0_1_1_wf : GatherDims.WF S40000 S1000000x1 S1000000 [] [0] [] [0] [] 1 ![1]
  dot_S40000x128_S128x128_S40000x128_1_0_0_1_n_n_wf : DotDims.WF S40000x128 S128x128 S40000x128 [1] [0] [0] [1] [] []
  gather_S40000x128_S1000000x1_S1000000x128_1_0_n_n_0_1_1128_wf : GatherDims.WF S40000x128 S1000000x1 S1000000x128 [1] [0] [] [0] [] 1 ![1, 128]
  scatter_S40000x128_S1000000x1_S1000000x128_1_0_0_1_wf : ScatterDims.WF S40000x128 S1000000x1 S1000000x128 [1] [0] [0] 1

variable [Facts₀]

def scatter_S40000_S1000000x1_S1000000_n_0_0_1 : ScatterDims S40000 S1000000x1 S1000000 where
  updateWindowDims := []
  insertedWindowDims := [0]
  scatterDimsToOperandDims := [0]
  indexVectorDim := 1
  wf := scatter_S40000_S1000000x1_S1000000_n_0_0_1_wf
def gather_S40000_S1000000x1_S1000000_n_0_n_n_0_1_1 : GatherDims S40000 S1000000x1 S1000000 where
  offsetDims := []
  collapsedSliceDims := [0]
  operandBatchingDims := []
  startIndicesBatchingDims := []
  startIndexMap := [0]
  indexVectorDim := 1
  sliceSizes := ![1]
  wf := gather_S40000_S1000000x1_S1000000_n_0_n_n_0_1_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S1000000x1_S1000000x128_1_0_n_n_0_1_1128 : GatherDims S40000x128 S1000000x1 S1000000x128 where
  offsetDims := [1]
  collapsedSliceDims := [0]
  operandBatchingDims := []
  startIndicesBatchingDims := []
  startIndexMap := [0]
  indexVectorDim := 1
  sliceSizes := ![1, 128]
  wf := gather_S40000x128_S1000000x1_S1000000x128_1_0_n_n_0_1_1128_wf
def scatter_S40000x128_S1000000x1_S1000000x128_1_0_0_1 : ScatterDims S40000x128 S1000000x1 S1000000x128 where
  updateWindowDims := [1]
  insertedWindowDims := [0]
  scatterDimsToOperandDims := [0]
  indexVectorDim := 1
  wf := scatter_S40000x128_S1000000x1_S1000000x128_1_0_0_1_wf

class Facts : Prop extends Facts₀ where

variable [Facts]
-- ==== Proof.HostChains.lean ====
/-
  The host operations between the projection regions and the combine region, cut by relation.

  The stretch computes, for each of the four relations, the normalized edge weights (two scatter-added degree vectors
  gathered back along the edges, the reciprocal square root of their product times the weight), gathers the projected
  table's rows along the edges, scales them, and scatter-adds them into the destination rows; then it views each bias
  vector as a one-row matrix. The four chains are independent of each other: each reads only arguments and one
  projected table. The stretch is the concatenation of the five lists below, so its effect on the buffer contents is
  the composition of theirs.
-/
import proofs.«100988_j73976516706654_2_alg».proof.Proof.Gen.KernelIdeal.Launch
import Idealize.ShloMosaic.Lib.StableHlo.Run
import Idealize.ShloMosaic.Lib.Pipeline.Frame

set_option maxRecDepth 16384

noncomputable section

namespace Cert.KernelIdeal.HostChains

open Cert.KernelIdeal Cert.KernelIdeal.Gen Idealize.ShloMosaic Idealize.ShloMosaic.TcCoe Idealize.SL.Sem Idealize.ShloMosaic.StableHlo

variable {F : FTy → Type} [FloatOps F]

/-- The demand relation (companies to positions): edge arrays %arg2, %arg3, %arg4, projected table `main_v0_0`, aggregate `main_v37`. -/
abbrev demandOps : List (HloOp τ sig (Elt F)) :=
  [ StableHlo.nullary main_cst (constant S_ .f32 0x00000000#32),
    StableHlo.unary main_cst main_v2 (broadcastInDim S40000 ![] bcast_S_S40000 : (⟨S_, .f32⟩ : BufTy).Contents (Elt F) → (⟨S40000, .f32⟩ : BufTy).Contents (Elt F)),
    StableHlo.unary main_arg2 main_v3 (broadcastInDim S1000000x1 ![0] bcast_S1000000_S1000000x1_0 : (⟨S1000000, .i32⟩ : BufTy).Contents (Elt F) → (⟨S1000000x1, .i32⟩ : BufTy).Contents (Elt F)),
    StableHlo.ternary main_v2 main_v3 main_arg4 main_v4 ((fun x i u => Host.scatterAdd scatter_S40000_S1000000x1_S1000000_n_0_0_1 x i u) : (⟨S40000, .f32⟩ : BufTy).Contents (Elt F) → (⟨S1000000x1, .i32⟩ : BufTy).Contents (Elt F) → (⟨S1000000, .f32⟩ : BufTy).Contents (Elt F) → (⟨S40000, .f32⟩ : BufTy).Contents (Elt F)),
    StableHlo.nullary main_cst_0 (constant S_ .f32 0x00000000#32),
    StableHlo.unary main_cst_0 main_v5 (broadcastInDim S40000 ![] bcast_S_S40000 : (⟨S_, .f32⟩ : BufTy).Contents (Elt F) → (⟨S40000, .f32⟩ : BufTy).Contents (Elt F)),
    StableHlo.unary main_arg3 main_v6 (broadcastInDim S1000000x1 ![0] bcast_S1000000_S1000000x1_0 : (⟨S1000000, .i32⟩ : BufTy).Contents (Elt F) → (⟨S1000000x1, .i32⟩ : BufTy).Contents (Elt F)),
    StableHlo.ternary main_v5 main_v6 main_arg4 main_v7 ((fun x i u => Host.scatterAdd scatter_S40000_S1000000x1_S1000000_n_0_0_1 x i u) : (⟨S40000, .f32⟩ : BufTy).Contents (Elt F) → (⟨S1000000x1, .i32⟩ : BufTy).Contents (Elt F) → (⟨S1000000, .f32⟩ : BufTy).Contents (Elt F) → (⟨S40000, .f32⟩ : BufTy).Contents (Elt F)),
    StableHlo.nullary main_c (constantI S_ 32 0#32),
    StableHlo.unary main_c main_v8 (broadcastInDim S1000000 ![] bcast_S_S1000000 : (⟨S_, .i32⟩ : BufTy).Contents (Elt F) → (⟨S1000000, .i32⟩ : BufTy).Contents (Elt F)),
    StableHlo.binary main_arg2 main_v8 main_v9 (cmpi .slt : (⟨S1000000, .i32⟩ : BufTy).Contents (Elt F) → (⟨S1000000, .i32⟩ : BufTy).Contents (Elt F) → (⟨S1000000, .i1⟩ : BufTy).Contents (Elt F)),
    StableHlo.nullary main_c_1 (constantI S_ 32 40000#32),
    StableHlo.unary main_c_1 main_v10 (broadcastInDim S1000000 ![] bcast_S_S1000000 : (⟨S_, .i32⟩ : BufTy).Contents (Elt F) → (⟨S1000000, .i32⟩ : BufTy).Contents (Elt F)),
    StableHlo.binary main_arg2 main_v10 main_v11 (addi : (⟨S1000000, .i32⟩ : BufTy).Contents (Elt F) → (⟨S1000000, .i32⟩ : BufTy).Contents (Elt F) → (⟨S1000000, .i32⟩ : BufTy).Contents (Elt F)),
    StableHlo.ternary main_v9 main_v11 main_arg2 main_v12 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v12 main_v13 (broadcastInDim S1000000x1 ![0] bcast_S1000000_S1000000x1_0 : (⟨S1000000, .i32⟩ : BufTy).Contents (Elt F) → (⟨S1000000x1, .i32⟩ : BufTy).Contents (Elt F)),
    StableHlo.binary main_v4 main_v13 main_v14 ((fun x i => Host.gather gather_S40000_S1000000x1_S1000000_n_0_n_n_0_1_1 x i) : (⟨S40000, .f32⟩ : BufTy).Contents (Elt F) → (⟨S1000000x1, .i32⟩ : BufTy).Contents (Elt F) → (⟨S1000000, .f32⟩ : BufTy).Contents (Elt F)),
    StableHlo.nullary main_c_2 (constantI S_ 32 0#32),
    StableHlo.unary main_c_2 main_v15 (broadcastInDim S1000000 ![] bcast_S_S1000000 : (⟨S_, .i32⟩ : BufTy).Contents (Elt F) → (⟨S1000000, .i32⟩ : BufTy).Contents (Elt F)),
    StableHlo.binary main_arg3 main_v15 main_v16 (cmpi .slt : (⟨S1000000, .i32⟩ : BufTy).Contents (Elt F) → (⟨S1000000, .i32⟩ : BufTy).Contents (Elt F) → (⟨S1000000, .i1⟩ : BufTy).Contents (Elt F)),
    StableHlo.nullary main_c_3 (constantI S_ 32 40000#32),
    StableHlo.unary main_c_3 main_v17 (broadcastInDim S1000000 ![] bcast_S_S1000000 : (⟨S_, .i32⟩ : BufTy).Contents (Elt F) → (⟨S1000000, .i32⟩ : BufTy).Contents (Elt F)),
    StableHlo.binary main_arg3 main_v17 main_v18 (addi : (⟨S1000000, .i32⟩ : BufTy).Contents (Elt F) → (⟨S1000000, .i32⟩ : BufTy).Contents (Elt F) → (⟨S1000000, .i32⟩ : BufTy).Contents (Elt F)),
    StableHlo.ternary main_v16 main_v18 main_arg3 main_v19 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v19 main_v20 (broadcastInDim S1000000x1 ![0] bcast_S1000000_S1000000x1_0 : (⟨S1000000, .i32⟩ : BufTy).Contents (Elt F) → (⟨S1000000x1, .i32⟩ : BufTy).Contents (Elt F)),
    StableHlo.binary main_v7 main_v20 main_v21 ((fun x i => Host.gather gather_S40000_S1000000x1_S1000000_n_0_n_n_0_1_1 x i) : (⟨S40000, .f32⟩ : BufTy).Contents (Elt F) → (⟨S1000000x1, .i32⟩ : BufTy).Contents (Elt F) → (⟨S1000000, .f32⟩ : BufTy).Contents (Elt F)),
    StableHlo.binary main_v14 main_v21 main_v22 (mulf : (⟨S1000000, .f32⟩ : BufTy).Contents (Elt F) → (⟨S1000000, .f32⟩ : BufTy).Contents (Elt F) → (⟨S1000000, .f32⟩ : BufTy).Contents (Elt F)),
    StableHlo.unary main_v22 main_v23 (Host.rsqrt : (⟨S1000000, .f32⟩ : BufTy).Contents (Elt F) → (⟨S1000000, .f32⟩ : BufTy).Contents (Elt F)),
    StableHlo.binary main_arg4 main_v23 main_v24 (mulf : (⟨S1000000, .f32⟩ : BufTy).Contents (Elt F) → (⟨S1000000, .f32⟩ : BufTy).Contents (Elt F) → (⟨S1000000, .f32⟩ : BufTy).Contents (Elt F)),
    StableHlo.nullary main_c_4 (constantI S_ 32 0#32),
    StableHlo.unary main_c_4 main_v25 (broadcastInDim S1000000 ![] bcast_S_S1000000 : (⟨S_, .i32⟩ : BufTy).Contents (Elt F) → (⟨S1000000, .i32⟩ : BufTy).Contents (Elt F)),
    StableHlo.binary main_arg2 main_v25 main_v26 (cmpi .slt : (⟨S1000000, .i32⟩ : BufTy).Contents (Elt F) → (⟨S1000000, .i32⟩ : BufTy).Contents (Elt F) → (⟨S1000000, .i1⟩ : BufTy).Contents (Elt F)),
    StableHlo.nullary main_c_5 (constantI S_ 32 40000#32),
    StableHlo.unary main_c_5 main_v27 (broadcastInDim S1000000 ![] bcast_S_S1000000 : (⟨S_, .i32⟩ : BufTy).Contents (Elt F) → (⟨S1000000, .i32⟩ : BufTy).Contents (Elt F)),
    StableHlo.binary main_arg2 main_v27 main_v28 (addi : (⟨S1000000, .i32⟩ : BufTy).Contents (Elt F) → (⟨S1000000, .i32⟩ : BufTy).Contents (Elt F) → (⟨S1000000, .i32⟩ : BufTy).Contents (Elt F)),
    StableHlo.ternary main_v26 main_v28 main_arg2 main_v29 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v29 main_v30 (broadcastInDim S1000000x1 ![0] bcast_S1000000_S1000000x1_0 : (⟨S1000000, .i32⟩ : BufTy).Contents (Elt F) → (⟨S1000000x1, .i32⟩ : BufTy).Contents (Elt F)),
    StableHlo.binary main_v0_0 main_v30 main_v31 ((fun x i => Host.gather gather_S40000x128_S1000000x1_S1000000x128_1_0_n_n_0_1_1128 x i) : (⟨S40000x128, .f32⟩ : BufTy).Contents (Elt F) → (⟨S1000000x1, .i32⟩ : BufTy).Contents (Elt F) → (⟨S1000000x128, .f32⟩ : BufTy).Contents (Elt F)),
    StableHlo.unary main_v24 main_v32 (broadcastInDim S1000000x1 ![0] bcast_S1000000_S1000000x1_0 : (⟨S1000000, .f32⟩ : BufTy).Contents (Elt F) → (⟨S1000000x1, .f32⟩ : BufTy).Contents (Elt F)),
    StableHlo.unary main_v32 main_v33 (broadcastInDim S1000000x128 ![0, 1] bcast_S1000000x1_S1000000x128_0_1 : (⟨S1000000x1, .f32⟩ : BufTy).Contents (Elt F) → (⟨S1000000x128, .f32⟩ : BufTy).Contents (Elt F)),
    StableHlo.binary main_v31 main_v33 main_v34 (mulf : (⟨S1000000x128, .f32⟩ : BufTy).Contents (Elt F) → (⟨S1000000x128, .f32⟩ : BufTy).Contents (Elt F) → (⟨S1000000x128, .f32⟩ : BufTy).Contents (Elt F)),
    StableHlo.nullary main_cst_6 (constant S_ .f32 0x00000000#32),
    StableHlo.unary main_cst_6 main_v35 (broadcastInDim S40000x128 ![] bcast_S_S40000x128 : (⟨S_, .f32⟩ : BufTy).Contents (Elt F) → (⟨S40000x128, .f32⟩ : BufTy).Contents (Elt F)),
    StableHlo.unary main_arg3 main_v36 (broadcastInDim S1000000x1 ![0] bcast_S1000000_S1000000x1_0 : (⟨S1000000, .i32⟩ : BufTy).Contents (Elt F) → (⟨S1000000x1, .i32⟩ : BufTy).Contents (Elt F)),
    StableHlo.ternary main_v35 main_v36 main_v34 main_v37 ((fun x i u => Host.scatterAdd scatter_S40000x128_S1000000x1_S1000000x128_1_0_0_1 x i u) : (⟨S40000x128, .f32⟩ : BufTy).Contents (Elt F) → (⟨S1000000x1, .i32⟩ : BufTy).Contents (Elt F) → (⟨S1000000x128, .f32⟩ : BufTy).Contents (Elt F) → (⟨S40000x128, .f32⟩ : BufTy).Contents (Elt F)) ]

/-- The position-flow relation: edge arrays %arg11, %arg12, %arg13, projected table `main_v1_1`, aggregate `main_v73`. -/
abbrev pflowOps : List (HloOp τ sig (Elt F)) :=
  [ StableHlo.nullary main_cst_7 (constant S_ .f32 0x00000000#32),
    StableHlo.unary main_cst_7 main_v38 (broadcastInDim S40000 ![] bcast_S_S40000 : (⟨S_, .f32⟩ : BufTy).Contents (Elt F) → (⟨S40000, .f32⟩ : BufTy).Contents (Elt F)),
    StableHlo.unary main_arg11 main_v39 (broadcastInDim S1000000x1 ![0] bcast_S1000000_S1000000x1_0 : (⟨S1000000, .i32⟩ : BufTy).Contents (Elt F) → (⟨S1000000x1, .i32⟩ : BufTy).Contents (Elt F)),
    StableHlo.ternary main_v38 main_v39 main_arg13 main_v40 ((fun x i u => Host.scatterAdd scatter_S40000_S1000000x1_S1000000_n_0_0_1 x i u) : (⟨S40000, .f32⟩ : BufTy).Contents (Elt F) → (⟨S1000000x1, .i32⟩ : BufTy).Contents (Elt F) → (⟨S1000000, .f32⟩ : BufTy).Contents (Elt F) → (⟨S40000, .f32⟩ : BufTy).Contents (Elt F)),
    StableHlo.nullary main_cst_8 (constant S_ .f32 0x00000000#32),
    StableHlo.unary main_cst_8 main_v41 (broadcastInDim S40000 ![] bcast_S_S40000 : (⟨S_, .f32⟩ : BufTy).Contents (Elt F) → (⟨S40000, .f32⟩ : BufTy).Contents (Elt F)),
    StableHlo.unary main_arg12 main_v42 (broadcastInDim S1000000x1 ![0] bcast_S1000000_S1000000x1_0 : (⟨S1000000, .i32⟩ : BufTy).Contents (Elt F) → (⟨S1000000x1, .i32⟩ : BufTy).Contents (Elt F)),
    StableHlo.ternary main_v41 main_v42 main_arg13 main_v43 ((fun x i u => Host.scatterAdd scatter_S40000_S1000000x1_S1000000_n_0_0_1 x i u) : (⟨S40000, .f32⟩ : BufTy).Contents (Elt F) → (⟨S1000000x1, .i32⟩ : BufTy).Contents (Elt F) → (⟨S1000000, .f32⟩ : BufTy).Contents (Elt F) → (⟨S40000, .f32⟩ : BufTy).Contents (Elt F)),
    StableHlo.nullary main_c_9 (constantI S_ 32 0#32),
    StableHlo.unary main_c_9 main_v44 (broadcastInDim S1000000 ![] bcast_S_S1000000 : (⟨S_, .i32⟩ : BufTy).Contents (Elt F) → (⟨S1000000, .i32⟩ : BufTy).Contents (Elt F)),
    StableHlo.binary main_arg11 main_v44 main_v45 (cmpi .slt : (⟨S1000000, .i32⟩ : BufTy).Contents (Elt F) → (⟨S1000000, .i32⟩ : BufTy).Contents (Elt F) → (⟨S1000000, .i1⟩ : BufTy).Contents (Elt F)),
    StableHlo.nullary main_c_10 (constantI S_ 32 40000#32),
    StableHlo.unary main_c_10 main_v46 (broadcastInDim S1000000 ![] bcast_S_S1000000 : (⟨S_, .i32⟩ : BufTy).Contents (Elt F) → (⟨S1000000, .i32⟩ : BufTy).Contents (Elt F)),
    StableHlo.binary main_arg11 main_v46 main_v47 (addi : (⟨S1000000, .i32⟩ : BufTy).Contents (Elt F) → (⟨S1000000, .i32⟩ : BufTy).Contents (Elt F) → (⟨S1000000, .i32⟩ : BufTy).Contents (Elt F)),
    StableHlo.ternary main_v45 main_v47 main_arg11 main_v48 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v48 main_v49 (broadcastInDim S1000000x1 ![0] bcast_S1000000_S1000000x1_0 : (⟨S1000000, .i32⟩ : BufTy).Contents (Elt F) → (⟨S1000000x1, .i32⟩ : BufTy).Contents (Elt F)),
    StableHlo.binary main_v40 main_v49 main_v50 ((fun x i => Host.gather gather_S40000_S1000000x1_S1000000_n_0_n_n_0_1_1 x i) : (⟨S40000, .f32⟩ : BufTy).Contents (Elt F) → (⟨S1000000x1, .i32⟩ : BufTy).Contents (Elt F) → (⟨S1000000, .f32⟩ : BufTy).Contents (Elt F)),
    StableHlo.nullary main_c_11 (constantI S_ 32 0#32),
    StableHlo.unary main_c_11 main_v51 (broadcastInDim S1000000 ![] bcast_S_S1000000 : (⟨S_, .i32⟩ : BufTy).Contents (Elt F) → (⟨S1000000, .i32⟩ : BufTy).Contents (Elt F)),
    StableHlo.binary main_arg12 main_v51 main_v52 (cmpi .slt : (⟨S1000000, .i32⟩ : BufTy).Contents (Elt F) → (⟨S1000000, .i32⟩ : BufTy).Contents (Elt F) → (⟨S1000000, .i1⟩ : BufTy).Contents (Elt F)),
    StableHlo.nullary main_c_12 (constantI S_ 32 40000#32),
    StableHlo.unary main_c_12 main_v53 (broadcastInDim S1000000 ![] bcast_S_S1000000 : (⟨S_, .i32⟩ : BufTy).Contents (Elt F) → (⟨S1000000, .i32⟩ : BufTy).Contents (Elt F)),
    StableHlo.binary main_arg12 main_v53 main_v54 (addi : (⟨S1000000, .i32⟩ : BufTy).Contents (Elt F) → (⟨S1000000, .i32⟩ : BufTy).Contents (Elt F) → (⟨S1000000, .i32⟩ : BufTy).Contents (Elt F)),
    StableHlo.ternary main_v52 main_v54 main_arg12 main_v55 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v55 main_v56 (broadcastInDim S1000000x1 ![0] bcast_S1000000_S1000000x1_0 : (⟨S1000000, .i32⟩ : BufTy).Contents (Elt F) → (⟨S1000000x1, .i32⟩ : BufTy).Contents (Elt F)),
    StableHlo.binary main_v43 main_v56 main_v57 ((fun x i => Host.gather gather_S40000_S1000000x1_S1000000_n_0_n_n_0_1_1 x i) : (⟨S40000, .f32⟩ : BufTy).Contents (Elt F) → (⟨S1000000x1, .i32⟩ : BufTy).Contents (Elt F) → (⟨S1000000, .f32⟩ : BufTy).Contents (Elt F)),
    StableHlo.binary main_v50 main_v57 main_v58 (mulf : (⟨S1000000, .f32⟩ : BufTy).Contents (Elt F) → (⟨S1000000, .f32⟩ : BufTy).Contents (Elt F) → (⟨S1000000, .f32⟩ : BufTy).Contents (Elt F)),
    StableHlo.unary main_v58 main_v59 (Host.rsqrt : (⟨S1000000, .f32⟩ : BufTy).Contents (Elt F) → (⟨S1000000, .f32⟩ : BufTy).Contents (Elt F)),
    StableHlo.binary main_arg13 main_v59 main_v60 (mulf : (⟨S1000000, .f32⟩ : BufTy).Contents (Elt F) → (⟨S1000000, .f32⟩ : BufTy).Contents (Elt F) → (⟨S1000000, .f32⟩ : BufTy).Contents (Elt F)),
    StableHlo.nullary main_c_13 (constantI S_ 32 0#32),
    StableHlo.unary main_c_13 main_v61 (broadcastInDim S1000000 ![] bcast_S_S1000000 : (⟨S_, .i32⟩ : BufTy).Contents (Elt F) → (⟨S1000000, .i32⟩ : BufTy).Contents (Elt F)),
    StableHlo.binary main_arg11 main_v61 main_v62 (cmpi .slt : (⟨S1000000, .i32⟩ : BufTy).Contents (Elt F) → (⟨S1000000, .i32⟩ : BufTy).Contents (Elt F) → (⟨S1000000, .i1⟩ : BufTy).Contents (Elt F)),
    StableHlo.nullary main_c_14 (constantI S_ 32 40000#32),
    StableHlo.unary main_c_14 main_v63 (broadcastInDim S1000000 ![] bcast_S_S1000000 : (⟨S_, .i32⟩ : BufTy).Contents (Elt F) → (⟨S1000000, .i32⟩ : BufTy).Contents (Elt F)),
    StableHlo.binary main_arg11 main_v63 main_v64 (addi : (⟨S1000000, .i32⟩ : BufTy).Contents (Elt F) → (⟨S1000000, .i32⟩ : BufTy).Contents (Elt F) → (⟨S1000000, .i32⟩ : BufTy).Contents (Elt F)),
    StableHlo.ternary main_v62 main_v64 main_arg11 main_v65 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v65 main_v66 (broadcastInDim S1000000x1 ![0] bcast_S1000000_S1000000x1_0 : (⟨S1000000, .i32⟩ : BufTy).Contents (Elt F) → (⟨S1000000x1, .i32⟩ : BufTy).Contents (Elt F)),
    StableHlo.binary main_v1_1 main_v66 main_v67 ((fun x i => Host.gather gather_S40000x128_S1000000x1_S1000000x128_1_0_n_n_0_1_1128 x i) : (⟨S40000x128, .f32⟩ : BufTy).Contents (Elt F) → (⟨S1000000x1, .i32⟩ : BufTy).Contents (Elt F) → (⟨S1000000x128, .f32⟩ : BufTy).Contents (Elt F)),
    StableHlo.unary main_v60 main_v68 (broadcastInDim S1000000x1 ![0] bcast_S1000000_S1000000x1_0 : (⟨S1000000, .f32⟩ : BufTy).Contents (Elt F) → (⟨S1000000x1, .f32⟩ : BufTy).Contents (Elt F)),
    StableHlo.unary main_v68 main_v69 (broadcastInDim S1000000x128 ![0, 1] bcast_S1000000x1_S1000000x128_0_1 : (⟨S1000000x1, .f32⟩ : BufTy).Contents (Elt F) → (⟨S1000000x128, .f32⟩ : BufTy).Contents (Elt F)),
    StableHlo.binary main_v67 main_v69 main_v70 (mulf : (⟨S1000000x128, .f32⟩ : BufTy).Contents (Elt F) → (⟨S1000000x128, .f32⟩ : BufTy).Contents (Elt F) → (⟨S1000000x128, .f32⟩ : BufTy).Contents (Elt F)),
    StableHlo.nullary main_cst_15 (constant S_ .f32 0x00000000#32),
    StableHlo.unary main_cst_15 main_v71 (broadcastInDim S40000x128 ![] bcast_S_S40000x128 : (⟨S_, .f32⟩ : BufTy).Contents (Elt F) → (⟨S40000x128, .f32⟩ : BufTy).Contents (Elt F)),
    StableHlo.unary main_arg12 main_v72 (broadcastInDim S1000000x1 ![0] bcast_S1000000_S1000000x1_0 : (⟨S1000000, .i32⟩ : BufTy).Contents (Elt F) → (⟨S1000000x1, .i32⟩ : BufTy).Contents (Elt F)),
    StableHlo.ternary main_v71 main_v72 main_v70 main_v73 ((fun x i u => Host.scatterAdd scatter_S40000x128_S1000000x1_S1000000x128_1_0_0_1 x i u) : (⟨S40000x128, .f32⟩ : BufTy).Contents (Elt F) → (⟨S1000000x1, .i32⟩ : BufTy).Contents (Elt F) → (⟨S1000000x128, .f32⟩ : BufTy).Contents (Elt F) → (⟨S40000x128, .f32⟩ : BufTy).Contents (Elt F)) ]

/-- The supply relation (positions to companies): edge arrays %arg5, %arg6, %arg7, projected table `main_v1_0`, aggregate `main_v109`. -/
abbrev supplyOps : List (HloOp τ sig (Elt F)) :=
  [ StableHlo.nullary main_cst_16 (constant S_ .f32 0x00000000#32),
    StableHlo.unary main_cst_16 main_v74 (broadcastInDim S40000 ![] bcast_S_S40000 : (⟨S_, .f32⟩ : BufTy).Contents (Elt F) → (⟨S40000, .f32⟩ : BufTy).Contents (Elt F)),
    StableHlo.unary main_arg5 main_v75 (broadcastInDim S1000000x1 ![0] bcast_S1000000_S1000000x1_0 : (⟨S1000000, .i32⟩ : BufTy).Contents (Elt F) → (⟨S1000000x1, .i32⟩ : BufTy).Contents (Elt F)),
    StableHlo.ternary main_v74 main_v75 main_arg7 main_v76 ((fun x i u => Host.scatterAdd scatter_S40000_S1000000x1_S1000000_n_0_0_1 x i u) : (⟨S40000, .f32⟩ : BufTy).Contents (Elt F) → (⟨S1000000x1, .i32⟩ : BufTy).Contents (Elt F) → (⟨S1000000, .f32⟩ : BufTy).Contents (Elt F) → (⟨S40000, .f32⟩ : BufTy).Contents (Elt F)),
    StableHlo.nullary main_cst_17 (constant S_ .f32 0x00000000#32),
    StableHlo.unary main_cst_17 main_v77 (broadcastInDim S40000 ![] bcast_S_S40000 : (⟨S_, .f32⟩ : BufTy).Contents (Elt F) → (⟨S40000, .f32⟩ : BufTy).Contents (Elt F)),
    StableHlo.unary main_arg6 main_v78 (broadcastInDim S1000000x1 ![0] bcast_S1000000_S1000000x1_0 : (⟨S1000000, .i32⟩ : BufTy).Contents (Elt F) → (⟨S1000000x1, .i32⟩ : BufTy).Contents (Elt F)),
    StableHlo.ternary main_v77 main_v78 main_arg7 main_v79 ((fun x i u => Host.scatterAdd scatter_S40000_S1000000x1_S1000000_n_0_0_1 x i u) : (⟨S40000, .f32⟩ : BufTy).Contents (Elt F) → (⟨S1000000x1, .i32⟩ : BufTy).Contents (Elt F) → (⟨S1000000, .f32⟩ : BufTy).Contents (Elt F) → (⟨S40000, .f32⟩ : BufTy).Contents (Elt F)),
    StableHlo.nullary main_c_18 (constantI S_ 32 0#32),
    StableHlo.unary main_c_18 main_v80 (broadcastInDim S1000000 ![] bcast_S_S1000000 : (⟨S_, .i32⟩ : BufTy).Contents (Elt F) → (⟨S1000000, .i32⟩ : BufTy).Contents (Elt F)),
    StableHlo.binary main_arg5 main_v80 main_v81 (cmpi .slt : (⟨S1000000, .i32⟩ : BufTy).Contents (Elt F) → (⟨S1000000, .i32⟩ : BufTy).Contents (Elt F) → (⟨S1000000, .i1⟩ : BufTy).Contents (Elt F)),
    StableHlo.nullary main_c_19 (constantI S_ 32 40000#32),
    StableHlo.unary main_c_19 main_v82 (broadcastInDim S1000000 ![] bcast_S_S1000000 : (⟨S_, .i32⟩ : BufTy).Contents (Elt F) → (⟨S1000000, .i32⟩ : BufTy).Contents (Elt F)),
    StableHlo.binary main_arg5 main_v82 main_v83 (addi : (⟨S1000000, .i32⟩ : BufTy).Contents (Elt F) → (⟨S1000000, .i32⟩ : BufTy).Contents (Elt F) → (⟨S1000000, .i32⟩ : BufTy).Contents (Elt F)),
    StableHlo.ternary main_v81 main_v83 main_arg5 main_v84 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v84 main_v85 (broadcastInDim S1000000x1 ![0] bcast_S1000000_S1000000x1_0 : (⟨S1000000, .i32⟩ : BufTy).Contents (Elt F) → (⟨S1000000x1, .i32⟩ : BufTy).Contents (Elt F)),
    StableHlo.binary main_v76 main_v85 main_v86 ((fun x i => Host.gather gather_S40000_S1000000x1_S1000000_n_0_n_n_0_1_1 x i) : (⟨S40000, .f32⟩ : BufTy).Contents (Elt F) → (⟨S1000000x1, .i32⟩ : BufTy).Contents (Elt F) → (⟨S1000000, .f32⟩ : BufTy).Contents (Elt F)),
    StableHlo.nullary main_c_20 (constantI S_ 32 0#32),
    StableHlo.unary main_c_20 main_v87 (broadcastInDim S1000000 ![] bcast_S_S1000000 : (⟨S_, .i32⟩ : BufTy).Contents (Elt F) → (⟨S1000000, .i32⟩ : BufTy).Contents (Elt F)),
    StableHlo.binary main_arg6 main_v87 main_v88 (cmpi .slt : (⟨S1000000, .i32⟩ : BufTy).Contents (Elt F) → (⟨S1000000, .i32⟩ : BufTy).Contents (Elt F) → (⟨S1000000, .i1⟩ : BufTy).Contents (Elt F)),
    StableHlo.nullary main_c_21 (constantI S_ 32 40000#32),
    StableHlo.unary main_c_21 main_v89 (broadcastInDim S1000000 ![] bcast_S_S1000000 : (⟨S_, .i32⟩ : BufTy).Contents (Elt F) → (⟨S1000000, .i32⟩ : BufTy).Contents (Elt F)),
    StableHlo.binary main_arg6 main_v89 main_v90 (addi : (⟨S1000000, .i32⟩ : BufTy).Contents (Elt F) → (⟨S1000000, .i32⟩ : BufTy).Contents (Elt F) → (⟨S1000000, .i32⟩ : BufTy).Contents (Elt F)),
    StableHlo.ternary main_v88 main_v90 main_arg6 main_v91 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v91 main_v92 (broadcastInDim S1000000x1 ![0] bcast_S1000000_S1000000x1_0 : (⟨S1000000, .i32⟩ : BufTy).Contents (Elt F) → (⟨S1000000x1, .i32⟩ : BufTy).Contents (Elt F)),
    StableHlo.binary main_v79 main_v92 main_v93 ((fun x i => Host.gather gather_S40000_S1000000x1_S1000000_n_0_n_n_0_1_1 x i) : (⟨S40000, .f32⟩ : BufTy).Contents (Elt F) → (⟨S1000000x1, .i32⟩ : BufTy).Contents (Elt F) → (⟨S1000000, .f32⟩ : BufTy).Contents (Elt F)),
    StableHlo.binary main_v86 main_v93 main_v94 (mulf : (⟨S1000000, .f32⟩ : BufTy).Contents (Elt F) → (⟨S1000000, .f32⟩ : BufTy).Contents (Elt F) → (⟨S1000000, .f32⟩ : BufTy).Contents (Elt F)),
    StableHlo.unary main_v94 main_v95 (Host.rsqrt : (⟨S1000000, .f32⟩ : BufTy).Contents (Elt F) → (⟨S1000000, .f32⟩ : BufTy).Contents (Elt F)),
    StableHlo.binary main_arg7 main_v95 main_v96 (mulf : (⟨S1000000, .f32⟩ : BufTy).Contents (Elt F) → (⟨S1000000, .f32⟩ : BufTy).Contents (Elt F) → (⟨S1000000, .f32⟩ : BufTy).Contents (Elt F)),
    StableHlo.nullary main_c_22 (constantI S_ 32 0#32),
    StableHlo.unary main_c_22 main_v97 (broadcastInDim S1000000 ![] bcast_S_S1000000 : (⟨S_, .i32⟩ : BufTy).Contents (Elt F) → (⟨S1000000, .i32⟩ : BufTy).Contents (Elt F)),
    StableHlo.binary main_arg5 main_v97 main_v98 (cmpi .slt : (⟨S1000000, .i32⟩ : BufTy).Contents (Elt F) → (⟨S1000000, .i32⟩ : BufTy).Contents (Elt F) → (⟨S1000000, .i1⟩ : BufTy).Contents (Elt F)),
    StableHlo.nullary main_c_23 (constantI S_ 32 40000#32),
    StableHlo.unary main_c_23 main_v99 (broadcastInDim S1000000 ![] bcast_S_S1000000 : (⟨S_, .i32⟩ : BufTy).Contents (Elt F) → (⟨S1000000, .i32⟩ : BufTy).Contents (Elt F)),
    StableHlo.binary main_arg5 main_v99 main_v100 (addi : (⟨S1000000, .i32⟩ : BufTy).Contents (Elt F) → (⟨S1000000, .i32⟩ : BufTy).Contents (Elt F) → (⟨S1000000, .i32⟩ : BufTy).Contents (Elt F)),
    StableHlo.ternary main_v98 main_v100 main_arg5 main_v101 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v101 main_v102 (broadcastInDim S1000000x1 ![0] bcast_S1000000_S1000000x1_0 : (⟨S1000000, .i32⟩ : BufTy).Contents (Elt F) → (⟨S1000000x1, .i32⟩ : BufTy).Contents (Elt F)),
    StableHlo.binary main_v1_0 main_v102 main_v103 ((fun x i => Host.gather gather_S40000x128_S1000000x1_S1000000x128_1_0_n_n_0_1_1128 x i) : (⟨S40000x128, .f32⟩ : BufTy).Contents (Elt F) → (⟨S1000000x1, .i32⟩ : BufTy).Contents (Elt F) → (⟨S1000000x128, .f32⟩ : BufTy).Contents (Elt F)),
    StableHlo.unary main_v96 main_v104 (broadcastInDim S1000000x1 ![0] bcast_S1000000_S1000000x1_0 : (⟨S1000000, .f32⟩ : BufTy).Contents (Elt F) → (⟨S1000000x1, .f32⟩ : BufTy).Contents (Elt F)),
    StableHlo.unary main_v104 main_v105 (broadcastInDim S1000000x128 ![0, 1] bcast_S1000000x1_S1000000x128_0_1 : (⟨S1000000x1, .f32⟩ : BufTy).Contents (Elt F) → (⟨S1000000x128, .f32⟩ : BufTy).Contents (Elt F)),
    StableHlo.binary main_v103 main_v105 main_v106 (mulf : (⟨S1000000x128, .f32⟩ : BufTy).Contents (Elt F) → (⟨S1000000x128, .f32⟩ : BufTy).Contents (Elt F) → (⟨S1000000x128, .f32⟩ : BufTy).Contents (Elt F)),
    StableHlo.nullary main_cst_24 (constant S_ .f32 0x00000000#32),
    StableHlo.unary main_cst_24 main_v107 (broadcastInDim S40000x128 ![] bcast_S_S40000x128 : (⟨S_, .f32⟩ : BufTy).Contents (Elt F) → (⟨S40000x128, .f32⟩ : BufTy).Contents (Elt F)),
    StableHlo.unary main_arg6 main_v108 (broadcastInDim S1000000x1 ![0] bcast_S1000000_S1000000x1_0 : (⟨S1000000, .i32⟩ : BufTy).Contents (Elt F) → (⟨S1000000x1, .i32⟩ : BufTy).Contents (Elt F)),
    StableHlo.ternary main_v107 main_v108 main_v106 main_v109 ((fun x i u => Host.scatterAdd scatter_S40000x128_S1000000x1_S1000000x128_1_0_0_1 x i u) : (⟨S40000x128, .f32⟩ : BufTy).Contents (Elt F) → (⟨S1000000x1, .i32⟩ : BufTy).Contents (Elt F) → (⟨S1000000x128, .f32⟩ : BufTy).Contents (Elt F) → (⟨S40000x128, .f32⟩ : BufTy).Contents (Elt F)) ]

/-- The company-flow relation: edge arrays %arg8, %arg9, %arg10, projected table `main_v0_1`, aggregate `main_v145`. -/
abbrev cflowOps : List (HloOp τ sig (Elt F)) :=
  [ StableHlo.nullary main_cst_25 (constant S_ .f32 0x00000000#32),
    StableHlo.unary main_cst_25 main_v110 (broadcastInDim S40000 ![] bcast_S_S40000 : (⟨S_, .f32⟩ : BufTy).Contents (Elt F) → (⟨S40000, .f32⟩ : BufTy).Contents (Elt F)),
    StableHlo.unary main_arg8 main_v111 (broadcastInDim S1000000x1 ![0] bcast_S1000000_S1000000x1_0 : (⟨S1000000, .i32⟩ : BufTy).Contents (Elt F) → (⟨S1000000x1, .i32⟩ : BufTy).Contents (Elt F)),
    StableHlo.ternary main_v110 main_v111 main_arg10 main_v112 ((fun x i u => Host.scatterAdd scatter_S40000_S1000000x1_S1000000_n_0_0_1 x i u) : (⟨S40000, .f32⟩ : BufTy).Contents (Elt F) → (⟨S1000000x1, .i32⟩ : BufTy).Contents (Elt F) → (⟨S1000000, .f32⟩ : BufTy).Contents (Elt F) → (⟨S40000, .f32⟩ : BufTy).Contents (Elt F)),
    StableHlo.nullary main_cst_26 (constant S_ .f32 0x00000000#32),
    StableHlo.unary main_cst_26 main_v113 (broadcastInDim S40000 ![] bcast_S_S40000 : (⟨S_, .f32⟩ : BufTy).Contents (Elt F) → (⟨S40000, .f32⟩ : BufTy).Contents (Elt F)),
    StableHlo.unary main_arg9 main_v114 (broadcastInDim S1000000x1 ![0] bcast_S1000000_S1000000x1_0 : (⟨S1000000, .i32⟩ : BufTy).Contents (Elt F) → (⟨S1000000x1, .i32⟩ : BufTy).Contents (Elt F)),
    StableHlo.ternary main_v113 main_v114 main_arg10 main_v115 ((fun x i u => Host.scatterAdd scatter_S40000_S1000000x1_S1000000_n_0_0_1 x i u) : (⟨S40000, .f32⟩ : BufTy).Contents (Elt F) → (⟨S1000000x1, .i32⟩ : BufTy).Contents (Elt F) → (⟨S1000000, .f32⟩ : BufTy).Contents (Elt F) → (⟨S40000, .f32⟩ : BufTy).Contents (Elt F)),
    StableHlo.nullary main_c_27 (constantI S_ 32 0#32),
    StableHlo.unary main_c_27 main_v116 (broadcastInDim S1000000 ![] bcast_S_S1000000 : (⟨S_, .i32⟩ : BufTy).Contents (Elt F) → (⟨S1000000, .i32⟩ : BufTy).Contents (Elt F)),
    StableHlo.binary main_arg8 main_v116 main_v117 (cmpi .slt : (⟨S1000000, .i32⟩ : BufTy).Contents (Elt F) → (⟨S1000000, .i32⟩ : BufTy).Contents (Elt F) → (⟨S1000000, .i1⟩ : BufTy).Contents (Elt F)),
    StableHlo.nullary main_c_28 (constantI S_ 32 40000#32),
    StableHlo.unary main_c_28 main_v118 (broadcastInDim S1000000 ![] bcast_S_S1000000 : (⟨S_, .i32⟩ : BufTy).Contents (Elt F) → (⟨S1000000, .i32⟩ : BufTy).Contents (Elt F)),
    StableHlo.binary main_arg8 main_v118 main_v119 (addi : (⟨S1000000, .i32⟩ : BufTy).Contents (Elt F) → (⟨S1000000, .i32⟩ : BufTy).Contents (Elt F) → (⟨S1000000, .i32⟩ : BufTy).Contents (Elt F)),
    StableHlo.ternary main_v117 main_v119 main_arg8 main_v120 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v120 main_v121 (broadcastInDim S1000000x1 ![0] bcast_S1000000_S1000000x1_0 : (⟨S1000000, .i32⟩ : BufTy).Contents (Elt F) → (⟨S1000000x1, .i32⟩ : BufTy).Contents (Elt F)),
    StableHlo.binary main_v112 main_v121 main_v122 ((fun x i => Host.gather gather_S40000_S1000000x1_S1000000_n_0_n_n_0_1_1 x i) : (⟨S40000, .f32⟩ : BufTy).Contents (Elt F) → (⟨S1000000x1, .i32⟩ : BufTy).Contents (Elt F) → (⟨S1000000, .f32⟩ : BufTy).Contents (Elt F)),
    StableHlo.nullary main_c_29 (constantI S_ 32 0#32),
    StableHlo.unary main_c_29 main_v123 (broadcastInDim S1000000 ![] bcast_S_S1000000 : (⟨S_, .i32⟩ : BufTy).Contents (Elt F) → (⟨S1000000, .i32⟩ : BufTy).Contents (Elt F)),
    StableHlo.binary main_arg9 main_v123 main_v124 (cmpi .slt : (⟨S1000000, .i32⟩ : BufTy).Contents (Elt F) → (⟨S1000000, .i32⟩ : BufTy).Contents (Elt F) → (⟨S1000000, .i1⟩ : BufTy).Contents (Elt F)),
    StableHlo.nullary main_c_30 (constantI S_ 32 40000#32),
    StableHlo.unary main_c_30 main_v125 (broadcastInDim S1000000 ![] bcast_S_S1000000 : (⟨S_, .i32⟩ : BufTy).Contents (Elt F) → (⟨S1000000, .i32⟩ : BufTy).Contents (Elt F)),
    StableHlo.binary main_arg9 main_v125 main_v126 (addi : (⟨S1000000, .i32⟩ : BufTy).Contents (Elt F) → (⟨S1000000, .i32⟩ : BufTy).Contents (Elt F) → (⟨S1000000, .i32⟩ : BufTy).Contents (Elt F)),
    StableHlo.ternary main_v124 main_v126 main_arg9 main_v127 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v127 main_v128 (broadcastInDim S1000000x1 ![0] bcast_S1000000_S1000000x1_0 : (⟨S1000000, .i32⟩ : BufTy).Contents (Elt F) → (⟨S1000000x1, .i32⟩ : BufTy).Contents (Elt F)),
    StableHlo.binary main_v115 main_v128 main_v129 ((fun x i => Host.gather gather_S40000_S1000000x1_S1000000_n_0_n_n_0_1_1 x i) : (⟨S40000, .f32⟩ : BufTy).Contents (Elt F) → (⟨S1000000x1, .i32⟩ : BufTy).Contents (Elt F) → (⟨S1000000, .f32⟩ : BufTy).Contents (Elt F)),
    StableHlo.binary main_v122 main_v129 main_v130 (mulf : (⟨S1000000, .f32⟩ : BufTy).Contents (Elt F) → (⟨S1000000, .f32⟩ : BufTy).Contents (Elt F) → (⟨S1000000, .f32⟩ : BufTy).Contents (Elt F)),
    StableHlo.unary main_v130 main_v131 (Host.rsqrt : (⟨S1000000, .f32⟩ : BufTy).Contents (Elt F) → (⟨S1000000, .f32⟩ : BufTy).Contents (Elt F)),
    StableHlo.binary main_arg10 main_v131 main_v132 (mulf : (⟨S1000000, .f32⟩ : BufTy).Contents (Elt F) → (⟨S1000000, .f32⟩ : BufTy).Contents (Elt F) → (⟨S1000000, .f32⟩ : BufTy).Contents (Elt F)),
    StableHlo.nullary main_c_31 (constantI S_ 32 0#32),
    StableHlo.unary main_c_31 main_v133 (broadcastInDim S1000000 ![] bcast_S_S1000000 : (⟨S_, .i32⟩ : BufTy).Contents (Elt F) → (⟨S1000000, .i32⟩ : BufTy).Contents (Elt F)),
    StableHlo.binary main_arg8 main_v133 main_v134 (cmpi .slt : (⟨S1000000, .i32⟩ : BufTy).Contents (Elt F) → (⟨S1000000, .i32⟩ : BufTy).Contents (Elt F) → (⟨S1000000, .i1⟩ : BufTy).Contents (Elt F)),
    StableHlo.nullary main_c_32 (constantI S_ 32 40000#32),
    StableHlo.unary main_c_32 main_v135 (broadcastInDim S1000000 ![] bcast_S_S1000000 : (⟨S_, .i32⟩ : BufTy).Contents (Elt F) → (⟨S1000000, .i32⟩ : BufTy).Contents (Elt F)),
    StableHlo.binary main_arg8 main_v135 main_v136 (addi : (⟨S1000000, .i32⟩ : BufTy).Contents (Elt F) → (⟨S1000000, .i32⟩ : BufTy).Contents (Elt F) → (⟨S1000000, .i32⟩ : BufTy).Contents (Elt F)),
    StableHlo.ternary main_v134 main_v136 main_arg8 main_v137 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v137 main_v138 (broadcastInDim S1000000x1 ![0] bcast_S1000000_S1000000x1_0 : (⟨S1000000, .i32⟩ : BufTy).Contents (Elt F) → (⟨S1000000x1, .i32⟩ : BufTy).Contents (Elt F)),
    StableHlo.binary main_v0_1 main_v138 main_v139 ((fun x i => Host.gather gather_S40000x128_S1000000x1_S1000000x128_1_0_n_n_0_1_1128 x i) : (⟨S40000x128, .f32⟩ : BufTy).Contents (Elt F) → (⟨S1000000x1, .i32⟩ : BufTy).Contents (Elt F) → (⟨S1000000x128, .f32⟩ : BufTy).Contents (Elt F)),
    StableHlo.unary main_v132 main_v140 (broadcastInDim S1000000x1 ![0] bcast_S1000000_S1000000x1_0 : (⟨S1000000, .f32⟩ : BufTy).Contents (Elt F) → (⟨S1000000x1, .f32⟩ : BufTy).Contents (Elt F)),
    StableHlo.unary main_v140 main_v141 (broadcastInDim S1000000x128 ![0, 1] bcast_S1000000x1_S1000000x128_0_1 : (⟨S1000000x1, .f32⟩ : BufTy).Contents (Elt F) → (⟨S1000000x128, .f32⟩ : BufTy).Contents (Elt F)),
    StableHlo.binary main_v139 main_v141 main_v142 (mulf : (⟨S1000000x128, .f32⟩ : BufTy).Contents (Elt F) → (⟨S1000000x128, .f32⟩ : BufTy).Contents (Elt F) → (⟨S1000000x128, .f32⟩ : BufTy).Contents (Elt F)),
    StableHlo.nullary main_cst_33 (constant S_ .f32 0x00000000#32),
    StableHlo.unary main_cst_33 main_v143 (broadcastInDim S40000x128 ![] bcast_S_S40000x128 : (⟨S_, .f32⟩ : BufTy).Contents (Elt F) → (⟨S40000x128, .f32⟩ : BufTy).Contents (Elt F)),
    StableHlo.unary main_arg9 main_v144 (broadcastInDim S1000000x1 ![0] bcast_S1000000_S1000000x1_0 : (⟨S1000000, .i32⟩ : BufTy).Contents (Elt F) → (⟨S1000000x1, .i32⟩ : BufTy).Contents (Elt F)),
    StableHlo.ternary main_v143 main_v144 main_v142 main_v145 ((fun x i u => Host.scatterAdd scatter_S40000x128_S1000000x1_S1000000x128_1_0_0_1 x i u) : (⟨S40000x128, .f32⟩ : BufTy).Contents (Elt F) → (⟨S1000000x1, .i32⟩ : BufTy).Contents (Elt F) → (⟨S1000000x128, .f32⟩ : BufTy).Contents (Elt F) → (⟨S40000x128, .f32⟩ : BufTy).Contents (Elt F)) ]

/-- Each bias vector viewed as a one-row matrix. -/
abbrev biasOps : List (HloOp τ sig (Elt F)) :=
  [ StableHlo.reshape main_arg17 main_v146 rfl shapeCasts_S128_S1x128,
    StableHlo.reshape main_arg19 main_v147 rfl shapeCasts_S128_S1x128,
    StableHlo.reshape main_arg15 main_v148 rfl shapeCasts_S128_S1x128,
    StableHlo.reshape main_arg21 main_v149 rfl shapeCasts_S128_S1x128 ]

/-- The stretch is the five lists in order. -/
theorem hostOps2_eq : (hostOps2 : List (HloOp τ sig (Elt F))) = demandOps ++ (pflowOps ++ (supplyOps ++ (cflowOps ++ biasOps))) := rfl

/-- So the contents after the stretch are the five lists' effects composed. -/
theorem after_hostOps2 (X : Valuation τ sig (Elt F)) :
    after hostOps2 X = after biasOps (after cflowOps (after supplyOps (after pflowOps (after demandOps X)))) := by
  rw [hostOps2_eq, after_append, after_append, after_append, after_append]

end Cert.KernelIdeal.HostChains

end
-- ==== Proof.RefStages.lean ====
/-
  The reference program's host operations read one at a time: this module only gathers the generated
  read-at-an-index lemmas of the reference's run for the modules that compare the two programs.
-/
import proofs.«100988_j73976516706654_2_alg».proof.Proof.Gen.ReferenceIdeal.Read
-- ==== Proof.HostValues.lean ====
/-
  What the host stretch between the regions leaves in the buffers the combine region reads.

  Each relation's chain of operations is, operation for operation, the reference program's chain for the same relation
  with the projected table in place of the reference's contraction: so once the projected table is known to be the
  reference's contraction stage, the chain's aggregate IS the reference's scatter-add stage of the launch arrays. The
  chains do not touch each other's buffers, so each aggregate survives the rest of the stretch, and each chain finds
  its inputs as the stretch was entered. The last four operations view a bias vector as a one-row matrix.
-/
import proofs.«100988_j73976516706654_2_alg».proof.Proof.HostChains
import proofs.«100988_j73976516706654_2_alg».proof.Proof.RefStages

set_option maxRecDepth 16384

noncomputable section

namespace Cert.KernelIdeal.HostValues

open Cert.KernelIdeal Cert.KernelIdeal.Gen Cert.KernelIdeal.HostChains
open Idealize.ShloMosaic Idealize.ShloMosaic.TcCoe Idealize.SL.Sem Idealize.ShloMosaic.StableHlo
open Cert.ReferenceIdeal.Read (val_main_v23 val_main_v36 val_main_v64 val_main_v77 val_main_v105 val_main_v118 val_main_v146 val_main_v159)

variable {F : FTy → Type} [FloatOps F]

/-! ## The buffers each list writes, and that it writes no other -/

abbrev demandWrites : List (Ref sig .tc) :=
  [main_cst, main_v2, main_v3, main_v4, main_cst_0, main_v5, main_v6, main_v7, main_c, main_v8, main_v9, main_c_1, main_v10, main_v11, main_v12, main_v13, main_v14, main_c_2, main_v15, main_v16, main_c_3, main_v17, main_v18, main_v19, main_v20, main_v21, main_v22, main_v23, main_v24, main_c_4, main_v25, main_v26, main_c_5, main_v27, main_v28, main_v29, main_v30, main_v31, main_v32, main_v33, main_v34, main_cst_6, main_v35, main_v36, main_v37]
abbrev pflowWrites : List (Ref sig .tc) :=
  [main_cst_7, main_v38, main_v39, main_v40, main_cst_8, main_v41, main_v42, main_v43, main_c_9, main_v44, main_v45, main_c_10, main_v46, main_v47, main_v48, main_v49, main_v50, main_c_11, main_v51, main_v52, main_c_12, main_v53, main_v54, main_v55, main_v56, main_v57, main_v58, main_v59, main_v60, main_c_13, main_v61, main_v62, main_c_14, main_v63, main_v64, main_v65, main_v66, main_v67, main_v68, main_v69, main_v70, main_cst_15, main_v71, main_v72, main_v73]
abbrev supplyWrites : List (Ref sig .tc) :=
  [main_cst_16, main_v74, main_v75, main_v76, main_cst_17, main_v77, main_v78, main_v79, main_c_18, main_v80, main_v81, main_c_19, main_v82, main_v83, main_v84, main_v85, main_v86, main_c_20, main_v87, main_v88, main_c_21, main_v89, main_v90, main_v91, main_v92, main_v93, main_v94, main_v95, main_v96, main_c_22, main_v97, main_v98, main_c_23, main_v99, main_v100, main_v101, main_v102, main_v103, main_v104, main_v105, main_v106, main_cst_24, main_v107, main_v108, main_v109]
abbrev cflowWrites : List (Ref sig .tc) :=
  [main_cst_25, main_v110, main_v111, main_v112, main_cst_26, main_v113, main_v114, main_v115, main_c_27, main_v116, main_v117, main_c_28, main_v118, main_v119, main_v120, main_v121, main_v122, main_c_29, main_v123, main_v124, main_c_30, main_v125, main_v126, main_v127, main_v128, main_v129, main_v130, main_v131, main_v132, main_c_31, main_v133, main_v134, main_c_32, main_v135, main_v136, main_v137, main_v138, main_v139, main_v140, main_v141, main_v142, main_cst_33, main_v143, main_v144, main_v145]
abbrev biasWrites : List (Ref sig .tc) :=
  [main_v146, main_v147, main_v148, main_v149]

theorem demand_writes : (demandOps : List (HloOp τ sig (Elt F))).Forall fun op => op.writes ⊆ (demandWrites.map (Proc.devRef (τ := τ) .tc)).toFinset := by
  simp only [demandOps, List.Forall, nullary_writes, unary_writes, binary_writes, ternary_writes, reshape_writes,
    Finset.singleton_subset_iff, List.mem_toFinset]
  repeat' apply And.intro
  all_goals exact List.mem_map_of_mem (by decide)
/-- A buffer the list does not write keeps its contents. -/
theorem demand_keeps (X : Valuation τ sig (Elt F)) {r : Ref sig .tc} (hr : r ∉ demandWrites) :
    after demandOps X (Proc.devRef .tc r) = X (Proc.devRef .tc r) :=
  after_of_writes_sub demandOps X demand_writes hr

theorem pflow_writes : (pflowOps : List (HloOp τ sig (Elt F))).Forall fun op => op.writes ⊆ (pflowWrites.map (Proc.devRef (τ := τ) .tc)).toFinset := by
  simp only [pflowOps, List.Forall, nullary_writes, unary_writes, binary_writes, ternary_writes, reshape_writes,
    Finset.singleton_subset_iff, List.mem_toFinset]
  repeat' apply And.intro
  all_goals exact List.mem_map_of_mem (by decide)
/-- A buffer the list does not write keeps its contents. -/
theorem pflow_keeps (X : Valuation τ sig (Elt F)) {r : Ref sig .tc} (hr : r ∉ pflowWrites) :
    after pflowOps X (Proc.devRef .tc r) = X (Proc.devRef .tc r) :=
  after_of_writes_sub pflowOps X pflow_writes hr

theorem supply_writes : (supplyOps : List (HloOp τ sig (Elt F))).Forall fun op => op.writes ⊆ (supplyWrites.map (Proc.devRef (τ := τ) .tc)).toFinset := by
  simp only [supplyOps, List.Forall, nullary_writes, unary_writes, binary_writes, ternary_writes, reshape_writes,
    Finset.singleton_subset_iff, List.mem_toFinset]
  repeat' apply And.intro
  all_goals exact List.mem_map_of_mem (by decide)
/-- A buffer the list does not write keeps its contents. -/
theorem supply_keeps (X : Valuation τ sig (Elt F)) {r : Ref sig .tc} (hr : r ∉ supplyWrites) :
    after supplyOps X (Proc.devRef .tc r) = X (Proc.devRef .tc r) :=
  after_of_writes_sub supplyOps X supply_writes hr

theorem cflow_writes : (cflowOps : List (HloOp τ sig (Elt F))).Forall fun op => op.writes ⊆ (cflowWrites.map (Proc.devRef (τ := τ) .tc)).toFinset := by
  simp only [cflowOps, List.Forall, nullary_writes, unary_writes, binary_writes, ternary_writes, reshape_writes,
    Finset.singleton_subset_iff, List.mem_toFinset]
  repeat' apply And.intro
  all_goals exact List.mem_map_of_mem (by decide)
/-- A buffer the list does not write keeps its contents. -/
theorem cflow_keeps (X : Valuation τ sig (Elt F)) {r : Ref sig .tc} (hr : r ∉ cflowWrites) :
    after cflowOps X (Proc.devRef .tc r) = X (Proc.devRef .tc r) :=
  after_of_writes_sub cflowOps X cflow_writes hr

theorem bias_writes : (biasOps : List (HloOp τ sig (Elt F))).Forall fun op => op.writes ⊆ (biasWrites.map (Proc.devRef (τ := τ) .tc)).toFinset := by
  simp only [biasOps, List.Forall, nullary_writes, unary_writes, binary_writes, ternary_writes, reshape_writes,
    Finset.singleton_subset_iff, List.mem_toFinset]
  repeat' apply And.intro
  all_goals exact List.mem_map_of_mem (by decide)
/-- A buffer the list does not write keeps its contents. -/
theorem bias_keeps (X : Valuation τ sig (Elt F)) {r : Ref sig .tc} (hr : r ∉ biasWrites) :
    after biasOps X (Proc.devRef .tc r) = X (Proc.devRef .tc r) :=
  after_of_writes_sub biasOps X bias_writes hr

/-! ## Each chain's aggregate is the reference's stage -/

/-- The demand relation: from contents whose projected table is the reference's contraction of (x0, x14). -/
theorem demand_value (X : Valuation τ sig (Elt F)) (x0 : (⟨S40000x128, .f32⟩ : BufTy).Contents (Elt F)) (x14 : (⟨S128x128, .f32⟩ : BufTy).Contents (Elt F))
    (hp : X (Proc.devRef .tc main_v0_0) = val_main_v23 x0 x14) :
    after demandOps X (Proc.devRef .tc main_v37)
      = val_main_v36 x0 (X (Proc.devRef .tc main_arg2)) (X (Proc.devRef .tc main_arg3)) (X (Proc.devRef .tc main_arg4)) x14 := by
  after_results_simp
  rw [hp]
  rfl

/-- The position-flow relation. -/
theorem pflow_value (X : Valuation τ sig (Elt F)) (x1 : (⟨S40000x128, .f32⟩ : BufTy).Contents (Elt F)) (x20 : (⟨S128x128, .f32⟩ : BufTy).Contents (Elt F))
    (hp : X (Proc.devRef .tc main_v1_1) = val_main_v64 x1 x20) :
    after pflowOps X (Proc.devRef .tc main_v73)
      = val_main_v77 x1 (X (Proc.devRef .tc main_arg11)) (X (Proc.devRef .tc main_arg12)) (X (Proc.devRef .tc main_arg13)) x20 := by
  after_results_simp
  rw [hp]
  rfl

/-- The supply relation. -/
theorem supply_value (X : Valuation τ sig (Elt F)) (x1 : (⟨S40000x128, .f32⟩ : BufTy).Contents (Elt F)) (x16 : (⟨S128x128, .f32⟩ : BufTy).Contents (Elt F))
    (hp : X (Proc.devRef .tc main_v1_0) = val_main_v105 x1 x16) :
    after supplyOps X (Proc.devRef .tc main_v109)
      = val_main_v118 x1 (X (Proc.devRef .tc main_arg5)) (X (Proc.devRef .tc main_arg6)) (X (Proc.devRef .tc main_arg7)) x16 := by
  after_results_simp
  rw [hp]
  rfl

/-- The company-flow relation. -/
theorem cflow_value (X : Valuation τ sig (Elt F)) (x0 : (⟨S40000x128, .f32⟩ : BufTy).Contents (Elt F)) (x18 : (⟨S128x128, .f32⟩ : BufTy).Contents (Elt F))
    (hp : X (Proc.devRef .tc main_v0_1) = val_main_v146 x0 x18) :
    after cflowOps X (Proc.devRef .tc main_v145)
      = val_main_v159 x0 (X (Proc.devRef .tc main_arg8)) (X (Proc.devRef .tc main_arg9)) (X (Proc.devRef .tc main_arg10)) x18 := by
  after_results_simp
  rw [hp]
  rfl

/-! ## The bias vectors as one-row matrices -/

theorem bias_value_v146 (Y : Valuation τ sig (Elt F)) :
    after biasOps Y (Proc.devRef .tc main_v146) = fun i => shapeCast S1x128 (Y (Proc.devRef .tc main_arg17)) shapeCasts_S128_S1x128 i := by
  after_results_simp <;> rfl

theorem bias_value_v147 (Y : Valuation τ sig (Elt F)) :
    after biasOps Y (Proc.devRef .tc main_v147) = fun i => shapeCast S1x128 (Y (Proc.devRef .tc main_arg19)) shapeCasts_S128_S1x128 i := by
  after_results_simp <;> rfl

theorem bias_value_v148 (Y : Valuation τ sig (Elt F)) :
    after biasOps Y (Proc.devRef .tc main_v148) = fun i => shapeCast S1x128 (Y (Proc.devRef .tc main_arg15)) shapeCasts_S128_S1x128 i := by
  after_results_simp <;> rfl

theorem bias_value_v149 (Y : Valuation τ sig (Elt F)) :
    after biasOps Y (Proc.devRef .tc main_v149) = fun i => shapeCast S1x128 (Y (Proc.devRef .tc main_arg21)) shapeCasts_S128_S1x128 i := by
  after_results_simp <;> rfl

/-! ## The whole stretch -/

/-- After the whole stretch the demand relation's aggregate is the reference's stage of the entry contents. -/
theorem v37_after (X : Valuation τ sig (Elt F)) (x0 : (⟨S40000x128, .f32⟩ : BufTy).Contents (Elt F)) (x14 : (⟨S128x128, .f32⟩ : BufTy).Contents (Elt F))
    (hp : X (Proc.devRef .tc main_v0_0) = val_main_v23 x0 x14) :
    after hostOps2 X (Proc.devRef .tc main_v37)
      = val_main_v36 x0 (X (Proc.devRef .tc main_arg2)) (X (Proc.devRef .tc main_arg3)) (X (Proc.devRef .tc main_arg4)) x14 := by
  rw [after_hostOps2, bias_keeps (r := main_v37) _ (by decide), cflow_keeps (r := main_v37) _ (by decide), supply_keeps (r := main_v37) _ (by decide), pflow_keeps (r := main_v37) _ (by decide)]
  rw [demand_value X x0 x14 hp]

/-- After the whole stretch the pflow relation's aggregate is the reference's stage of the entry contents. -/
theorem v73_after (X : Valuation τ sig (Elt F)) (x1 : (⟨S40000x128, .f32⟩ : BufTy).Contents (Elt F)) (x20 : (⟨S128x128, .f32⟩ : BufTy).Contents (Elt F))
    (hp : X (Proc.devRef .tc main_v1_1) = val_main_v64 x1 x20) :
    after hostOps2 X (Proc.devRef .tc main_v73)
      = val_main_v77 x1 (X (Proc.devRef .tc main_arg11)) (X (Proc.devRef .tc main_arg12)) (X (Proc.devRef .tc main_arg13)) x20 := by
  rw [after_hostOps2, bias_keeps (r := main_v73) _ (by decide), cflow_keeps (r := main_v73) _ (by decide), supply_keeps (r := main_v73) _ (by decide)]
  rw [pflow_value (after demandOps X) x1 x20 ((demand_keeps (r := main_v1_1) _ (by decide)).trans hp)]
  rw [demand_keeps (r := main_arg11) _ (by decide),
    demand_keeps (r := main_arg12) _ (by decide),
    demand_keeps (r := main_arg13) _ (by decide)]

/-- After the whole stretch the supply relation's aggregate is the reference's stage of the entry contents. -/
theorem v109_after (X : Valuation τ sig (Elt F)) (x1 : (⟨S40000x128, .f32⟩ : BufTy).Contents (Elt F)) (x16 : (⟨S128x128, .f32⟩ : BufTy).Contents (Elt F))
    (hp : X (Proc.devRef .tc main_v1_0) = val_main_v105 x1 x16) :
    after hostOps2 X (Proc.devRef .tc main_v109)
      = val_main_v118 x1 (X (Proc.devRef .tc main_arg5)) (X (Proc.devRef .tc main_arg6)) (X (Proc.devRef .tc main_arg7)) x16 := by
  rw [after_hostOps2, bias_keeps (r := main_v109) _ (by decide), cflow_keeps (r := main_v109) _ (by decide)]
  rw [supply_value (after pflowOps (after demandOps X)) x1 x16 (((pflow_keeps (r := main_v1_0) _ (by decide)).trans (demand_keeps (r := main_v1_0) _ (by decide))).trans hp)]
  rw [pflow_keeps (r := main_arg5) _ (by decide),
    demand_keeps (r := main_arg5) _ (by decide),
    pflow_keeps (r := main_arg6) _ (by decide),
    demand_keeps (r := main_arg6) _ (by decide),
    pflow_keeps (r := main_arg7) _ (by decide),
    demand_keeps (r := main_arg7) _ (by decide)]

/-- After the whole stretch the cflow relation's aggregate is the reference's stage of the entry contents. -/
theorem v145_after (X : Valuation τ sig (Elt F)) (x0 : (⟨S40000x128, .f32⟩ : BufTy).Contents (Elt F)) (x18 : (⟨S128x128, .f32⟩ : BufTy).Contents (Elt F))
    (hp : X (Proc.devRef .tc main_v0_1) = val_main_v146 x0 x18) :
    after hostOps2 X (Proc.devRef .tc main_v145)
      = val_main_v159 x0 (X (Proc.devRef .tc main_arg8)) (X (Proc.devRef .tc main_arg9)) (X (Proc.devRef .tc main_arg10)) x18 := by
  rw [after_hostOps2, bias_keeps (r := main_v145) _ (by decide)]
  rw [cflow_value (after supplyOps (after pflowOps (after demandOps X))) x0 x18 ((((supply_keeps (r := main_v0_1) _ (by decide)).trans (pflow_keeps (r := main_v0_1) _ (by decide))).trans (demand_keeps (r := main_v0_1) _ (by decide))).trans hp)]
  rw [supply_keeps (r := main_arg8) _ (by decide),
    pflow_keeps (r := main_arg8) _ (by decide),
    demand_keeps (r := main_arg8) _ (by decide),
    supply_keeps (r := main_arg9) _ (by decide),
    pflow_keeps (r := main_arg9) _ (by decide),
    demand_keeps (r := main_arg9) _ (by decide),
    supply_keeps (r := main_arg10) _ (by decide),
    pflow_keeps (r := main_arg10) _ (by decide),
    demand_keeps (r := main_arg10) _ (by decide)]

theorem v146_after (X : Valuation τ sig (Elt F)) :
    after hostOps2 X (Proc.devRef .tc main_v146) = fun i => shapeCast S1x128 (X (Proc.devRef .tc main_arg17)) shapeCasts_S128_S1x128 i := by
  rw [after_hostOps2, bias_value_v146]
  rw [cflow_keeps (r := main_arg17) _ (by decide), supply_keeps (r := main_arg17) _ (by decide), pflow_keeps (r := main_arg17) _ (by decide), demand_keeps (r := main_arg17) _ (by decide)]

theorem v147_after (X : Valuation τ sig (Elt F)) :
    after hostOps2 X (Proc.devRef .tc main_v147) = fun i => shapeCast S1x128 (X (Proc.devRef .tc main_arg19)) shapeCasts_S128_S1x128 i := by
  rw [after_hostOps2, bias_value_v147]
  rw [cflow_keeps (r := main_arg19) _ (by decide), supply_keeps (r := main_arg19) _ (by decide), pflow_keeps (r := main_arg19) _ (by decide), demand_keeps (r := main_arg19) _ (by decide)]

theorem v148_after (X : Valuation τ sig (Elt F)) :
    after hostOps2 X (Proc.devRef .tc main_v148) = fun i => shapeCast S1x128 (X (Proc.devRef .tc main_arg15)) shapeCasts_S128_S1x128 i := by
  rw [after_hostOps2, bias_value_v148]
  rw [cflow_keeps (r := main_arg15) _ (by decide), supply_keeps (r := main_arg15) _ (by decide), pflow_keeps (r := main_arg15) _ (by decide), demand_keeps (r := main_arg15) _ (by decide)]

theorem v149_after (X : Valuation τ sig (Elt F)) :
    after hostOps2 X (Proc.devRef .tc main_v149) = fun i => shapeCast S1x128 (X (Proc.devRef .tc main_arg21)) shapeCasts_S128_S1x128 i := by
  rw [after_hostOps2, bias_value_v149]
  rw [cflow_keeps (r := main_arg21) _ (by decide), supply_keeps (r := main_arg21) _ (by decide), pflow_keeps (r := main_arg21) _ (by decide), demand_keeps (r := main_arg21) _ (by decide)]

end Cert.KernelIdeal.HostValues

end
-- ==== Proof.Spec.lean ====
/-
  The mathematics both programs compute, stated once over plain index types.

  Two node tables (companies and positions, 40000 rows of 128 features each) and four relations between them.
  For a relation with source table x and weight matrix W the projected table is x · W; its rows are then gathered
  along the relation's edges, scaled by the normalized edge weights and summed into the destination rows (that
  aggregation is the same host computation in both programs and is never opened here). The result stacks, for the
  two destination tables, one half of the sum of the two incoming relations' max(aggregate + bias, 0).

  `proj` is the projection at an entry, `out` the stacked result at an entry from the four aggregates and biases.
-/
import Idealize.ShloMosaic.PureOps.Ideal
import Idealize.ShloMosaic.Lib.ValueIdx

noncomputable section

open scoped BigOperators

namespace Cert.HeteroConv

open Idealize.ShloMosaic Idealize.ShloMosaic.ValueIdx

/-- A node table: 40000 rows of 128 features. -/
abbrev Nodes : Shape := ⟨2, ![40000, 128]⟩
/-- A relation's weight matrix. -/
abbrev Weights : Shape := ⟨2, ![128, 128]⟩
/-- A relation's bias vector. -/
abbrev Bias : Shape := ⟨1, ![128]⟩
/-- The two destination tables stacked. -/
abbrev Stacked : Shape := ⟨3, ![2, 40000, 128]⟩

/-- The projected table x · W at the entry (r, j): the sum over k of x (r, k) · W (k, j). -/
def proj (x : Nodes.Idx → EReal) (w : Weights.Idx → EReal) : Nodes.Idx → EReal :=
  fun i => ∑ k : Fin 128, x (ix2 (i 0) k) * w (ix2 k (i 1))

theorem proj_apply (x : Nodes.Idx → EReal) (w : Weights.Idx → EReal) (r : Fin 40000) (j : Fin 128) :
    proj x w (ix2 r j) = ∑ k : Fin 128, x (ix2 r k) * w (ix2 k j) := rfl

/-- One relation's contribution at (r, j): max(aggregate + bias, 0), the zero as the program's literal word. -/
def act (a : Nodes.Idx → EReal) (b : Bias.Idx → EReal) (r : Fin 40000) (j : Fin 128) : EReal :=
  max (a (ix2 r j) + b (ix1 j)) (Ideal.ofBits .f32 0x00000000#32)

/-- The mean of two relations' contributions at (r, j): the literal one half times their sum. -/
def mean2 (a₁ a₂ : Nodes.Idx → EReal) (b₁ b₂ : Bias.Idx → EReal) (r : Fin 40000) (j : Fin 128) : EReal :=
  Ideal.ofBits .f32 0x3F000000#32 * (act a₁ b₁ r j + act a₂ b₂ r j)

/-- The stacked result: table 0 from the relations (a₀, a₁), table 1 from (a₂, a₃). -/
def out (a₀ a₁ a₂ a₃ : Nodes.Idx → EReal) (b₀ b₁ b₂ b₃ : Bias.Idx → EReal) : Stacked.Idx → EReal :=
  fun i => if (i 0).val = 0 then mean2 a₀ a₁ b₀ b₁ (i 1) (i 2) else mean2 a₂ a₃ b₂ b₃ (i 1) (i 2)

theorem out_zero (a₀ a₁ a₂ a₃ : Nodes.Idx → EReal) (b₀ b₁ b₂ b₃ : Bias.Idx → EReal) (r : Fin 40000) (j : Fin 128) :
    out a₀ a₁ a₂ a₃ b₀ b₁ b₂ b₃ (ix3 (0 : Fin 2) r j) = mean2 a₀ a₁ b₀ b₁ r j := rfl

theorem out_one (a₀ a₁ a₂ a₃ : Nodes.Idx → EReal) (b₀ b₁ b₂ b₃ : Bias.Idx → EReal) (r : Fin 40000) (j : Fin 128) :
    out a₀ a₁ a₂ a₃ b₀ b₁ b₂ b₃ (ix3 (1 : Fin 2) r j) = mean2 a₂ a₃ b₂ b₃ r j := rfl

end Cert.HeteroConv

end
-- ==== Proof.LibDotPlain.lean ====
/-
  A plain matrix product, read at an entry.

  When an [M, K] operand is contracted with a [K, N] operand along the second axis of the first and the first axis of
  the second — the product A · B — the entry (i, j) of the [M, N] result is the sum over k of A (i, k) times B (k, j).
  The contraction's own index type is re-indexed by its one coordinate; the four coordinate facts about the dimension
  numbers are hypotheses, each a computation at literal dimension numbers.
-/
import Idealize.ShloMosaic.PureOps.Ideal
import Idealize.ShloMosaic.Lib.ValueIdx

noncomputable section

open scoped BigOperators

namespace Cert.Lib.DotPlain

open Idealize.ShloMosaic Idealize.ShloMosaic.ValueIdx

/-- A contraction of an [M, K] by a [K, N] operand along the inner axes, at (i, j): the sum over k of
    left (i, k) times right (k, j). -/
theorem dot_sum_nn {M K N : Nat} (d : DotDims ⟨2, ![M, K]⟩ ⟨2, ![K, N]⟩ ⟨2, ![M, N]⟩) (hr : d.contr.rank = 1)
    (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : (⟨2, ![M, K]⟩ : Shape).Idx → EReal) (rhs : (⟨2, ![K, N]⟩ : Shape).Idx → EReal) (i : Fin M) (j : Fin N) :
    ∑ k : d.contr.Idx, lhs (d.lhsIdx (ix2 i j) k) * rhs (d.rhsIdx (ix2 i j) k) = ∑ k : Fin K, lhs (ix2 i k) * rhs (ix2 k j) := by
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Cert.Lib.DotPlain

end
-- ==== Proof.ProjRegions.lean ====
/-
  The two projection regions as whole tables.

  Each region multiplies a node table X (40000 rows of 128 features), block of 4000 rows by block, by two 128 × 128
  weight matrices W and W'. On extended reals narrowing an operand is the identity and the accumulator starts at
  zero, so the entry (p, q) of a block's product is ∑ₖ x (p, k) · w (k, q). The block of grid point t holds the rows
  4000·t … 4000·t + 3999 of X, the weight blocks are the whole matrices, and the result block is written back to the
  same rows; the ten blocks tile the table (row r lies in the block of point r / 4000). Hence after a region its two
  results are the projected tables X · W and X · W', whatever the memory held when the region was entered.
-/
import proofs.«100988_j73976516706654_2_alg».proof.Proof.Gen.KernelIdeal.Frame
import proofs.«100988_j73976516706654_2_alg».proof.Proof.Spec
import proofs.«100988_j73976516706654_2_alg».proof.Proof.LibDotPlain
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.ProjRegions

open Cert.KernelIdeal Cert.KernelIdeal.Gen

/-- The dimension numbers of the block product: the left operand's second axis against the right operand's first. -/
abbrev D : DotDims S4000x128 S128x128 S4000x128 := dot_S4000x128_S128x128_S4000x128_1_0_0_1_n_n

/-- The left operand is read at the result's row … -/
theorem D_lhs_row (j : S4000x128.Idx) (q : D.contr.Idx) : (D.lhsIdx j q 0).val = (j 0).val := by
  unfold DotDims.lhsIdx
  rw [dif_neg (show ¬(0 : Fin S4000x128.rank) ∈ D.lhsBatch by decide), dif_pos (show (0 : Fin S4000x128.rank) ∈ D.lhsNonContracting by decide)]
  rfl
/-- … and at the summation index; -/
theorem D_lhs_sum (j : S4000x128.Idx) (q : D.contr.Idx) : (D.lhsIdx j q 1).val = (q ⟨0, by decide⟩).val :=
  D.lhsIdx_val_of_single rfl j q
/-- the right operand at the summation index … -/
theorem D_rhs_sum (j : S4000x128.Idx) (q : D.contr.Idx) : (D.rhsIdx j q 0).val = (q ⟨0, by decide⟩).val :=
  D.rhsIdx_val_of_single rfl j q
/-- … and at the result's column. -/
theorem D_rhs_col (j : S4000x128.Idx) (q : D.contr.Idx) : (D.rhsIdx j q 1).val = (j 1).val := by
  unfold DotDims.rhsIdx
  rw [dif_neg (show ¬(1 : Fin S128x128.rank) ∈ D.rhsBatch by decide), dif_pos (show (1 : Fin S128x128.rank) ∈ D.rhsNonContracting by decide)]
  rfl

/-- On extended reals the product of a row block x with a weight matrix w, accumulated from zero, has at (p, q)
    the entry ∑ₖ x (p, k) · w (k, q): narrowing the operands changes nothing there. -/
theorem prod_entry (x : Vec Ideal S4000x128 .f32) (w : Vec Ideal S128x128 .f32) (p : Fin 4000) (q : Fin 128) :
    matmul D none (truncf .bf16 x bitsLt_bf16_f32) (truncf .bf16 w bitsLt_bf16_f32) (constant (F := Ideal) S4000x128 .f32 0x00000000#32) (ix2 p q)
      = ∑ k : Fin 128, x (ix2 p k) * w (ix2 k q) := by
  refine (Ideal.matmul_constant_zero_apply D none _ _ (ix2 p q)).trans ?_
  exact Cert.Lib.DotPlain.dot_sum_nn D rfl rfl D_lhs_row D_lhs_sum D_rhs_sum D_rhs_col x w p q

/-- The zero offsets of a whole-buffer access. -/
theorem hz : (![0, 0] : Fin 2 → Nat) = fun _ => 0 := funext fun a => by fin_cases a <;> rfl

/-- A block whose rows are rows 4000·b + p of a table X and whose weights are W has, as its product, the rows
    4000·b + p of the projected table X · W. -/
theorem prod_block (x : Vec Ideal S4000x128 .f32) (w : Vec Ideal S128x128 .f32) (X : S40000x128.Idx → EReal)
    (W : S128x128.Idx → EReal) (b : Nat)
    (hx : ∀ (p : Fin 4000) (k : Fin 128) (r : Fin 40000), r.val = b * 4000 + p.val → x (ix2 p k) = X (ix2 r k))
    (hw : ∀ (k q : Fin 128), w (ix2 k q) = W (ix2 k q))
    (j : S4000x128.Idx) (i : S40000x128.Idx) (h0 : (i 0).val = b * 4000 + (j 0).val) (h1 : (i 1).val = (j 1).val) :
    matmul D none (truncf .bf16 x bitsLt_bf16_f32) (truncf .bf16 w bitsLt_bf16_f32) (constant (F := Ideal) S4000x128 .f32 0x00000000#32) j
      = HeteroConv.proj X W i := by
  obtain ⟨p, q, rfl⟩ : ∃ (p : Fin 4000) (q : Fin 128), j = ix2 p q := ⟨j 0, j 1, eq_ix2 j⟩
  obtain ⟨r, q', rfl⟩ : ∃ (r : Fin 40000) (q' : Fin 128), i = ix2 r q' := ⟨i 0, i 1, eq_ix2 i⟩
  have h0' : r.val = b * 4000 + p.val := h0
  obtain rfl : q' = q := Fin.ext h1
  rw [prod_entry, HeteroConv.proj_apply]
  refine Finset.sum_congr rfl fun k _ => ?_
  rw [hx p k r h0', hw k q']

variable (V : (c : Dev nD) → (b : Ref sig .tc) → Buf (Elt Ideal) ((c : Thread nD τ).loc b))

/-! ## The first projection region -/

/-- Its index maps over the ten grid points: the table's and the results' blocks sit at block row t, the weights'
    at the one block there is. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The table's block at point t holds the table's rows 4000·t + p. -/
theorem rows0 (c : Dev nD) (t : Fin cfg0.N) (p : Fin 4000) (k : Fin 128) (r : Fin 40000) (hr : r.val = t.val * 4000 + p.val) :
    (iblk0 V c 0 t : Vec Ideal S4000x128 .f32) (ix2 p k) = (V c main_arg0 : S40000x128.Idx → EReal) (ix2 r k) := by
  obtain ⟨e0, e1, -⟩ := idx0 t
  unfold iblk0
  rw [View.read_apply]
  show V c main_arg0 _ = V c main_arg0 _
  congr 1
  funext a; apply Fin.ext
  match a with
  | ⟨0, _⟩ => show win0_0.index t (0 : Fin 2) * 4000 + 1 * p.val = r.val; omega
  | ⟨1, _⟩ => show win0_0.index t (1 : Fin 2) * 128 + 1 * k.val = k.val; omega

/-- The first weight window's block is the whole weight matrix, at every point. -/
theorem weights0_1 (c : Dev nD) (t : Fin cfg0.N) (k q : Fin 128) :
    (iblk0 V c 1 t : Vec Ideal S128x128 .f32) (ix2 k q) = (V c main_arg14 : S128x128.Idx → EReal) (ix2 k q) := by
  obtain ⟨-, -, e0, e1, -⟩ := idx0 t
  unfold iblk0
  rw [View.read_apply]
  show V c main_arg14 _ = V c main_arg14 _
  congr 1
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- So is the second weight window's. -/
theorem weights0_2 (c : Dev nD) (t : Fin cfg0.N) (k q : Fin 128) :
    (iblk0 V c 2 t : Vec Ideal S128x128 .f32) (ix2 k q) = (V c main_arg18 : S128x128.Idx → EReal) (ix2 k q) := by
  obtain ⟨-, -, -, -, e0, e1, -⟩ := idx0 t
  unfold iblk0
  rw [View.read_apply]
  show V c main_arg18 _ = V c main_arg18 _
  congr 1
  funext a; apply Fin.ext
  match a with
  | ⟨0, _⟩ => show win0_2.index t (0 : Fin 2) * 128 + 1 * k.val = k.val; omega
  | ⟨1, _⟩ => show win0_2.index t (1 : Fin 2) * 128 + 1 * q.val = q.val; omega

/-- What point t writes back through the first result window is block t of the table projected by the first weights. -/
theorem flushed0_3 (c : Dev nD) (t : Fin cfg0.N) :
    (dat0 (F := Ideal) V c).flushed 3 t
      = ((cfg0.win 3).blk t).view.read (Elt Ideal) (HeteroConv.proj (V c main_arg0) (V c main_arg14)) := by
  show (cfg0.win 3).cut (grid0.coords t) ((dat0 V c).after 3 t) = _
  rw [after0_3]
  unfold out0_3
  rw [View.canon_unit_zero hz]
  simp only [View.ld_unit_zero (S := S4000x128) hz, View.ld_unit_zero (S := S128x128) hz]
  obtain ⟨-, -, -, -, -, -, e0, e1, -⟩ := idx0 t
  funext j
  unfold k0_pay2 k0_pay1
  refine prod_block (iblk0 V c 0 t) (iblk0 V c 1 t) (V c main_arg0) (V c main_arg14) t.val
    (fun p k r h => rows0 V c t p k r h) (fun k q => weights0_1 V c t k q) j (((cfg0.win 3).blk t).view.emb j) ?_ ?_
  · show win0_3.index t (0 : Fin 2) * 4000 + 1 * (j 0).val = t.val * 4000 + (j 0).val; omega
  · show win0_3.index t (1 : Fin 2) * 128 + 1 * (j 1).val = (j 1).val; omega

/-- And through the second result window, block t of the table projected by the second weights. -/
theorem flushed0_4 (c : Dev nD) (t : Fin cfg0.N) :
    (dat0 (F := Ideal) V c).flushed 4 t
      = ((cfg0.win 4).blk t).view.read (Elt Ideal) (HeteroConv.proj (V c main_arg0) (V c main_arg18)) := by
  show (cfg0.win 4).cut (grid0.coords t) ((dat0 V c).after 4 t) = _
  rw [after0_4]
  unfold out0_4
  rw [View.canon_unit_zero hz]
  simp only [View.ld_unit_zero (S := S4000x128) hz, View.ld_unit_zero (S := S128x128) hz]
  obtain ⟨-, -, -, -, -, -, -, -, e0, e1⟩ := idx0 t
  funext j
  unfold k0_pay3 k0_pay1
  refine prod_block (iblk0 V c 0 t) (iblk0 V c 2 t) (V c main_arg0) (V c main_arg18) t.val
    (fun p k r h => rows0 V c t p k r h) (fun k q => weights0_2 V c t k q) j (((cfg0.win 4).blk t).view.emb j) ?_ ?_
  · show win0_4.index t (0 : Fin 2) * 4000 + 1 * (j 0).val = t.val * 4000 + (j 0).val; omega
  · show win0_4.index t (1 : Fin 2) * 128 + 1 * (j 1).val = (j 1).val; omega

/-- An entry of the first result lies in point t's block iff each coordinate lies in the block's range. -/
theorem mem_blk0_3 (t : Fin cfg0.N) (i : S40000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v0_0).slice (win0_3.rect t)).set ↔ _
  rw [View.set_slice_whole, Rect.mem_set_unit]
  exact Iff.rfl

/-- The same for the second result. -/
theorem mem_blk0_4 (t : Fin cfg0.N) (i : S40000x128.Idx) :
    i ∈ ((cfg0.win 4).blk t).view.set ↔ ∀ a : Fin 2, win0_4.index t a * S4000x128.size a ≤ (i a).val
      ∧ (i a).val < win0_4.index t a * S4000x128.size a + S4000x128.size a := by
  show i ∈ ((View.whole main_v0_1).slice (win0_4.rect t)).set ↔ _
  rw [View.set_slice_whole, Rect.mem_set_unit]
  exact Iff.rfl

/-- Row r of the first result lies in the block of point r / 4000: the ten blocks tile the table. -/
theorem tiled0_3 (i : S40000x128.Idx) :
    ∃ t : Fin cfg0.N, (cfg0.win 3).flush t = true ∧ i ∈ ((cfg0.win 3).blk t).view.set := by
  have hi0 : (i 0).val < 40000 := (i 0).isLt
  have hi1 : (i 1).val < 128 := (i 1).isLt
  have hT : (i 0).val / 4000 < cfg0.N := by show (i 0).val / 4000 < 10; omega
  obtain ⟨-, -, -, -, -, -, e0, e1, -⟩ := idx0 ⟨(i 0).val / 4000, hT⟩
  have e0' : win0_3.index ⟨(i 0).val / 4000, hT⟩ (0 : Fin 2) = (i 0).val / 4000 := e0
  refine ⟨⟨(i 0).val / 4000, hT⟩, flush0_3 _, ?_⟩
  rw [mem_blk0_3]
  intro a
  match a with
  | ⟨0, _⟩ =>
    show win0_3.index ⟨(i 0).val / 4000, hT⟩ (0 : Fin 2) * 4000 ≤ (i 0).val
      ∧ (i 0).val < win0_3.index ⟨(i 0).val / 4000, hT⟩ (0 : Fin 2) * 4000 + 4000
    omega
  | ⟨1, _⟩ =>
    show win0_3.index ⟨(i 0).val / 4000, hT⟩ (1 : Fin 2) * 128 ≤ (i 1).val
      ∧ (i 1).val < win0_3.index ⟨(i 0).val / 4000, hT⟩ (1 : Fin 2) * 128 + 128
    omega

/-- The same for the second result. -/
theorem tiled0_4 (i : S40000x128.Idx) :
    ∃ t : Fin cfg0.N, (cfg0.win 4).flush t = true ∧ i ∈ ((cfg0.win 4).blk t).view.set := by
  have hi0 : (i 0).val < 40000 := (i 0).isLt
  have hi1 : (i 1).val < 128 := (i 1).isLt
  have hT : (i 0).val / 4000 < cfg0.N := by show (i 0).val / 4000 < 10; omega
  obtain ⟨-, -, -, -, -, -, -, -, e0, e1⟩ := idx0 ⟨(i 0).val / 4000, hT⟩
  have e0' : win0_4.index ⟨(i 0).val / 4000, hT⟩ (0 : Fin 2) = (i 0).val / 4000 := e0
  refine ⟨⟨(i 0).val / 4000, hT⟩, flush0_4 _, ?_⟩
  rw [mem_blk0_4]
  intro a
  match a with
  | ⟨0, _⟩ =>
    show win0_4.index ⟨(i 0).val / 4000, hT⟩ (0 : Fin 2) * 4000 ≤ (i 0).val
      ∧ (i 0).val < win0_4.index ⟨(i 0).val / 4000, hT⟩ (0 : Fin 2) * 4000 + 4000
    omega
  | ⟨1, _⟩ =>
    show win0_4.index ⟨(i 0).val / 4000, hT⟩ (1 : Fin 2) * 128 ≤ (i 1).val
      ∧ (i 1).val < win0_4.index ⟨(i 0).val / 4000, hT⟩ (1 : Fin 2) * 128 + 128
    omega

/-- After the region the first result holds the table projected by the first weights, -/
theorem arr0_3 (c : Dev nD) :
    (dat0 (F := Ideal) V c).arrAt 3 cfg0.N = HeteroConv.proj (V c main_arg0) (V c main_arg14) :=
  (dat0 (F := Ideal) V c).arrAt_eq_of_cover 3 (HeteroConv.proj (V c main_arg0) (V c main_arg14)) (fun t _ => flushed0_3 V c t) tiled0_3

/-- and the second result the table projected by the second weights. -/
theorem arr0_4 (c : Dev nD) :
    (dat0 (F := Ideal) V c).arrAt 4 cfg0.N = HeteroConv.proj (V c main_arg0) (V c main_arg18) :=
  (dat0 (F := Ideal) V c).arrAt_eq_of_cover 4 (HeteroConv.proj (V c main_arg0) (V c main_arg18)) (fun t _ => flushed0_4 V c t) tiled0_4

/-! ## The second projection region -/

/-- Its index maps over the ten grid points: the table's and the results' blocks sit at block row t, the weights'
    at the one block there is. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The table's block at point t holds the table's rows 4000·t + p. -/
theorem rows1 (c : Dev nD) (t : Fin cfg1.N) (p : Fin 4000) (k : Fin 128) (r : Fin 40000) (hr : r.val = t.val * 4000 + p.val) :
    (iblk1 V c 0 t : Vec Ideal S4000x128 .f32) (ix2 p k) = (V c main_arg1 : S40000x128.Idx → EReal) (ix2 r k) := by
  obtain ⟨e0, e1, -⟩ := idx1 t
  unfold iblk1
  rw [View.read_apply]
  show V c main_arg1 _ = V c main_arg1 _
  congr 1
  funext a; apply Fin.ext
  match a with
  | ⟨0, _⟩ => show win1_0.index t (0 : Fin 2) * 4000 + 1 * p.val = r.val; omega
  | ⟨1, _⟩ => show win1_0.index t (1 : Fin 2) * 128 + 1 * k.val = k.val; omega

/-- The first weight window's block is the whole weight matrix, at every point. -/
theorem weights1_1 (c : Dev nD) (t : Fin cfg1.N) (k q : Fin 128) :
    (iblk1 V c 1 t : Vec Ideal S128x128 .f32) (ix2 k q) = (V c main_arg16 : S128x128.Idx → EReal) (ix2 k q) := by
  obtain ⟨-, -, e0, e1, -⟩ := idx1 t
  unfold iblk1
  rw [View.read_apply]
  show V c main_arg16 _ = V c main_arg16 _
  congr 1
  funext a; apply Fin.ext
  match a with
  | ⟨0, _⟩ => show win1_1.index t (0 : Fin 2) * 128 + 1 * k.val = k.val; omega
  | ⟨1, _⟩ => show win1_1.index t (1 : Fin 2) * 128 + 1 * q.val = q.val; omega

/-- So is the second weight window's. -/
theorem weights1_2 (c : Dev nD) (t : Fin cfg1.N) (k q : Fin 128) :
    (iblk1 V c 2 t : Vec Ideal S128x128 .f32) (ix2 k q) = (V c main_arg20 : S128x128.Idx → EReal) (ix2 k q) := by
  obtain ⟨-, -, -, -, e0, e1, -⟩ := idx1 t
  unfold iblk1
  rw [View.read_apply]
  show V c main_arg20 _ = V c main_arg20 _
  congr 1
  funext a; apply Fin.ext
  match a with
  | ⟨0, _⟩ => show win1_2.index t (0 : Fin 2) * 128 + 1 * k.val = k.val; omega
  | ⟨1, _⟩ => show win1_2.index t (1 : Fin 2) * 128 + 1 * q.val = q.val; omega

/-- What point t writes back through the first result window is block t of the table projected by the first weights. -/
theorem flushed1_3 (c : Dev nD) (t : Fin cfg1.N) :
    (dat1 (F := Ideal) V c).flushed 3 t
      = ((cfg1.win 3).blk t).view.read (Elt Ideal) (HeteroConv.proj (V c main_arg1) (V c main_arg16)) := by
  show (cfg1.win 3).cut (grid1.coords t) ((dat1 V c).after 3 t) = _
  rw [after1_3]
  unfold out1_3
  rw [View.canon_unit_zero hz]
  simp only [View.ld_unit_zero (S := S4000x128) hz, View.ld_unit_zero (S := S128x128) hz]
  obtain ⟨-, -, -, -, -, -, e0, e1, -⟩ := idx1 t
  funext j
  unfold k1_pay2 k1_pay1
  refine prod_block (iblk1 V c 0 t) (iblk1 V c 1 t) (V c main_arg1) (V c main_arg16) t.val
    (fun p k r h => rows1 V c t p k r h) (fun k q => weights1_1 V c t k q) j (((cfg1.win 3).blk t).view.emb j) ?_ ?_
  · show win1_3.index t (0 : Fin 2) * 4000 + 1 * (j 0).val = t.val * 4000 + (j 0).val; omega
  · show win1_3.index t (1 : Fin 2) * 128 + 1 * (j 1).val = (j 1).val; omega

/-- And through the second result window, block t of the table projected by the second weights. -/
theorem flushed1_4 (c : Dev nD) (t : Fin cfg1.N) :
    (dat1 (F := Ideal) V c).flushed 4 t
      = ((cfg1.win 4).blk t).view.read (Elt Ideal) (HeteroConv.proj (V c main_arg1) (V c main_arg20)) := by
  show (cfg1.win 4).cut (grid1.coords t) ((dat1 V c).after 4 t) = _
  rw [after1_4]
  unfold out1_4
  rw [View.canon_unit_zero hz]
  simp only [View.ld_unit_zero (S := S4000x128) hz, View.ld_unit_zero (S := S128x128) hz]
  obtain ⟨-, -, -, -, -, -, -, -, e0, e1⟩ := idx1 t
  funext j
  unfold k1_pay3 k1_pay1
  refine prod_block (iblk1 V c 0 t) (iblk1 V c 2 t) (V c main_arg1) (V c main_arg20) t.val
    (fun p k r h => rows1 V c t p k r h) (fun k q => weights1_2 V c t k q) j (((cfg1.win 4).blk t).view.emb j) ?_ ?_
  · show win1_4.index t (0 : Fin 2) * 4000 + 1 * (j 0).val = t.val * 4000 + (j 0).val; omega
  · show win1_4.index t (1 : Fin 2) * 128 + 1 * (j 1).val = (j 1).val; omega

/-- An entry of the first result lies in point t's block iff each coordinate lies in the block's range. -/
theorem mem_blk1_3 (t : Fin cfg1.N) (i : S40000x128.Idx) :
    i ∈ ((cfg1.win 3).blk t).view.set ↔ ∀ a : Fin 2, win1_3.index t a * S4000x128.size a ≤ (i a).val
      ∧ (i a).val < win1_3.index t a * S4000x128.size a + S4000x128.size a := by
  show i ∈ ((View.whole main_v1_0).slice (win1_3.rect t)).set ↔ _
  rw [View.set_slice_whole, Rect.mem_set_unit]
  exact Iff.rfl

/-- The same for the second result. -/
theorem mem_blk1_4 (t : Fin cfg1.N) (i : S40000x128.Idx) :
    i ∈ ((cfg1.win 4).blk t).view.set ↔ ∀ a : Fin 2, win1_4.index t a * S4000x128.size a ≤ (i a).val
      ∧ (i a).val < win1_4.index t a * S4000x128.size a + S4000x128.size a := by
  show i ∈ ((View.whole main_v1_1).slice (win1_4.rect t)).set ↔ _
  rw [View.set_slice_whole, Rect.mem_set_unit]
  exact Iff.rfl

/-- Row r of the first result lies in the block of point r / 4000: the ten blocks tile the table. -/
theorem tiled1_3 (i : S40000x128.Idx) :
    ∃ t : Fin cfg1.N, (cfg1.win 3).flush t = true ∧ i ∈ ((cfg1.win 3).blk t).view.set := by
  have hi0 : (i 0).val < 40000 := (i 0).isLt
  have hi1 : (i 1).val < 128 := (i 1).isLt
  have hT : (i 0).val / 4000 < cfg1.N := by show (i 0).val / 4000 < 10; omega
  obtain ⟨-, -, -, -, -, -, e0, e1, -⟩ := idx1 ⟨(i 0).val / 4000, hT⟩
  have e0' : win1_3.index ⟨(i 0).val / 4000, hT⟩ (0 : Fin 2) = (i 0).val / 4000 := e0
  refine ⟨⟨(i 0).val / 4000, hT⟩, flush1_3 _, ?_⟩
  rw [mem_blk1_3]
  intro a
  match a with
  | ⟨0, _⟩ =>
    show win1_3.index ⟨(i 0).val / 4000, hT⟩ (0 : Fin 2) * 4000 ≤ (i 0).val
      ∧ (i 0).val < win1_3.index ⟨(i 0).val / 4000, hT⟩ (0 : Fin 2) * 4000 + 4000
    omega
  | ⟨1, _⟩ =>
    show win1_3.index ⟨(i 0).val / 4000, hT⟩ (1 : Fin 2) * 128 ≤ (i 1).val
      ∧ (i 1).val < win1_3.index ⟨(i 0).val / 4000, hT⟩ (1 : Fin 2) * 128 + 128
    omega

/-- The same for the second result. -/
theorem tiled1_4 (i : S40000x128.Idx) :
    ∃ t : Fin cfg1.N, (cfg1.win 4).flush t = true ∧ i ∈ ((cfg1.win 4).blk t).view.set := by
  have hi0 : (i 0).val < 40000 := (i 0).isLt
  have hi1 : (i 1).val < 128 := (i 1).isLt
  have hT : (i 0).val / 4000 < cfg1.N := by show (i 0).val / 4000 < 10; omega
  obtain ⟨-, -, -, -, -, -, -, -, e0, e1⟩ := idx1 ⟨(i 0).val / 4000, hT⟩
  have e0' : win1_4.index ⟨(i 0).val / 4000, hT⟩ (0 : Fin 2) = (i 0).val / 4000 := e0
  refine ⟨⟨(i 0).val / 4000, hT⟩, flush1_4 _, ?_⟩
  rw [mem_blk1_4]
  intro a
  match a with
  | ⟨0, _⟩ =>
    show win1_4.index ⟨(i 0).val / 4000, hT⟩ (0 : Fin 2) * 4000 ≤ (i 0).val
      ∧ (i 0).val < win1_4.index ⟨(i 0).val / 4000, hT⟩ (0 : Fin 2) * 4000 + 4000
    omega
  | ⟨1, _⟩ =>
    show win1_4.index ⟨(i 0).val / 4000, hT⟩ (1 : Fin 2) * 128 ≤ (i 1).val
      ∧ (i 1).val < win1_4.index ⟨(i 0).val / 4000, hT⟩ (1 : Fin 2) * 128 + 128
    omega

/-- After the region the first result holds the table projected by the first weights, -/
theorem arr1_3 (c : Dev nD) :
    (dat1 (F := Ideal) V c).arrAt 3 cfg1.N = HeteroConv.proj (V c main_arg1) (V c main_arg16) :=
  (dat1 (F := Ideal) V c).arrAt_eq_of_cover 3 (HeteroConv.proj (V c main_arg1) (V c main_arg16)) (fun t _ => flushed1_3 V c t) tiled1_3

/-- and the second result the table projected by the second weights. -/
theorem arr1_4 (c : Dev nD) :
    (dat1 (F := Ideal) V c).arrAt 4 cfg1.N = HeteroConv.proj (V c main_arg1) (V c main_arg20) :=
  (dat1 (F := Ideal) V c).arrAt_eq_of_cover 4 (HeteroConv.proj (V c main_arg1) (V c main_arg20)) (fun t _ => flushed1_4 V c t) tiled1_4

end Cert.KernelIdeal.ProjRegions

end
-- ==== Proof.CombineRegion.lean ====
/-
  The combining region as a whole array.

  The region reads four aggregate tables (40000 rows of 128 features each), block of 2000 rows by block, and four
  biases held as one-row arrays, and writes a result two tables deep. At (p, q) of a block it forms, for the first two
  aggregates a, b with biases ba, bb, one half of max(a + ba, 0) + max(b + bb, 0) — the bias row broadcast down the rows
  — and stores it as the first slab of the result block; the same of the last two aggregates is the second slab (there
  the one half is multiplied in after the sum: the same value). The block of grid point t holds the rows
  2000·t … 2000·t + 1999 of each aggregate, the bias blocks are the whole rows, and the result block is written back to
  the same rows of both tables; the twenty blocks tile the result (row r lies in the block of point r / 2000). Hence
  after the region the result is the stacked mean of the relations' contributions, whatever the memory held when the
  region was entered.
-/
import proofs.«100988_j73976516706654_2_alg».proof.Proof.Gen.KernelIdeal.Frame
import proofs.«100988_j73976516706654_2_alg».proof.Proof.Spec
import Idealize.ShloMosaic.Lib.Pipeline.Value
import Idealize.ShloMosaic.Lib.ValueIdx
import Idealize.ShloMosaic.Lib.ValueLayout

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.CombineRegion

open Cert.KernelIdeal Cert.KernelIdeal.Gen

/-- One half of the sum of two relations' max(aggregate + bias, 0) at (p, q) of a block, the bias a one-row array:
    the value both slabs of the result block carry. -/
def blockMean (a b : Vec Ideal S2000x128 .f32) (ba bb : Vec Ideal S1x128 .f32) (p : Fin 2000) (q : Fin 128) : EReal :=
  Ideal.ofBits .f32 0x3F000000#32
    * (max (a (ix2 p q) + ba (ix2 (0 : Fin 1) q)) (Ideal.ofBits .f32 0x00000000#32)
      + max (b (ix2 p q) + bb (ix2 (0 : Fin 1) q)) (Ideal.ofBits .f32 0x00000000#32))

/-- The first slab's value at (p, q): casts to the same shape are the identity, the bias row is broadcast down the
    rows, and the rest is pointwise. -/
theorem slab0_entry (a b : Vec Ideal S2000x128 .f32) (ba bb : Vec Ideal S1x128 .f32) (u : Fin 1) (p : Fin 2000) (q : Fin 128) :
    k2_pay1 (F := Ideal) (k2_pay3 a ba b bb) (ix3 u p q) = blockMean a b ba bb p q := by
  unfold k2_pay1
  refine (shapeCast_ab_1ab_apply _ shapeCasts_S2000x128_S1x2000x128 u p q).trans ?_
  unfold k2_pay3 blockMean
  show Ideal.ofBits .f32 0x3F000000#32
    * (max (shapeCast S2000x128 a shapeCasts_S2000x128_S2000x128 (ix2 p q)
          + broadcastTo S2000x128 (shapeCast S1x128 ba shapeCasts_S1x128_S1x128) broadcasts_S1x128_S2000x128 (ix2 p q)) (Ideal.ofBits .f32 0x00000000#32)
      + max (shapeCast S2000x128 b shapeCasts_S2000x128_S2000x128 (ix2 p q)
          + broadcastTo S2000x128 (shapeCast S1x128 bb shapeCasts_S1x128_S1x128) broadcasts_S1x128_S2000x128 (ix2 p q)) (Ideal.ofBits .f32 0x00000000#32)) = _
  rw [shapeCast_self a, shapeCast_self b, shapeCast_self ba, shapeCast_self bb,
    broadcastTo_1b_ab_apply ba, broadcastTo_1b_ab_apply bb]

/-- The second slab's value at (p, q): the same, the one half multiplied in after the sum. -/
theorem slab1_entry (a b : Vec Ideal S2000x128 .f32) (ba bb : Vec Ideal S1x128 .f32) (u : Fin 1) (p : Fin 2000) (q : Fin 128) :
    k2_pay2 (F := Ideal) (k2_pay4 a ba b bb) (k2_pay5 (F := Ideal)) (ix3 u p q) = blockMean a b ba bb p q := by
  unfold k2_pay2
  refine (shapeCast_ab_1ab_apply _ shapeCasts_S2000x128_S1x2000x128 u p q).trans ?_
  unfold k2_pay4 k2_pay5 blockMean
  show Ideal.ofBits .f32 0x3F000000#32
    * (max (shapeCast S2000x128 a shapeCasts_S2000x128_S2000x128 (ix2 p q)
          + broadcastTo S2000x128 (shapeCast S1x128 ba shapeCasts_S1x128_S1x128) broadcasts_S1x128_S2000x128 (ix2 p q)) (Ideal.ofBits .f32 0x00000000#32)
      + max (shapeCast S2000x128 b shapeCasts_S2000x128_S2000x128 (ix2 p q)
          + broadcastTo S2000x128 (shapeCast S1x128 bb shapeCasts_S1x128_S1x128) broadcasts_S1x128_S2000x128 (ix2 p q)) (Ideal.ofBits .f32 0x00000000#32)) = _
  rw [shapeCast_self a, shapeCast_self b, shapeCast_self ba, shapeCast_self bb,
    broadcastTo_1b_ab_apply ba, broadcastTo_1b_ab_apply bb]

/-- The zero offsets of a whole-buffer access. -/
theorem hz : (![0, 0] : Fin 2 → Nat) = fun _ => 0 := funext fun a => by fin_cases a <;> rfl

/-- The result block is two slabs, each stored whole: if the first slab's values are G at (0, p, q) and the second's
    G at (1, p, q), the block is G. -/
theorem stacked_block (x0 x1 x2 x3 : Vec Ideal S2000x128 .f32) (x4 x5 x6 x7 : Vec Ideal S1x128 .f32)
    (G : S2x2000x128.Idx → EReal)
    (h0 : ∀ (p : Fin 2000) (q : Fin 128), blockMean x0 x1 x4 x5 p q = G (ix3 (0 : Fin 2) p q))
    (h1 : ∀ (p : Fin 2000) (q : Fin 128), blockMean x2 x3 x6 x7 p q = G (ix3 (1 : Fin 2) p q)) :
    out2_8 (F := Ideal) x0 x1 x2 x3 x4 x5 x6 x7 = G := by
  funext y
  unfold out2_8
  simp only [View.ld_unit_zero (S := S2000x128) hz, View.ld_unit_zero (S := S1x128) hz]
  refine View.canon_apply_of_pieces (Val := Elt Ideal) (e := .f32) G _ ?_ y (cover2_8 _ _ y)
  intro pc hpc x
  rcases List.mem_cons.mp hpc with rfl | hpc
  · obtain ⟨u, p, q, rfl⟩ : ∃ (u : Fin 1) (p : Fin 2000) (q : Fin 128), (x : S1x2000x128.Idx) = ix3 u p q := ⟨x 0, x 1, x 2, eq_ix3 x⟩
    show k2_pay2 (F := Ideal) (k2_pay4 x2 x6 x3 x7) (k2_pay5 (F := Ideal)) (ix3 u p q) = G (r2_3.emb (ix3 u p q))
    rw [slab1_entry, h1]
    congr 1
    funext a; apply Fin.ext
    match a with
    | ⟨0, _⟩ => show (1 : Nat) = 1 + 1 * u.val; omega
    | ⟨1, _⟩ => show p.val = 0 + 1 * p.val; omega
    | ⟨2, _⟩ => show q.val = 0 + 1 * q.val; omega
  · rcases List.mem_cons.mp hpc with rfl | hpc
    · obtain ⟨u, p, q, rfl⟩ : ∃ (u : Fin 1) (p : Fin 2000) (q : Fin 128), (x : S1x2000x128.Idx) = ix3 u p q := ⟨x 0, x 1, x 2, eq_ix3 x⟩
      show k2_pay1 (F := Ideal) (k2_pay3 x0 x4 x1 x5) (ix3 u p q) = G (r2_2.emb (ix3 u p q))
      rw [slab0_entry, h0]
      congr 1
      funext a; apply Fin.ext
      match a with
      | ⟨0, _⟩ => show (0 : Nat) = 0 + 1 * u.val; omega
      | ⟨1, _⟩ => show p.val = 0 + 1 * p.val; omega
      | ⟨2, _⟩ => show q.val = 0 + 1 * q.val; omega
    · exact absurd hpc List.not_mem_nil

/-- A block whose aggregates are rows 2000·t + p of two tables A, B and whose biases are the rows BA, BB carries, at
    (p, q), the mean of the two relations' contributions at row 2000·t + p of the tables. -/
theorem blockMean_eq (a b : Vec Ideal S2000x128 .f32) (ba bb : Vec Ideal S1x128 .f32)
    (A B : S40000x128.Idx → EReal) (BA BB : S1x128.Idx → EReal) (t : Nat)
    (ha : ∀ (p : Fin 2000) (k : Fin 128) (r : Fin 40000), r.val = t * 2000 + p.val → a (ix2 p k) = A (ix2 r k))
    (hb : ∀ (p : Fin 2000) (k : Fin 128) (r : Fin 40000), r.val = t * 2000 + p.val → b (ix2 p k) = B (ix2 r k))
    (hba : ∀ q : Fin 128, ba (ix2 (0 : Fin 1) q) = BA (ix2 (0 : Fin 1) q))
    (hbb : ∀ q : Fin 128, bb (ix2 (0 : Fin 1) q) = BB (ix2 (0 : Fin 1) q))
    (p : Fin 2000) (q : Fin 128) (r : Fin 40000) (hr : r.val = t * 2000 + p.val) :
    blockMean a b ba bb p q
      = HeteroConv.mean2 A B (fun i => BA (ix2 0 (i 0))) (fun i => BB (ix2 0 (i 0))) r q := by
  show _ = Ideal.ofBits .f32 0x3F000000#32
    * (max (A (ix2 r q) + BA (ix2 (0 : Fin 1) q)) (Ideal.ofBits .f32 0x00000000#32)
      + max (B (ix2 r q) + BB (ix2 (0 : Fin 1) q)) (Ideal.ofBits .f32 0x00000000#32))
  unfold blockMean
  rw [ha p q r hr, hb p q r hr, hba q, hbb q]

variable (V : (c : Dev nD) → (b : Ref sig .tc) → Buf (Elt Ideal) ((c : Thread nD τ).loc b))

/-! ## The combining region -/

/-- Its index maps over the twenty grid points: the four aggregates' blocks sit at block row t, -/
theorem idx2_tables : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- the four biases' at the one block there is, -/
theorem idx2_biases : ∀ t : Fin cfg2.N, win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- and the result's block, both tables deep, at block row t of each table. -/
theorem idx2_out : ∀ t : Fin cfg2.N, win2_8.index t (0 : Fin 3) = 0 ∧ win2_8.index t (1 : Fin 3) = t.val
    ∧ win2_8.index t (2 : Fin 3) = 0 :=
  (by decide +kernel : ∀ t : Fin grid2.N, _)

/-- The first aggregate's block at point t holds its rows 2000·t + p. -/
theorem rows2_0 (c : Dev nD) (t : Fin cfg2.N) (p : Fin 2000) (k : Fin 128) (r : Fin 40000) (hr : r.val = t.val * 2000 + p.val) :
    (iblk2 V c 0 t : Vec Ideal S2000x128 .f32) (ix2 p k) = (V c main_v109 : S40000x128.Idx → EReal) (ix2 r k) := by
  obtain ⟨e0, e1, -, -, -, -, -, -⟩ := idx2_tables t
  unfold iblk2
  rw [View.read_apply]
  show V c main_v109 _ = V c main_v109 _
  congr 1
  funext a; apply Fin.ext
  match a with
  | ⟨0, _⟩ => show win2_0.index t (0 : Fin 2) * 2000 + 1 * p.val = r.val; omega
  | ⟨1, _⟩ => show win2_0.index t (1 : Fin 2) * 128 + 1 * k.val = k.val; omega

/-- The second aggregate's block at point t holds its rows 2000·t + p. -/
theorem rows2_1 (c : Dev nD) (t : Fin cfg2.N) (p : Fin 2000) (k : Fin 128) (r : Fin 40000) (hr : r.val = t.val * 2000 + p.val) :
    (iblk2 V c 1 t : Vec Ideal S2000x128 .f32) (ix2 p k) = (V c main_v145 : S40000x128.Idx → EReal) (ix2 r k) := by
  obtain ⟨-, -, e0, e1, -, -, -, -⟩ := idx2_tables t
  unfold iblk2
  rw [View.read_apply]
  show V c main_v145 _ = V c main_v145 _
  congr 1
  funext a; apply Fin.ext
  match a with
  | ⟨0, _⟩ => show win2_1.index t (0 : Fin 2) * 2000 + 1 * p.val = r.val; omega
  | ⟨1, _⟩ => show win2_1.index t (1 : Fin 2) * 128 + 1 * k.val = k.val; omega

/-- The third aggregate's block at point t holds its rows 2000·t + p. -/
theorem rows2_2 (c : Dev nD) (t : Fin cfg2.N) (p : Fin 2000) (k : Fin 128) (r : Fin 40000) (hr : r.val = t.val * 2000 + p.val) :
    (iblk2 V c 2 t : Vec Ideal S2000x128 .f32) (ix2 p k) = (V c main_v37 : S40000x128.Idx → EReal) (ix2 r k) := by
  obtain ⟨-, -, -, -, e0, e1, -, -⟩ := idx2_tables t
  unfold iblk2
  rw [View.read_apply]
  show V c main_v37 _ = V c main_v37 _
  congr 1
  funext a; apply Fin.ext
  match a with
  | ⟨0, _⟩ => show win2_2.index t (0 : Fin 2) * 2000 + 1 * p.val = r.val; omega
  | ⟨1, _⟩ => show win2_2.index t (1 : Fin 2) * 128 + 1 * k.val = k.val; omega

/-- The fourth aggregate's block at point t holds its rows 2000·t + p. -/
theorem rows2_3 (c : Dev nD) (t : Fin cfg2.N) (p : Fin 2000) (k : Fin 128) (r : Fin 40000) (hr : r.val = t.val * 2000 + p.val) :
    (iblk2 V c 3 t : Vec Ideal S2000x128 .f32) (ix2 p k) = (V c main_v73 : S40000x128.Idx → EReal) (ix2 r k) := by
  obtain ⟨-, -, -, -, -, -, e0, e1⟩ := idx2_tables t
  unfold iblk2
  rw [View.read_apply]
  show V c main_v73 _ = V c main_v73 _
  congr 1
  funext a; apply Fin.ext
  match a with
  | ⟨0, _⟩ => show win2_3.index t (0 : Fin 2) * 2000 + 1 * p.val = r.val; omega
  | ⟨1, _⟩ => show win2_3.index t (1 : Fin 2) * 128 + 1 * k.val = k.val; omega

/-- The first bias window's block is the whole one-row array, at every point. -/
theorem bias2_4 (c : Dev nD) (t : Fin cfg2.N) (q : Fin 128) :
    (iblk2 V c 4 t : Vec Ideal S1x128 .f32) (ix2 (0 : Fin 1) q) = (V c main_v146 : S1x128.Idx → EReal) (ix2 (0 : Fin 1) q) := by
  obtain ⟨e0, e1, -, -, -, -, -, -⟩ := idx2_biases t
  unfold iblk2
  rw [View.read_apply]
  show V c main_v146 _ = V c main_v146 _
  congr 1
  funext a; apply Fin.ext
  match a with
  | ⟨0, _⟩ => show win2_4.index t (0 : Fin 2) * 1 + 1 * 0 = 0; omega
  | ⟨1, _⟩ => show win2_4.index t (1 : Fin 2) * 128 + 1 * q.val = q.val; omega

/-- The second bias window's block is the whole one-row array, at every point. -/
theorem bias2_5 (c : Dev nD) (t : Fin cfg2.N) (q : Fin 128) :
    (iblk2 V c 5 t : Vec Ideal S1x128 .f32) (ix2 (0 : Fin 1) q) = (V c main_v147 : S1x128.Idx → EReal) (ix2 (0 : Fin 1) q) := by
  obtain ⟨-, -, e0, e1, -, -, -, -⟩ := idx2_biases t
  unfold iblk2
  rw [View.read_apply]
  show V c main_v147 _ = V c main_v147 _
  congr 1
  funext a; apply Fin.ext
  match a with
  | ⟨0, _⟩ => show win2_5.index t (0 : Fin 2) * 1 + 1 * 0 = 0; omega
  | ⟨1, _⟩ => show win2_5.index t (1 : Fin 2) * 128 + 1 * q.val = q.val; omega

/-- The third bias window's block is the whole one-row array, at every point. -/
theorem bias2_6 (c : Dev nD) (t : Fin cfg2.N) (q : Fin 128) :
    (iblk2 V c 6 t : Vec Ideal S1x128 .f32) (ix2 (0 : Fin 1) q) = (V c main_v148 : S1x128.Idx → EReal) (ix2 (0 : Fin 1) q) := by
  obtain ⟨-, -, -, -, e0, e1, -, -⟩ := idx2_biases t
  unfold iblk2
  rw [View.read_apply]
  show V c main_v148 _ = V c main_v148 _
  congr 1
  funext a; apply Fin.ext
  match a with
  | ⟨0, _⟩ => show win2_6.index t (0 : Fin 2) * 1 + 1 * 0 = 0; omega
  | ⟨1, _⟩ => show win2_6.index t (1 : Fin 2) * 128 + 1 * q.val = q.val; omega

/-- The fourth bias window's block is the whole one-row array, at every point. -/
theorem bias2_7 (c : Dev nD) (t : Fin cfg2.N) (q : Fin 128) :
    (iblk2 V c 7 t : Vec Ideal S1x128 .f32) (ix2 (0 : Fin 1) q) = (V c main_v149 : S1x128.Idx → EReal) (ix2 (0 : Fin 1) q) := by
  obtain ⟨-, -, -, -, -, -, e0, e1⟩ := idx2_biases t
  unfold iblk2
  rw [View.read_apply]
  show V c main_v149 _ = V c main_v149 _
  congr 1
  funext a; apply Fin.ext
  match a with
  | ⟨0, _⟩ => show win2_7.index t (0 : Fin 2) * 1 + 1 * 0 = 0; omega
  | ⟨1, _⟩ => show win2_7.index t (1 : Fin 2) * 128 + 1 * q.val = q.val; omega

/-- What point t writes back is block t of the stacked result of the region's entry contents. -/
theorem flushed2_8 (c : Dev nD) (t : Fin cfg2.N) :
    (dat2 (F := Ideal) V c).flushed 8 t
      = ((cfg2.win 8).blk t).view.read (Elt Ideal) (HeteroConv.out (V c main_v109) (V c main_v145) (V c main_v37) (V c main_v73)
        (fun i => V c main_v146 (ix2 0 (i 0))) (fun i => V c main_v147 (ix2 0 (i 0)))
        (fun i => V c main_v148 (ix2 0 (i 0))) (fun i => V c main_v149 (ix2 0 (i 0)))) := by
  show (cfg2.win 8).cut (grid2.coords t) ((dat2 V c).after 8 t) = _
  rw [after2_8]
  obtain ⟨e0, e1, e2⟩ := idx2_out t
  have ht : t.val < 20 := t.isLt
  have hrow : ∀ p : Fin 2000, t.val * 2000 + p.val < 40000 := fun p => by omega
  have hemb : ∀ (s : Fin 2) (p : Fin 2000) (q : Fin 128),
      ((cfg2.win 8).blk t).view.emb (ix3 s p q) = ix3 s (⟨t.val * 2000 + p.val, hrow p⟩ : Fin 40000) q := fun s p q => by
    funext a; apply Fin.ext
    match a with
    | ⟨0, _⟩ => show win2_8.index t (0 : Fin 3) * 2 + 1 * s.val = s.val; omega
    | ⟨1, _⟩ => show win2_8.index t (1 : Fin 3) * 2000 + 1 * p.val = t.val * 2000 + p.val; omega
    | ⟨2, _⟩ => show win2_8.index t (2 : Fin 3) * 128 + 1 * q.val = q.val; omega
  refine stacked_block (iblk2 V c 0 t) (iblk2 V c 1 t) (iblk2 V c 2 t) (iblk2 V c 3 t) (iblk2 V c 4 t) (iblk2 V c 5 t)
    (iblk2 V c 6 t) (iblk2 V c 7 t) _ (fun p q => ?_) (fun p q => ?_)
  · show _ = (HeteroConv.out (V c main_v109) (V c main_v145) (V c main_v37) (V c main_v73)
        (fun i => V c main_v146 (ix2 0 (i 0))) (fun i => V c main_v147 (ix2 0 (i 0)))
        (fun i => V c main_v148 (ix2 0 (i 0))) (fun i => V c main_v149 (ix2 0 (i 0)))) (((cfg2.win 8).blk t).view.emb (ix3 (0 : Fin 2) p q))
    rw [hemb, HeteroConv.out_zero]
    exact blockMean_eq (iblk2 V c 0 t) (iblk2 V c 1 t) (iblk2 V c 4 t) (iblk2 V c 5 t) (V c main_v109) (V c main_v145)
      (V c main_v146) (V c main_v147) t.val (rows2_0 V c t) (rows2_1 V c t) (bias2_4 V c t) (bias2_5 V c t) p q _ rfl
  · show _ = (HeteroConv.out (V c main_v109) (V c main_v145) (V c main_v37) (V c main_v73)
        (fun i => V c main_v146 (ix2 0 (i 0))) (fun i => V c main_v147 (ix2 0 (i 0)))
        (fun i => V c main_v148 (ix2 0 (i 0))) (fun i => V c main_v149 (ix2 0 (i 0)))) (((cfg2.win 8).blk t).view.emb (ix3 (1 : Fin 2) p q))
    rw [hemb, HeteroConv.out_one]
    exact blockMean_eq (iblk2 V c 2 t) (iblk2 V c 3 t) (iblk2 V c 6 t) (iblk2 V c 7 t) (V c main_v37) (V c main_v73)
      (V c main_v148) (V c main_v149) t.val (rows2_2 V c t) (rows2_3 V c t) (bias2_6 V c t) (bias2_7 V c t) p q _ rfl

/-- An entry of the result lies in point t's block iff each coordinate lies in the block's range. -/
theorem mem_blk2_8 (t : Fin cfg2.N) (i : S2x40000x128.Idx) :
    i ∈ ((cfg2.win 8).blk t).view.set ↔ ∀ a : Fin 3, win2_8.index t a * S2x2000x128.size a ≤ (i a).val
      ∧ (i a).val < win2_8.index t a * S2x2000x128.size a + S2x2000x128.size a := by
  show i ∈ ((View.whole main_v150).slice (win2_8.rect t)).set ↔ _
  rw [View.set_slice_whole, Rect.mem_set_unit]
  exact Iff.rfl

/-- Row r of either table of the result lies in the block of point r / 2000: the twenty blocks tile the result. -/
theorem tiled2_8 (i : S2x40000x128.Idx) :
    ∃ t : Fin cfg2.N, (cfg2.win 8).flush t = true ∧ i ∈ ((cfg2.win 8).blk t).view.set := by
  have hi0 : (i 0).val < 2 := (i 0).isLt
  have hi1 : (i 1).val < 40000 := (i 1).isLt
  have hi2 : (i 2).val < 128 := (i 2).isLt
  have hT : (i 1).val / 2000 < cfg2.N := by show (i 1).val / 2000 < 20; omega
  obtain ⟨e0, e1, e2⟩ := idx2_out ⟨(i 1).val / 2000, hT⟩
  have e1' : win2_8.index ⟨(i 1).val / 2000, hT⟩ (1 : Fin 3) = (i 1).val / 2000 := e1
  refine ⟨⟨(i 1).val / 2000, hT⟩, flush2_8 _, ?_⟩
  rw [mem_blk2_8]
  intro a
  match a with
  | ⟨0, _⟩ =>
    show win2_8.index ⟨(i 1).val / 2000, hT⟩ (0 : Fin 3) * 2 ≤ (i 0).val
      ∧ (i 0).val < win2_8.index ⟨(i 1).val / 2000, hT⟩ (0 : Fin 3) * 2 + 2
    omega
  | ⟨1, _⟩ =>
    show win2_8.index ⟨(i 1).val / 2000, hT⟩ (1 : Fin 3) * 2000 ≤ (i 1).val
      ∧ (i 1).val < win2_8.index ⟨(i 1).val / 2000, hT⟩ (1 : Fin 3) * 2000 + 2000
    omega
  | ⟨2, _⟩ =>
    show win2_8.index ⟨(i 1).val / 2000, hT⟩ (2 : Fin 3) * 128 ≤ (i 2).val
      ∧ (i 2).val < win2_8.index ⟨(i 1).val / 2000, hT⟩ (2 : Fin 3) * 128 + 128
    omega

/-- After the region the result holds the stacked means of the four relations' contributions, read off the
    aggregates and the one-row biases as the region found them. -/
theorem arr2_8 (c : Dev nD) :
    (dat2 (F := Ideal) V c).arrAt 8 cfg2.N
      = HeteroConv.out (V c main_v109) (V c main_v145) (V c main_v37) (V c main_v73)
        (fun i => V c main_v146 (ix2 0 (i 0))) (fun i => V c main_v147 (ix2 0 (i 0)))
        (fun i => V c main_v148 (ix2 0 (i 0))) (fun i => V c main_v149 (ix2 0 (i 0))) :=
  (dat2 (F := Ideal) V c).arrAt_eq_of_cover 8 _ (fun t _ => flushed2_8 V c t) tiled2_8

end Cert.KernelIdeal.CombineRegion

end
-- ==== Proof.RefProjection.lean ====
/-
  The four projections of the reference program.

  Each relation first multiplies its source node table x (40000 rows of 128 features) by its weight matrix W
  (128 by 128): the entry (r, j) of the product is the sum over k of x (r, k) · W (k, j). The reference computes it
  as a general contraction along the second axis of x and the first axis of W; read at an entry, that contraction is
  the same sum, its two operands read at (r, k) and (k, j).
-/
import proofs.«100988_j73976516706654_2_alg».proof.Proof.Gen.ReferenceIdeal.Read
import proofs.«100988_j73976516706654_2_alg».proof.Proof.Spec

noncomputable section

open scoped BigOperators

namespace Cert.ReferenceIdeal.RefValue

open Cert Cert.ReferenceIdeal Idealize.ShloMosaic Idealize.ShloMosaic.ValueIdx

/-- The first relation's projection: the contraction of the node table with the weight matrix along the feature
    axis is the table x · W. -/
theorem proj_v23 (x0 : (⟨S40000x128, .f32⟩ : BufTy).Contents (Elt Ideal)) (x14 : (⟨S128x128, .f32⟩ : BufTy).Contents (Elt Ideal)) :
    Read.val_main_v23 (F := Ideal) x0 x14 = HeteroConv.proj x0 x14 := by
  funext i
  obtain ⟨r, j, rfl⟩ : ∃ (r : Fin 40000) (j : Fin 128), i = ix2 r j := ⟨i 0, i 1, eq_ix2 i⟩
  rw [Read.val_main_v23_apply, HeteroConv.proj_apply]
  refine Finset.sum_congr rfl fun k _ => ?_
  -- the left operand is read at (r, k), the right operand at (k, j)
  have el : Read.lidx_main_v23 (ix2 r j) k = ix2 r k := funext fun a => by
    match a with
    | ⟨0, _⟩ => rfl
    | ⟨1, _⟩ => rfl
  have er : Read.ridx_main_v23 (ix2 r j) k = ix2 k j := funext fun a => by
    match a with
    | ⟨0, _⟩ => rfl
    | ⟨1, _⟩ => rfl
  rw [el, er]

/-- The second relation's projection: the contraction of the node table with the weight matrix along the feature
    axis is the table x · W. -/
theorem proj_v64 (x1 : (⟨S40000x128, .f32⟩ : BufTy).Contents (Elt Ideal)) (x20 : (⟨S128x128, .f32⟩ : BufTy).Contents (Elt Ideal)) :
    Read.val_main_v64 (F := Ideal) x1 x20 = HeteroConv.proj x1 x20 := by
  funext i
  obtain ⟨r, j, rfl⟩ : ∃ (r : Fin 40000) (j : Fin 128), i = ix2 r j := ⟨i 0, i 1, eq_ix2 i⟩
  rw [Read.val_main_v64_apply, HeteroConv.proj_apply]
  refine Finset.sum_congr rfl fun k _ => ?_
  -- the left operand is read at (r, k), the right operand at (k, j)
  have el : Read.lidx_main_v64 (ix2 r j) k = ix2 r k := funext fun a => by
    match a with
    | ⟨0, _⟩ => rfl
    | ⟨1, _⟩ => rfl
  have er : Read.ridx_main_v64 (ix2 r j) k = ix2 k j := funext fun a => by
    match a with
    | ⟨0, _⟩ => rfl
    | ⟨1, _⟩ => rfl
  rw [el, er]

/-- The third relation's projection: the contraction of the node table with the weight matrix along the feature
    axis is the table x · W. -/
theorem proj_v105 (x1 : (⟨S40000x128, .f32⟩ : BufTy).Contents (Elt Ideal)) (x16 : (⟨S128x128, .f32⟩ : BufTy).Contents (Elt Ideal)) :
    Read.val_main_v105 (F := Ideal) x1 x16 = HeteroConv.proj x1 x16 := by
  funext i
  obtain ⟨r, j, rfl⟩ : ∃ (r : Fin 40000) (j : Fin 128), i = ix2 r j := ⟨i 0, i 1, eq_ix2 i⟩
  rw [Read.val_main_v105_apply, HeteroConv.proj_apply]
  refine Finset.sum_congr rfl fun k _ => ?_
  -- the left operand is read at (r, k), the right operand at (k, j)
  have el : Read.lidx_main_v105 (ix2 r j) k = ix2 r k := funext fun a => by
    match a with
    | ⟨0, _⟩ => rfl
    | ⟨1, _⟩ => rfl
  have er : Read.ridx_main_v105 (ix2 r j) k = ix2 k j := funext fun a => by
    match a with
    | ⟨0, _⟩ => rfl
    | ⟨1, _⟩ => rfl
  rw [el, er]

/-- The fourth relation's projection: the contraction of the node table with the weight matrix along the feature
    axis is the table x · W. -/
theorem proj_v146 (x0 : (⟨S40000x128, .f32⟩ : BufTy).Contents (Elt Ideal)) (x18 : (⟨S128x128, .f32⟩ : BufTy).Contents (Elt Ideal)) :
    Read.val_main_v146 (F := Ideal) x0 x18 = HeteroConv.proj x0 x18 := by
  funext i
  obtain ⟨r, j, rfl⟩ : ∃ (r : Fin 40000) (j : Fin 128), i = ix2 r j := ⟨i 0, i 1, eq_ix2 i⟩
  rw [Read.val_main_v146_apply, HeteroConv.proj_apply]
  refine Finset.sum_congr rfl fun k _ => ?_
  -- the left operand is read at (r, k), the right operand at (k, j)
  have el : Read.lidx_main_v146 (ix2 r j) k = ix2 r k := funext fun a => by
    match a with
    | ⟨0, _⟩ => rfl
    | ⟨1, _⟩ => rfl
  have er : Read.ridx_main_v146 (ix2 r j) k = ix2 k j := funext fun a => by
    match a with
    | ⟨0, _⟩ => rfl
    | ⟨1, _⟩ => rfl
  rw [el, er]

end Cert.ReferenceIdeal.RefValue

end
-- ==== Proof.RefCombine.lean ====
/-
  The reference program's result from its four aggregates.

  After the four relations' aggregations (row scatter-adds, kept closed here) the reference adds each relation's bias
  along the feature axis, takes the maximum with zero, halves the sum of the two relations that arrive at the same
  destination table, and lays the two destination tables one after the other along a new leading axis. Read at an
  entry (b, r, j), that is: table b's half-sum of max(aggregate (r, j) + bias j, 0) over its two relations.
-/
import proofs.«100988_j73976516706654_2_alg».proof.Proof.Gen.ReferenceIdeal.Read
import proofs.«100988_j73976516706654_2_alg».proof.Proof.Spec

noncomputable section

namespace Cert.ReferenceIdeal.RefValue

open Cert Cert.ReferenceIdeal Cert.ReferenceIdeal.Gen Idealize.ShloMosaic Idealize.ShloMosaic.ValueIdx

/-- A table's entry (r, j), read through the table's copy with a leading axis of extent one. -/
theorem idx_lead (b : Fin 1) (r : Fin 40000) (j : Fin 128) : Read.idx_main_v170 (ix3 b r j) = ix2 r j :=
  funext fun a => by
    match a with
    | ⟨0, _⟩ => rfl
    | ⟨1, _⟩ => rfl

/-- A bias spread over the rows: the entry (r, j) reads the bias at j. -/
theorem idx_bias (r : Fin 40000) (j : Fin 128) : Read.idx_main_v119 (Read.idx_main_v120 (ix2 r j)) = ix1 j :=
  funext fun a => by
    match a with
    | ⟨0, _⟩ => rfl

/-- The first destination table: one half of the sum, over the third and fourth relations of the program, of
    max(aggregate + bias, 0). -/
theorem half_first (x0 x1 : (⟨S40000x128, .f32⟩ : BufTy).Contents (Elt Ideal)) (x5 x6 : (⟨S1000000, .i32⟩ : BufTy).Contents (Elt Ideal)) (x7 : (⟨S1000000, .f32⟩ : BufTy).Contents (Elt Ideal)) (x8 x9 : (⟨S1000000, .i32⟩ : BufTy).Contents (Elt Ideal)) (x10 : (⟨S1000000, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal))
    (r : Fin 40000) (j : Fin 128) :
    Read.val_main_v166 (F := Ideal) x0 x1 x5 x6 x7 x8 x9 x10 x16 x17 x18 x19 (ix2 r j)
      = HeteroConv.mean2 (Read.val_main_v118 x1 x5 x6 x7 x16) (Read.val_main_v159 x0 x8 x9 x10 x18) x17 x19 r j := by
  rw [Read.val_main_v166_apply, Read.val_main_v165_apply, Read.val_main_cst_34_apply, Read.val_main_v164_apply,
    Read.val_main_v122_apply, Read.val_main_v121_apply, Read.val_main_v120_apply, Read.val_main_v119_apply,
    Read.val_main_call2_v0_apply, Read.val_main_call2_cst_apply,
    Read.val_main_v163_apply, Read.val_main_v162_apply, Read.val_main_v161_apply, Read.val_main_v160_apply,
    Read.val_main_call3_v0_apply, Read.val_main_call3_cst_apply]
  have e₁ : Read.idx_main_v160 (Read.idx_main_v161 (ix2 r j)) = ix1 j := idx_bias r j
  rw [idx_bias, e₁]
  simp only [HeteroConv.mean2, HeteroConv.act, Ideal.mulf_def, Ideal.addf_def, Ideal.maximumf_def, Ideal.ofBits_def]

/-- The second destination table: the same over the first and second relations of the program. -/
theorem half_second (x0 x1 : (⟨S40000x128, .f32⟩ : BufTy).Contents (Elt Ideal)) (x2 x3 : (⟨S1000000, .i32⟩ : BufTy).Contents (Elt Ideal)) (x4 : (⟨S1000000, .f32⟩ : BufTy).Contents (Elt Ideal)) (x11 x12 : (⟨S1000000, .i32⟩ : BufTy).Contents (Elt Ideal)) (x13 : (⟨S1000000, .f32⟩ : BufTy).Contents (Elt Ideal)) (x14 : (⟨S128x128, .f32⟩ : BufTy).Contents (Elt Ideal)) (x15 : (⟨S128, .f32⟩ : BufTy).Contents (Elt Ideal)) (x20 : (⟨S128x128, .f32⟩ : BufTy).Contents (Elt Ideal)) (x21 : (⟨S128, .f32⟩ : BufTy).Contents (Elt Ideal))
    (r : Fin 40000) (j : Fin 128) :
    Read.val_main_v169 (F := Ideal) x0 x1 x2 x3 x4 x11 x12 x13 x14 x15 x20 x21 (ix2 r j)
      = HeteroConv.mean2 (Read.val_main_v36 x0 x2 x3 x4 x14) (Read.val_main_v77 x1 x11 x12 x13 x20) x15 x21 r j := by
  rw [Read.val_main_v169_apply, Read.val_main_v168_apply, Read.val_main_cst_35_apply, Read.val_main_v167_apply,
    Read.val_main_v40_apply, Read.val_main_v39_apply, Read.val_main_v38_apply, Read.val_main_v37_apply,
    Read.val_main_call0_v0_apply, Read.val_main_call0_cst_apply,
    Read.val_main_v81_apply, Read.val_main_v80_apply, Read.val_main_v79_apply, Read.val_main_v78_apply,
    Read.val_main_call1_v0_apply, Read.val_main_call1_cst_apply]
  have e₀ : Read.idx_main_v37 (Read.idx_main_v38 (ix2 r j)) = ix1 j := idx_bias r j
  have e₁ : Read.idx_main_v78 (Read.idx_main_v79 (ix2 r j)) = ix1 j := idx_bias r j
  rw [e₀, e₁]
  simp only [HeteroConv.mean2, HeteroConv.act, Ideal.mulf_def, Ideal.addf_def, Ideal.maximumf_def, Ideal.ofBits_def]

/-- Two tables laid one after the other along a new leading axis: the leading coordinate 0 reads the first table. -/
theorem stack_zero (y₀ y₁ : S1x40000x128.Idx → EReal) (h : 0 < 2) (r : Fin 40000) (j : Fin 128) :
    concatenate S2x40000x128 0 [⟨S1x40000x128, y₀⟩, ⟨S1x40000x128, y₁⟩]
        concatenates_S1x40000x128_S1x40000x128_S2x40000x128_d0 (ix3 (⟨0, h⟩ : Fin 2) r j)
      = y₀ (ix3 (0 : Fin 1) r j) :=
  concatenate_pair_apply_left (t := S2x40000x128) (s₁ := S1x40000x128) (s₂ := S1x40000x128) 0 y₀ y₁
    concatenates_S1x40000x128_S1x40000x128_S2x40000x128_d0 (ix3 (⟨0, h⟩ : Fin 2) r j) rfl (ix3 (0 : Fin 1) r j)
    (fun a => by
      match a with
      | ⟨0, _⟩ => rfl
      | ⟨1, _⟩ => rfl
      | ⟨2, _⟩ => rfl)

/-- The leading coordinate 1 reads the second table. -/
theorem stack_one (y₀ y₁ : S1x40000x128.Idx → EReal) (h : 1 < 2) (r : Fin 40000) (j : Fin 128) :
    concatenate S2x40000x128 0 [⟨S1x40000x128, y₀⟩, ⟨S1x40000x128, y₁⟩]
        concatenates_S1x40000x128_S1x40000x128_S2x40000x128_d0 (ix3 (⟨1, h⟩ : Fin 2) r j)
      = y₁ (ix3 (0 : Fin 1) r j) :=
  concatenate_pair_apply_right (t := S2x40000x128) (s₁ := S1x40000x128) (s₂ := S1x40000x128) 0 y₀ y₁
    concatenates_S1x40000x128_S1x40000x128_S2x40000x128_d0 (ix3 (⟨1, h⟩ : Fin 2) r j) rfl rfl (ix3 (0 : Fin 1) r j)
    (fun a => by
      match a with
      | ⟨0, _⟩ => exact fun hne => absurd rfl hne
      | ⟨1, _⟩ => exact fun _ => rfl
      | ⟨2, _⟩ => exact fun _ => rfl)
    rfl

/-- The reference's result is the stacked half-sums of the four aggregates. -/
theorem out_eq (x0 x1 : (⟨S40000x128, .f32⟩ : BufTy).Contents (Elt Ideal)) (x2 x3 : (⟨S1000000, .i32⟩ : BufTy).Contents (Elt Ideal)) (x4 : (⟨S1000000, .f32⟩ : BufTy).Contents (Elt Ideal)) (x5 x6 : (⟨S1000000, .i32⟩ : BufTy).Contents (Elt Ideal)) (x7 : (⟨S1000000, .f32⟩ : BufTy).Contents (Elt Ideal)) (x8 x9 : (⟨S1000000, .i32⟩ : BufTy).Contents (Elt Ideal)) (x10 : (⟨S1000000, .f32⟩ : BufTy).Contents (Elt Ideal)) (x11 x12 : (⟨S1000000, .i32⟩ : BufTy).Contents (Elt Ideal)) (x13 : (⟨S1000000, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) (x20 : (⟨S128x128, .f32⟩ : BufTy).Contents (Elt Ideal)) (x21 : (⟨S128, .f32⟩ : BufTy).Contents (Elt Ideal)) :
    Read.val_main_v172 (F := Ideal) x0 x1 x2 x3 x4 x5 x6 x7 x8 x9 x10 x11 x12 x13 x14 x15 x16 x17 x18 x19 x20 x21
      = HeteroConv.out (Read.val_main_v118 x1 x5 x6 x7 x16) (Read.val_main_v159 x0 x8 x9 x10 x18)
          (Read.val_main_v36 x0 x2 x3 x4 x14) (Read.val_main_v77 x1 x11 x12 x13 x20) x17 x19 x15 x21 := by
  funext i
  obtain ⟨b, r, j, rfl⟩ : ∃ (b : Fin 2) (r : Fin 40000) (j : Fin 128), i = ix3 b r j := ⟨i 0, i 1, i 2, eq_ix3 i⟩
  unfold Read.val_main_v172
  match b with
  | ⟨0, h⟩ =>
    have e : Read.idx_main_v170 (ix3 (0 : Fin 1) r j) = ix2 r j := idx_lead 0 r j
    rw [stack_zero _ _ h r j, Read.val_main_v170_apply, e, half_first]
    exact (HeteroConv.out_zero _ _ _ _ _ _ _ _ r j).symm
  | ⟨1, h⟩ =>
    have e : Read.idx_main_v171 (ix3 (0 : Fin 1) r j) = ix2 r j := idx_lead 0 r j
    rw [stack_one _ _ h r j, Read.val_main_v171_apply, e, half_second]
    exact (HeteroConv.out_one _ _ _ _ _ _ _ _ r j).symm

end Cert.ReferenceIdeal.RefValue

end
-- ==== Proof.KernelValue.lean ====
/-
  The idealized kernel program's result array is the reference's last stage of the launch arrays.

  Reading the run's fold from the end: the result buffer holds the combine region's output, which is the stacked
  mean of max(aggregate + bias, 0) of the four aggregates and biases the region finds; each aggregate is what the host
  stretch leaves, the reference's scatter-add stage, because the projected table it starts from is the reference's
  contraction stage (the projection regions compute x · W block by block, the reference in one contraction: the same
  sum over k at every entry); the edge arrays, weight matrices and biases are never written, so they are as launched.
-/
import proofs.«100988_j73976516706654_2_alg».proof.Proof.KernelRun
import proofs.«100988_j73976516706654_2_alg».proof.Proof.HostValues
import proofs.«100988_j73976516706654_2_alg».proof.Proof.ProjRegions
import proofs.«100988_j73976516706654_2_alg».proof.Proof.CombineRegion
import proofs.«100988_j73976516706654_2_alg».proof.Proof.RefProjection
import proofs.«100988_j73976516706654_2_alg».proof.Proof.RefCombine
import Idealize.ShloMosaic.Lib.ValueLayout

set_option maxRecDepth 16384

noncomputable section

namespace Cert.KernelIdeal.Outcome

open Cert.KernelIdeal Cert.KernelIdeal.Gen Cert.KernelIdeal.HostValues
open Idealize.ShloMosaic Idealize.ShloMosaic.TcCoe Idealize.ShloMosaic.ValueIdx Idealize.SL.Sem
open Cert.ReferenceIdeal.Read (val_main_v23 val_main_v36 val_main_v64 val_main_v77 val_main_v105 val_main_v118 val_main_v146 val_main_v159 val_main_v172)

variable (m : (ℓ : Loc nD τ sig) → Buf (Elt Ideal) ℓ) (ρ : Dev nD → PrngReg)

/-! ## What the projection regions leave -/

/-- A buffer neither projection region stages holds, after both, its launch contents. -/
theorem W2_launch (c : Dev nD) (b : Ref sig .tc) (h1 : ∀ w, Pipeline.arrRef spec1 w ≠ b) (h0 : ∀ w, Pipeline.arrRef spec0 w ≠ b) :
    W2 m ρ c (Proc.devRef .tc b) = m ((c : Thread nD τ).loc b) :=
  (W2_of_ne m ρ c b h1).trans (W1_of_ne m ρ c b h0)

/-- The demand relation's projected table (companies · W_demand) is the reference's contraction stage. -/
theorem table_v0_0 (c : Dev nD) :
    W2 m ρ c (Proc.devRef .tc main_v0_0) = val_main_v23 (F := Ideal) (m ((c : Thread nD τ).loc main_arg0)) (m ((c : Thread nD τ).loc main_arg14)) :=
  (W2_of_ne m ρ c main_v0_0 (by decide)).trans ((W1_arr m ρ c 3).trans
    ((ProjRegions.arr0_3 (V0 m ρ) c).trans (Cert.ReferenceIdeal.RefValue.proj_v23 _ _).symm))

/-- The company-flow relation's projected table (companies · W_cflow). -/
theorem table_v0_1 (c : Dev nD) :
    W2 m ρ c (Proc.devRef .tc main_v0_1) = val_main_v146 (F := Ideal) (m ((c : Thread nD τ).loc main_arg0)) (m ((c : Thread nD τ).loc main_arg18)) :=
  (W2_of_ne m ρ c main_v0_1 (by decide)).trans ((W1_arr m ρ c 4).trans
    ((ProjRegions.arr0_4 (V0 m ρ) c).trans (Cert.ReferenceIdeal.RefValue.proj_v146 _ _).symm))

/-- The supply relation's projected table (positions · W_supply): the second region reads its inputs as launched. -/
theorem table_v1_0 (c : Dev nD) :
    W2 m ρ c (Proc.devRef .tc main_v1_0) = val_main_v105 (F := Ideal) (m ((c : Thread nD τ).loc main_arg1)) (m ((c : Thread nD τ).loc main_arg16)) := by
  refine (W2_arr m ρ c 3).trans ((ProjRegions.arr1_3 (V1 m ρ) c).trans ?_)
  rw [show V1 m ρ c main_arg1 = (m ((c : Thread nD τ).loc main_arg1)) from W1_of_ne m ρ c main_arg1 (by decide),
    show V1 m ρ c main_arg16 = (m ((c : Thread nD τ).loc main_arg16)) from W1_of_ne m ρ c main_arg16 (by decide)]
  exact (Cert.ReferenceIdeal.RefValue.proj_v105 _ _).symm

/-- The position-flow relation's projected table (positions · W_pflow). -/
theorem table_v1_1 (c : Dev nD) :
    W2 m ρ c (Proc.devRef .tc main_v1_1) = val_main_v64 (F := Ideal) (m ((c : Thread nD τ).loc main_arg1)) (m ((c : Thread nD τ).loc main_arg20)) := by
  refine (W2_arr m ρ c 4).trans ((ProjRegions.arr1_4 (V1 m ρ) c).trans ?_)
  rw [show V1 m ρ c main_arg1 = (m ((c : Thread nD τ).loc main_arg1)) from W1_of_ne m ρ c main_arg1 (by decide),
    show V1 m ρ c main_arg20 = (m ((c : Thread nD τ).loc main_arg20)) from W1_of_ne m ρ c main_arg20 (by decide)]
  exact (Cert.ReferenceIdeal.RefValue.proj_v64 _ _).symm

/-! ## The biases as the combine region finds them -/

theorem bias_v146 (c : Dev nD) :
    (fun i : HeteroConv.Bias.Idx => V3 m ρ c main_v146 (ix2 0 (i 0))) = (m ((c : Thread nD τ).loc main_arg17)) := by
  funext i
  obtain ⟨j, rfl⟩ : ∃ j : Fin 128, i = ix1 j := ⟨i 0, eq_ix1 i⟩
  rw [show V3 m ρ c main_v146 = _ from v146_after (W2 m ρ c)]
  rw [W2_launch m ρ c main_arg17 (by decide) (by decide)]
  exact shapeCast_a_1a_apply _ _ 0 j

theorem bias_v147 (c : Dev nD) :
    (fun i : HeteroConv.Bias.Idx => V3 m ρ c main_v147 (ix2 0 (i 0))) = (m ((c : Thread nD τ).loc main_arg19)) := by
  funext i
  obtain ⟨j, rfl⟩ : ∃ j : Fin 128, i = ix1 j := ⟨i 0, eq_ix1 i⟩
  rw [show V3 m ρ c main_v147 = _ from v147_after (W2 m ρ c)]
  rw [W2_launch m ρ c main_arg19 (by decide) (by decide)]
  exact shapeCast_a_1a_apply _ _ 0 j

theorem bias_v148 (c : Dev nD) :
    (fun i : HeteroConv.Bias.Idx => V3 m ρ c main_v148 (ix2 0 (i 0))) = (m ((c : Thread nD τ).loc main_arg15)) := by
  funext i
  obtain ⟨j, rfl⟩ : ∃ j : Fin 128, i = ix1 j := ⟨i 0, eq_ix1 i⟩
  rw [show V3 m ρ c main_v148 = _ from v148_after (W2 m ρ c)]
  rw [W2_launch m ρ c main_arg15 (by decide) (by decide)]
  exact shapeCast_a_1a_apply _ _ 0 j

theorem bias_v149 (c : Dev nD) :
    (fun i : HeteroConv.Bias.Idx => V3 m ρ c main_v149 (ix2 0 (i 0))) = (m ((c : Thread nD τ).loc main_arg21)) := by
  funext i
  obtain ⟨j, rfl⟩ : ∃ j : Fin 128, i = ix1 j := ⟨i 0, eq_ix1 i⟩
  rw [show V3 m ρ c main_v149 = _ from v149_after (W2 m ρ c)]
  rw [W2_launch m ρ c main_arg21 (by decide) (by decide)]
  exact shapeCast_a_1a_apply _ _ 0 j

/-! ## The result -/

/-- The result buffer after the run is the reference's last stage of the launch arrays. -/
theorem result_value (c : Dev nD) :
    W4 m ρ c (Proc.devRef .tc main_v150)
      = val_main_v172 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  refine (W4_arr m ρ c 8).trans ((CombineRegion.arr2_8 (V3 m ρ) c).trans ?_)
  rw [bias_v146 m ρ c, bias_v147 m ρ c, bias_v148 m ρ c, bias_v149 m ρ c]
  rw [show V3 m ρ c main_v109 = _ from v109_after (W2 m ρ c) _ _ (table_v1_0 m ρ c),
    show V3 m ρ c main_v145 = _ from v145_after (W2 m ρ c) _ _ (table_v0_1 m ρ c),
    show V3 m ρ c main_v37 = _ from v37_after (W2 m ρ c) _ _ (table_v0_0 m ρ c),
    show V3 m ρ c main_v73 = _ from v73_after (W2 m ρ c) _ _ (table_v1_1 m ρ c)]
  rw [W2_launch m ρ c main_arg2 (by decide) (by decide),
    W2_launch m ρ c main_arg3 (by decide) (by decide),
    W2_launch m ρ c main_arg4 (by decide) (by decide),
    W2_launch m ρ c main_arg5 (by decide) (by decide),
    W2_launch m ρ c main_arg6 (by decide) (by decide),
    W2_launch m ρ c main_arg7 (by decide) (by decide),
    W2_launch m ρ c main_arg8 (by decide) (by decide),
    W2_launch m ρ c main_arg9 (by decide) (by decide),
    W2_launch m ρ c main_arg10 (by decide) (by decide),
    W2_launch m ρ c main_arg11 (by decide) (by decide),
    W2_launch m ρ c main_arg12 (by decide) (by decide),
    W2_launch m ρ c main_arg13 (by decide) (by decide)]
  exact (Cert.ReferenceIdeal.RefValue.out_eq _ _ _ _ _ _ _ _ _ _ _ _ _ _ _ _ _ _ _ _ _ _).symm

/-- The run, with the result as that stage: every weakly fair execution terminates with the result buffer at the
    reference's last stage of the launch arrays and every argument as launched. -/
theorem run_value :
    θ_run (defs (F := Ideal)) (onTc (τ := τ) (main (F := Ideal))) ⟨m, fun _ => 0, ρ⟩ (fun r => ∀ c : Dev nD,
      r.2.mem ((c.tc : Thread nD τ).loc main_v150)
        = val_main_v172 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run (defs (F := Ideal)) _ _).mono (fun r h c => ⟨(h c).1.trans (result_value m ρ c), (h c).2⟩) (run_result m ρ)

end Cert.KernelIdeal.Outcome

end
-- ==== Proof.RefRun.lean ====
/-
  The reference program's run, its result named by the last stage function.

  Every weakly fair execution of the reference from a launch memory terminates; the result buffer then holds the
  last stage's value of the twenty-two arguments' launch contents, and the arguments are unchanged.
-/
import proofs.«100988_j73976516706654_2_alg».proof.Proof.Gen.ReferenceIdeal.Read

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The generated run, with the result's term replaced by the stage function it equals. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v172) = Read.val_main_v172 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨(h c).1.trans (Read.val_main_v172_eq m c), (h c).2⟩)
    (Value.run (F := Ideal) m ρ)

end Cert.ReferenceIdeal.RefValue

end
-- ==== Proof.lean ====
/-
  The certificate: the pallas program and the plain reference compute the same stacked table.

  Both programs project each node table by each relation's weight matrix, aggregate the projected rows along the
  relation's edges with the same normalized weights, add the bias, take max(·, 0), and average the two relations that
  end in each node table. They differ in where the dense parts run: the kernel program computes the four projections
  x · W block by block in two pipelined regions and the final max / mean / stacking in a third, with the edge
  aggregation on the host in between; the reference does everything on the host. On the extended reals a matrix
  product accumulated into a zero block is the contraction's sum over k at every entry, whatever the blocking, and the
  aggregation is the same chain of host operations applied to equal tables; the final combination is the same
  arithmetic entry by entry. No law that needs finiteness is used, so the precondition is never opened.

  The three frames: the kernel program's two are the generated frame certificates; the reference's is its generated
  run with the result dropped. Nothing was rewritten on the way to the idealized kernel, so that conjunct is trivial.
-/
import proofs.«100988_j73976516706654_2_alg».proof.Defs
import proofs.«100988_j73976516706654_2_alg».proof.Proof.Gen.Kernel
import proofs.«100988_j73976516706654_2_alg».proof.Proof.Gen.Kernel.Frame
import proofs.«100988_j73976516706654_2_alg».proof.Proof.Gen.KernelIdeal
import proofs.«100988_j73976516706654_2_alg».proof.Proof.Gen.KernelIdeal.Frame
import proofs.«100988_j73976516706654_2_alg».proof.Proof.Gen.ReferenceIdeal
import proofs.«100988_j73976516706654_2_alg».proof.Proof.Gen.ReferenceIdeal.Run
import proofs.«100988_j73976516706654_2_alg».proof.Proof.Gen.Pre_finite_inputs
import proofs.«100988_j73976516706654_2_alg».proof.Proof.KernelValue
import proofs.«100988_j73976516706654_2_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments alone. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both idealized programs end with the same result array: the
    reference's last stage of the arguments — the kernel program's by reading its run's fold, the reference's by its
    own run, the two argument lists identified by the agreement. -/
theorem algebraic : Cert.algebraic_KernelIdeal_ReferenceIdeal := by
  intro m ρ m' ρ' _ hagree
  refine ⟨fun c => Cert.ReferenceIdeal.Read.val_main_v172 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)),
    Cert.KernelIdeal.Outcome.run_value m ρ, ?_⟩
  refine (θ_run (Cert.ReferenceIdeal.defs (F := Ideal)) _ _).mono (fun r h c => ⟨(h c).1.trans ?_, (h c).2⟩)
    (Cert.ReferenceIdeal.RefValue.ref_run m' ρ')
  obtain ⟨h0, h1, h2, h3, h4, h5, h6, h7, h8, h9, h10, h11, h12, h13, h14, h15, h16, h17, h18, h19, h20, h21⟩ := hagree c
  rw [h0, h1, h2, h3, h4, h5, h6, h7, h8, h9, h10, h11, h12, h13, h14, h15, h16, h17, h18, h19, h20, h21]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
